-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x4x128 : Shape := ⟨3, ![1, 4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part2 {F : FTy → Type} [FloatOps F] (main_arg8 : FVec F S256 .f32) (main_arg9 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S1x4x128 .f32) (main_arg7 : FVec F S1x4x128 .f32) (main_arg8 : FVec F S256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x4x128 .f32 := Host.absf main_arg6
  let main_cst_8 : FVec F S_ .f32 := constant S_ .f32 0x7F800000#32
  let main_v25 : FVec F S1x4x128 .f32 := broadcastInDim S1x4x128 ![] bcast_S_S1x4x128 main_cst_8
  let main_v26 : IVec S1x4x128 1 := cmpf .olt main_v24 main_v25
  let main_c_9 : IVec S_ 1 := constantI S_ 1 1#1
  let main_v27 : IVec S_ 1 := (fun x v => Host.reduce IntOp.andi x v reducesTo_S1x4x128_S_d0_1_2 h_S_) main_v26 main_c_9
  let main_v28 : IVec S_ 1 := andi main_v23 main_v27
  let main_v29 : FVec F S1x4x128 .f32 := Host.absf main_arg7
  let main_cst_10 : FVec F S_ .f32 := constant S_ .f32 0x7F800000#32
  let main_v30 : FVec F S1x4x128 .f32 := broadcastInDim S1x4x128 ![] bcast_S_S1x4x128 main_cst_10
  let main_v31 : IVec S1x4x128 1 := cmpf .olt main_v29 main_v30
  let main_c_11 : IVec S_ 1 := constantI S_ 1 1#1
  let main_v32 : IVec S_ 1 := (fun x v => Host.reduce IntOp.andi x v reducesTo_S1x4x128_S_d0_1_2 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S256 .f32) (main_arg4 : FVec F S256x256 .f32) (main_arg5 : FVec F S256 .f32) (main_arg6 : FVec F S1x4x128 .f32) (main_arg7 : FVec F S1x4x128 .f32) (main_arg8 : FVec F S256 .f32) (main_arg9 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x4x128 : Shape := ⟨3, ![1, 4, 128]⟩
abbrev S1x800000 : Shape := ⟨2, ![1, 800000]⟩
abbrev S800000 : Shape := ⟨1, ![800000]⟩
abbrev S128x256 : Shape := ⟨2, ![128, 256]⟩
abbrev S1x4x64 : Shape := ⟨3, ![1, 4, 64]⟩
abbrev S4x64 : Shape := ⟨2, ![4, 64]⟩
abbrev S50000x256 : Shape := ⟨2, ![50000, 256]⟩
abbrev S50000x4 : Shape := ⟨2, ![50000, 4]⟩
abbrev S2000x128 : Shape := ⟨2, ![2000, 128]⟩
abbrev S2000x256 : Shape := ⟨2, ![2000, 256]⟩
abbrev S2000x4 : Shape := ⟨2, ![2000, 4]⟩
abbrev S1x256 : Shape := ⟨2, ![1, 256]⟩
abbrev S2000x64 : Shape := ⟨2, ![2000, 64]⟩
abbrev S2000 : Shape := ⟨1, ![2000]⟩
abbrev S2000x1 : Shape := ⟨2, ![2000, 1]⟩
abbrev S_ : Shape := ⟨0, ![]⟩
abbrev S800000x1 : Shape := ⟨2, ![800000, 1]⟩
abbrev S800000x4 : Shape := ⟨2, ![800000, 4]⟩
abbrev S800000x256 : Shape := ⟨2, ![800000, 256]⟩
abbrev S800000x4x64 : Shape := ⟨3, ![800000, 4, 64]⟩
abbrev S50000x64 : Shape := ⟨2, ![50000, 64]⟩

abbrev nBuf : Space → Nat
  | .hbm => 122
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x4x128, .f32⟩
  | .hbm, ⟨7, _⟩ => ⟨S1x4x128, .f32⟩
  | .hbm, ⟨8, _⟩ => ⟨S256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S128x256, .f32⟩
  | .hbm, ⟨15, _⟩ => ⟨S256x256, .f32⟩
  | .hbm, ⟨16, _⟩ => ⟨S1x4x64, .f32⟩
  | .hbm, ⟨17, _⟩ => ⟨S4x64, .f32⟩
  | .hbm, ⟨18, _⟩ => ⟨S256, .f32⟩
  | .hbm, ⟨19, _⟩ => ⟨S1x4x64, .f32⟩
  | .hbm, ⟨20, _⟩ => ⟨S4x64, .f32⟩
  | .hbm, ⟨21, _⟩ => ⟨S256, .f32⟩
  | .hbm, ⟨22, _⟩ => ⟨S1x4x64, .f32⟩
  | .hbm, ⟨23, _⟩ => ⟨S4x64, .f32⟩
  | .hbm, ⟨24, _⟩ => ⟨S256, .f32⟩
  | .hbm, ⟨25, _⟩ => ⟨S1x4x64, .f32⟩
  | .hbm, ⟨26, _⟩ => ⟨S4x64, .f32⟩
  | .hbm, ⟨27, _⟩ => ⟨S256, .f32⟩
  | .hbm, ⟨28, _⟩ => ⟨S50000x256, .f32⟩
  | .hbm, ⟨29, _⟩ => ⟨S50000x4, .f32⟩
  | .hbm, ⟨30, _⟩ => ⟨S50000x4, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x4, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x4, .f32⟩
  | .hbm, ⟨49, _⟩ => ⟨S800000x4, .f32⟩
  | .hbm, ⟨50, _⟩ => ⟨S_, .f32⟩
  | .hbm, ⟨51, _⟩ => ⟨S800000x4, .f32⟩
  | .hbm, ⟨52, _⟩ => ⟨S800000x4, .f32⟩
  | .hbm, ⟨53, _⟩ => ⟨S800000x4, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S800000x4x64, .f32⟩
  | .hbm, ⟨64, _⟩ => ⟨S800000x256, .f32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S_, .f32⟩
  | .hbm, ⟨71, _⟩ => ⟨S50000x4, .f32⟩
  | .hbm, ⟨72, _⟩ => ⟨S800000x1, .i32⟩
  | .hbm, ⟨73, _⟩ => ⟨S50000x4, .f32⟩
  | .hbm, ⟨74, _⟩ => ⟨S50000x256, .f32⟩
  | .hbm, ⟨75, _⟩ => ⟨S50000x256, .f32⟩
  | .hbm, ⟨76, _⟩ => ⟨S50000x4, .f32⟩
  | .hbm, ⟨77, _⟩ => ⟨S50000x4, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x4, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x4, .f32⟩
  | .hbm, ⟨96, _⟩ => ⟨S800000x4, .f32⟩
  | .hbm, ⟨97, _⟩ => ⟨S_, .f32⟩
  | .hbm, ⟨98, _⟩ => ⟨S800000x4, .f32⟩
  | .hbm, ⟨99, _⟩ => ⟨S800000x4, .f32⟩
  | .hbm, ⟨100, _⟩ => ⟨S800000x4, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x256, .f32⟩
  | .hbm, ⟨110, _⟩ => ⟨S800000x4x64, .f32⟩
  | .hbm, ⟨111, _⟩ => ⟨S800000x256, .f32⟩
  | .hbm, ⟨112, _⟩ => ⟨S800000x256, .f32⟩
  | .hbm, ⟨113, _⟩ => ⟨S_, .f32⟩
  | .hbm, ⟨114, _⟩ => ⟨S50000x256, .f32⟩
  | .hbm, ⟨115, _⟩ => ⟨S800000x1, .i32⟩
  | .hbm, ⟨116, _⟩ => ⟨S50000x256, .f32⟩
  | .hbm, ⟨117, _⟩ => ⟨S_, .f32⟩
  | .hbm, ⟨118, _⟩ => ⟨S50000x4, .f32⟩
  | .hbm, ⟨119, _⟩ => ⟨S800000x1, .i32⟩
  | .hbm, ⟨120, _⟩ => ⟨S50000x4, .f32⟩
  | .hbm, ⟨121, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x4, .f32⟩
  | .local _ .vmem, ⟨9, _⟩ => ⟨S2000x4, .f32⟩
  | .local _ .vmem, ⟨10, _⟩ => ⟨S2000x4, .f32⟩
  | .local _ .vmem, ⟨11, _⟩ => ⟨S2000x4, .f32⟩
  | .local _ .vmem, ⟨12, _⟩ => ⟨S2000x256, .f32⟩
  | .local _ .vmem, ⟨13, _⟩ => ⟨S2000x256, .f32⟩
  | .local _ .vmem, ⟨14, _⟩ => ⟨S2000x4, .f32⟩
  | .local _ .vmem, ⟨15, _⟩ => ⟨S2000x4, .f32⟩
  | .local _ .vmem, ⟨16, _⟩ => ⟨S256, .f32⟩
  | .local _ .vmem, ⟨17, _⟩ => ⟨S256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S2000x256, .f32⟩
  | .local _ .vmem, ⟨27, _⟩ => ⟨S2000x256, .f32⟩
  | .local _ .vmem, ⟨28, _⟩ => ⟨S2000x4, .f32⟩
  | .local _ .vmem, ⟨29, _⟩ => ⟨S2000x4, .f32⟩
  | .local _ .vmem, ⟨30, _⟩ => ⟨S2000x4, .f32⟩
  | .local _ .vmem, ⟨31, _⟩ => ⟨S2000x4, .f32⟩
  | .local _ .vmem, ⟨32, _⟩ => ⟨S2000x256, .f32⟩
  | .local _ .vmem, ⟨33, _⟩ => ⟨S2000x256, .f32⟩
  | .local _ .vmem, ⟨34, _⟩ => ⟨S2000x4, .f32⟩
  | .local _ .vmem, ⟨35, _⟩ => ⟨S2000x4, .f32⟩
  | .local _ .vmem, ⟨36, _⟩ => ⟨S2000x64, .f32⟩
  | .local _ .vmem, ⟨37, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev main_v54_2 : Ref sig .tc := ⟨.hbm, 77, rfl⟩
abbrev main_c_7 : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_15 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x4 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x128_S128x256_1_0 : S256x128.Transposes [1, 0] S128x256
  transposes_S256x256_S256x256_1_0 : S256x256.Transposes [1, 0] S256x256
  slices_S1x4x128_S1x4x64_0_0_0 : S1x4x128.Slices ![0, 0, 0] S1x4x64
  shapeCasts_S1x4x64_S4x64 : S1x4x64.ShapeCasts S4x64
  shapeCasts_S4x64_S256 : S4x64.ShapeCasts S256
  slices_S1x4x128_S1x4x64_0_0_64 : S1x4x128.Slices ![0, 0, 64] S1x4x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S256_S256 : S256.ShapeCasts S256
  slices_S2000x256_o0_0_S2000x64 : S2000x256.Slices ![0, 0] S2000x64
  reduces_S2000x64_S2000 : S2000x64.Reduces [1] S2000
  shapeCasts_S2000_S2000x1 : S2000.ShapeCasts S2000x1
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  concatenates_S2000x1_S2000x1_S2000x1_S2000x1_S2000x4_d1 : Shape.Concatenates [S2000x1, S2000x1, S2000x1, S2000x1] S2000x4 1
  inb_S2000x4_S2000x4_0_0 : ∀ a, (![0, 0] : Fin 2 → Nat) a + S2000x4.size a ≤ S2000x4.size a
  h_S2000x4 : 0 < S2000x4.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x4 : S_.BroadcastsInDim S800000x4 (![] : Fin 0 → Fin S800000x4.rank)
  bcast_S800000x4_S800000x4x64_0_1 : S800000x4.BroadcastsInDim S800000x4x64 (![0, 1] : Fin 2 → Fin S800000x4x64.rank)
  shapeCasts_S800000x4x64_S800000x256 : S800000x4x64.ShapeCasts S800000x256
  bcast_S_S50000x256 : S_.BroadcastsInDim S50000x256 (![] : Fin 0 → Fin S50000x256.rank)
  bcast_S_S50000x4 : S_.BroadcastsInDim S50000x4 (![] : Fin 0 → Fin S50000x4.rank)
  shapeCasts_S2000x256_S2000x256 : S2000x256.ShapeCasts S2000x256
  shapeCasts_S2000x4_S2000x4 : S2000x4.ShapeCasts S2000x4
  slices_S2000x4_o0_0_S2000x1 : S2000x4.Slices ![0, 0] S2000x1
  shapeCasts_S2000x1_S2000x1 : S2000x1.ShapeCasts S2000x1
  broadcasts_S2000x1_S2000x64 : S2000x1.Broadcasts S2000x64
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  concatenates_S2000x64_S2000x64_S2000x64_S2000x64_S2000x256_d1 : Shape.Concatenates [S2000x64, S2000x64, S2000x64, S2000x64] S2000x256 1
  reduces_S2000x256_S2000 : S2000x256.Reduces [1] S2000
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x64_S2000x64_0_0 : ∀ a, (![0, 0] : Fin 2 → Nat) a + S2000x64.size a ≤ S2000x64.size a
  h_S2000x64 : 0 < S2000x64.numel
  dot_S2000x128_S128x256_S2000x256_1_0_0_1_n_n_wf : DotDims.WF S2000x128 S128x256 S2000x256 [1] [0] [0] [1] [] []
  gather_S50000x4_S800000x1_S800000x4_1_0_n_n_0_1_14_wf : GatherDims.WF S50000x4 S800000x1 S800000x4 [1] [0] [] [0] [] 1 ![1, 4]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x4_S800000x1_S800000x4_1_0_0_1_wf : ScatterDims.WF S50000x4 S800000x1 S800000x4 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x4.size a ≤ S50000x4.size a
  hwx0_6 : ∀ i : grid0.Coords, EltTy.bits .f32 = 32 ∨ (Rect.block (s := S50000x4) S2000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x4.size a ≤ S50000x4.size a
  hwx0_7 : ∀ i : grid0.Coords, EltTy.bits .f32 = 32 ∨ (Rect.block (s := S50000x4) S2000x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x4.size a ≤ S50000x4.size a
  hwx1_1 : ∀ i : grid1.Coords, EltTy.bits .f32 = 32 ∨ (Rect.block (s := S50000x4) S2000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x4.size a ≤ S50000x4.size a
  hwx2_6 : ∀ i : grid2.Coords, EltTy.bits .f32 = 32 ∨ (Rect.block (s := S50000x4) S2000x4.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x4.size a ≤ S50000x4.size a
  hwx2_7 : ∀ i : grid2.Coords, EltTy.bits .f32 = 32 ∨ (Rect.block (s := S50000x4) S2000x4.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x4.size a ≤ S50000x4.size a
  hwx3_1 : ∀ i : grid3.Coords, EltTy.bits .f32 = 32 ∨ (Rect.block (s := S50000x4) S2000x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S2000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_2) S2000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v54_1) S2000x4.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54_2) S2000x4.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v85) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S2000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x4x128 : Shape := ⟨3, ![1, 4, 128]⟩
abbrev S128x256 : Shape := ⟨2, ![128, 256]⟩
abbrev S50000x256 : Shape := ⟨2, ![50000, 256]⟩
abbrev S1x256 : Shape := ⟨2, ![1, 256]⟩
abbrev S50000x4x64 : Shape := ⟨3, ![50000, 4, 64]⟩
abbrev S1x4x64 : Shape := ⟨3, ![1, 4, 64]⟩
abbrev S4x64 : Shape := ⟨2, ![4, 64]⟩
abbrev S_ : Shape := ⟨0, ![]⟩
abbrev S50000x4 : Shape := ⟨2, ![50000, 4]⟩
abbrev S1x800000 : Shape := ⟨2, ![1, 800000]⟩
abbrev S800000 : Shape := ⟨1, ![800000]⟩
abbrev S800000x1 : Shape := ⟨2, ![800000, 1]⟩
abbrev S800000x4 : Shape := ⟨2, ![800000, 4]⟩
abbrev S800000x4x64 : Shape := ⟨3, ![800000, 4, 64]⟩
abbrev S800000x4x1 : Shape := ⟨3, ![800000, 4, 1]⟩
abbrev S50000x4x1 : Shape := ⟨3, ![50000, 4, 1]⟩
abbrev S50000 : Shape := ⟨1, ![50000]⟩
abbrev S50000x1 : Shape := ⟨2, ![50000, 1]⟩
abbrev S50000x64 : Shape := ⟨2, ![50000, 64]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S256x256, .f32⟩
  | 5 => ⟨S256, .f32⟩
  | 6 => ⟨S1x4x128, .f32⟩
  | 7 => ⟨S1x4x128, .f32⟩
  | 8 => ⟨S256, .f32⟩
  | 9 => ⟨S256, .f32⟩
  | 10 => ⟨S128x256, .f32⟩
  | 11 => ⟨S50000x256, .f32⟩
  | 12 => ⟨S1x256, .f32⟩
  | 13 => ⟨S50000x256, .f32⟩
  | 14 => ⟨S50000x256, .f32⟩
  | 15 => ⟨S50000x4x64, .f32⟩
  | 16 => ⟨S1x4x64, .f32⟩
  | 17 => ⟨S4x64, .f32⟩
  | 18 => ⟨S1x4x64, .f32⟩
  | 19 => ⟨S4x64, .f32⟩
  | 20 => ⟨S1x4x64, .f32⟩
  | 21 => ⟨S50000x4x64, .f32⟩
  | 22 => ⟨S50000x4x64, .f32⟩
  | 23 => ⟨S_, .f32⟩
  | 24 => ⟨S50000x4x64, .f32⟩
  | 25 => ⟨S50000x4x64, .i1⟩
  | 26 => ⟨S_, .f32⟩
  | 27 => ⟨S50000x4x64, .f32⟩
  | 28 => ⟨S50000x4x64, .f32⟩
  | 29 => ⟨S50000x4x64, .f32⟩
  | 30 => ⟨S_, .f32⟩
  | 31 => ⟨S50000x4, .f32⟩
  | 32 => ⟨S1x4x64, .f32⟩
  | 33 => ⟨S50000x4x64, .f32⟩
  | 34 => ⟨S50000x4x64, .f32⟩
  | 35 => ⟨S_, .f32⟩
  | 36 => ⟨S50000x4x64, .f32⟩
  | 37 => ⟨S50000x4x64, .i1⟩
  | 38 => ⟨S_, .f32⟩
  | 39 => ⟨S50000x4x64, .f32⟩
  | 40 => ⟨S50000x4x64, .f32⟩
  | 41 => ⟨S50000x4x64, .f32⟩
  | 42 => ⟨S_, .f32⟩
  | 43 => ⟨S50000x4, .f32⟩
  | 44 => ⟨S1x800000, .i32⟩
  | 45 => ⟨S800000, .i32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x4, .f32⟩
  | 55 => ⟨S1x800000, .i32⟩
  | 56 => ⟨S800000, .i32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x4, .f32⟩
  | 66 => ⟨S800000x4, .f32⟩
  | 67 => ⟨S_, .f32⟩
  | 68 => ⟨S800000x4, .f32⟩
  | 69 => ⟨S800000x4, .f32⟩
  | 70 => ⟨S800000x4, .f32⟩
  | 71 => ⟨S1x800000, .i32⟩
  | 72 => ⟨S800000, .i32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x4x64, .f32⟩
  | 82 => ⟨S800000x4x1, .f32⟩
  | 83 => ⟨S800000x4x64, .f32⟩
  | 84 => ⟨S800000x4x64, .f32⟩
  | 85 => ⟨S1x800000, .i32⟩
  | 86 => ⟨S800000, .i32⟩
  | 87 => ⟨S_, .f32⟩
  | 88 => ⟨S50000x4x64, .f32⟩
  | 89 => ⟨S800000x1, .i32⟩
  | 90 => ⟨S50000x4x64, .f32⟩
  | 91 => ⟨S1x800000, .i32⟩
  | 92 => ⟨S800000, .i32⟩
  | 93 => ⟨S_, .f32⟩
  | 94 => ⟨S50000x4, .f32⟩
  | 95 => ⟨S800000x1, .i32⟩
  | 96 => ⟨S50000x4, .f32⟩
  | 97 => ⟨S50000x4x1, .f32⟩
  | 98 => ⟨S50000x4x64, .f32⟩
  | 99 => ⟨S50000x4x64, .f32⟩
  | 100 => ⟨S50000x256, .f32⟩
  | 101 => ⟨S_, .f32⟩
  | 102 => ⟨S50000, .f32⟩
  | 103 => ⟨S50000x1, .f32⟩
  | 104 => ⟨S_, .f32⟩
  | 105 => ⟨S50000x1, .f32⟩
  | 106 => ⟨S50000x1, .f32⟩
  | 107 => ⟨S50000x256, .f32⟩
  | 108 => ⟨S50000x256, .f32⟩
  | 109 => ⟨S50000x256, .f32⟩
  | 110 => ⟨S_, .f32⟩
  | 111 => ⟨S50000, .f32⟩
  | 112 => ⟨S50000x1, .f32⟩
  | 113 => ⟨S_, .f32⟩
  | 114 => ⟨S50000x1, .f32⟩
  | 115 => ⟨S50000x1, .f32⟩
  | 116 => ⟨S50000x256, .f32⟩
  | 117 => ⟨S50000x256, .f32⟩
  | 118 => ⟨S_, .f32⟩
  | 119 => ⟨S50000x1, .f32⟩
  | 120 => ⟨S50000x1, .f32⟩
  | 121 => ⟨S50000x1, .f32⟩
  | 122 => ⟨S50000x256, .f32⟩
  | 123 => ⟨S50000x256, .f32⟩
  | 124 => ⟨S1x256, .f32⟩
  | 125 => ⟨S50000x256, .f32⟩
  | 126 => ⟨S50000x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .i1⟩
  | 5 => ⟨S_, .f32⟩
  | 6 => ⟨S50000x256, .f32⟩
  | 7 => ⟨S50000x256, .f32⟩
  | 8 => ⟨S50000x256, .f32⟩
  | 9 => ⟨S256x256, .f32⟩
  | 10 => ⟨S50000x256, .f32⟩
  | 11 => ⟨S1x256, .f32⟩
  | 12 => ⟨S50000x256, .f32⟩
  | 13 => ⟨S50000x256, .f32⟩
  | 14 => ⟨S50000x4x64, .f32⟩
  | 15 => ⟨S1x4x64, .f32⟩
  | 16 => ⟨S4x64, .f32⟩
  | 17 => ⟨S1x4x64, .f32⟩
  | 18 => ⟨S4x64, .f32⟩
  | 19 => ⟨S1x4x64, .f32⟩
  | 20 => ⟨S50000x4x64, .f32⟩
  | 21 => ⟨S50000x4x64, .f32⟩
  | 22 => ⟨S_, .f32⟩
  | 23 => ⟨S50000x4x64, .f32⟩
  | 24 => ⟨S50000x4x64, .i1⟩
  | 25 => ⟨S_, .f32⟩
  | 26 => ⟨S50000x4x64, .f32⟩
  | 27 => ⟨S50000x4x64, .f32⟩
  | 28 => ⟨S50000x4x64, .f32⟩
  | 29 => ⟨S_, .f32⟩
  | 30 => ⟨S50000x4, .f32⟩
  | 31 => ⟨S1x4x64, .f32⟩
  | 32 => ⟨S50000x4x64, .f32⟩
  | 33 => ⟨S50000x4x64, .f32⟩
  | 34 => ⟨S_, .f32⟩
  | 35 => ⟨S50000x4x64, .f32⟩
  | 36 => ⟨S50000x4x64, .i1⟩
  | 37 => ⟨S_, .f32⟩
  | 38 => ⟨S50000x4x64, .f32⟩
  | 39 => ⟨S50000x4x64, .f32⟩
  | 40 => ⟨S50000x4x64, .f32⟩
  | 41 => ⟨S_, .f32⟩
  | 42 => ⟨S50000x4, .f32⟩
  | 43 => ⟨S1x800000, .i32⟩
  | 44 => ⟨S800000, .i32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x4, .f32⟩
  | 54 => ⟨S1x800000, .i32⟩
  | 55 => ⟨S800000, .i32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x4, .f32⟩
  | 65 => ⟨S800000x4, .f32⟩
  | 66 => ⟨S_, .f32⟩
  | 67 => ⟨S800000x4, .f32⟩
  | 68 => ⟨S800000x4, .f32⟩
  | 69 => ⟨S800000x4, .f32⟩
  | 70 => ⟨S1x800000, .i32⟩
  | 71 => ⟨S800000, .i32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x4x64, .f32⟩
  | 81 => ⟨S800000x4x1, .f32⟩
  | 82 => ⟨S800000x4x64, .f32⟩
  | 83 => ⟨S800000x4x64, .f32⟩
  | 84 => ⟨S1x800000, .i32⟩
  | 85 => ⟨S800000, .i32⟩
  | 86 => ⟨S_, .f32⟩
  | 87 => ⟨S50000x4x64, .f32⟩
  | 88 => ⟨S800000x1, .i32⟩
  | 89 => ⟨S50000x4x64, .f32⟩
  | 90 => ⟨S1x800000, .i32⟩
  | 91 => ⟨S800000, .i32⟩
  | 92 => ⟨S_, .f32⟩
  | 93 => ⟨S50000x4, .f32⟩
  | 94 => ⟨S800000x1, .i32⟩
  | 95 => ⟨S50000x4, .f32⟩
  | 96 => ⟨S50000x4x1, .f32⟩
  | 97 => ⟨S50000x4x64, .f32⟩
  | 98 => ⟨S50000x4x64, .f32⟩
  | 99 => ⟨S_, .f32⟩
  | 100 => ⟨S50000x64, .f32⟩
  | 101 => ⟨S_, .f32⟩
  | 102 => ⟨S50000x64, .f32⟩
  | 103 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_18 : Ref sig .tc := ⟨.hbm, 130, rfl⟩
abbrev main_v100 : Ref sig .tc := ⟨.hbm, 131, rfl⟩
abbrev main_v101 : Ref sig .tc := ⟨.hbm, 132, rfl⟩
abbrev main_cst_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_20 : Ref sig .tc := ⟨.hbm, 150, rfl⟩
abbrev main_v118 : Ref sig .tc := ⟨.hbm, 151, rfl⟩
abbrev main_v119 : Ref sig .tc := ⟨.hbm, 152, rfl⟩
abbrev main_cst_21 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_23 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_25 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_26 : Ref sig .tc := ⟨.hbm, 173, rfl⟩
abbrev main_v135 : Ref sig .tc := ⟨.hbm, 174, rfl⟩
abbrev main_v136 : Ref sig .tc := ⟨.hbm, 175, rfl⟩
abbrev main_c_27 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_c_28 : Ref sig .tc := ⟨.hbm, 184, rfl⟩
abbrev main_v144 : Ref sig .tc := ⟨.hbm, 185, rfl⟩
abbrev main_v145 : Ref sig .tc := ⟨.hbm, 186, rfl⟩
abbrev main_c_29 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_30 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_c_31 : Ref sig .tc := ⟨.hbm, 200, rfl⟩
abbrev main_v157 : Ref sig .tc := ⟨.hbm, 201, rfl⟩
abbrev main_v158 : Ref sig .tc := ⟨.hbm, 202, rfl⟩
abbrev main_c_32 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_33 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_35 : Ref sig .tc := ⟨.hbm, 227, rfl⟩
abbrev main_v180 : Ref sig .tc := ⟨.hbm, 228, rfl⟩
abbrev main_cst_36 : Ref sig .tc := ⟨.hbm, 229, rfl⟩
abbrev main_v181 : Ref sig .tc := ⟨.hbm, 230, rfl⟩
abbrev main_v182 : Ref sig .tc := ⟨.hbm, 231, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x256_S50000x4x64 : S50000x256.ShapeCasts S50000x4x64
  slices_S1x4x128_S1x4x64_0_0_0 : S1x4x128.Slices ![0, 0, 0] S1x4x64
  shapeCasts_S1x4x64_S4x64 : S1x4x64.ShapeCasts S4x64
  slices_S1x4x128_S1x4x64_0_0_64 : S1x4x128.Slices ![0, 0, 64] S1x4x64
  bcast_S4x64_S1x4x64_1_2 : S4x64.BroadcastsInDim S1x4x64 (![1, 2] : Fin 2 → Fin S1x4x64.rank)
  bcast_S1x4x64_S50000x4x64_0_1_2 : S1x4x64.BroadcastsInDim S50000x4x64 (![0, 1, 2] : Fin 3 → Fin S50000x4x64.rank)
  bcast_S_S50000x4x64 : S_.BroadcastsInDim S50000x4x64 (![] : Fin 0 → Fin S50000x4x64.rank)
  reducesTo_S50000x4x64_S50000x4_d2 : S50000x4x64.ReducesTo [2] S50000x4
  h_S_ : 0 < S_.numel
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S800000x4 : S_.BroadcastsInDim S800000x4 (![] : Fin 0 → Fin S800000x4.rank)
  bcast_S800000x4_S800000x4x1_0_1 : S800000x4.BroadcastsInDim S800000x4x1 (![0, 1] : Fin 2 → Fin S800000x4x1.rank)
  bcast_S800000x4x1_S800000x4x64_0_1_2 : S800000x4x1.BroadcastsInDim S800000x4x64 (![0, 1, 2] : Fin 3 → Fin S800000x4x64.rank)
  bcast_S_S50000x4 : S_.BroadcastsInDim S50000x4 (![] : Fin 0 → Fin S50000x4.rank)
  bcast_S50000x4_S50000x4x1_0_1 : S50000x4.BroadcastsInDim S50000x4x1 (![0, 1] : Fin 2 → Fin S50000x4x1.rank)
  bcast_S50000x4x1_S50000x4x64_0_1_2 : S50000x4x1.BroadcastsInDim S50000x4x64 (![0, 1, 2] : Fin 3 → Fin S50000x4x64.rank)
  shapeCasts_S50000x4x64_S50000x256 : S50000x4x64.ShapeCasts S50000x256
  reducesTo_S50000x256_S50000_d1 : S50000x256.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  transposes_S256x256_S256x256_1_0 : S256x256.Transposes [1, 0] S256x256
  reducesTo_S50000x4x64_S50000x64_d1 : S50000x4x64.ReducesTo [1] S50000x64
  bcast_S_S50000x64 : S_.BroadcastsInDim S50000x64 (![] : Fin 0 → Fin S50000x64.rank)
  dot_S50000x128_S128x256_S50000x256_1_0_0_1_n_n_wf : DotDims.WF S50000x128 S128x256 S50000x256 [1] [0] [0] [1] [] []
  gather_S50000x4_S800000x1_S800000x4_1_0_n_n_0_1_14_wf : GatherDims.WF S50000x4 S800000x1 S800000x4 [1] [0] [] [0] [] 1 ![1, 4]
  gather_S50000x4x64_S800000x1_S800000x4x64_12_0_n_n_0_1_1464_wf : GatherDims.WF S50000x4x64 S800000x1 S800000x4x64 [1, 2] [0] [] [0] [] 1 ![1, 4, 64]
  scatter_S50000x4x64_S800000x1_S800000x4x64_12_0_0_1_wf : ScatterDims.WF S50000x4x64 S800000x1 S800000x4x64 [1, 2] [0] [0] 1
  scatter_S50000x4_S800000x1_S800000x4_1_0_0_1_wf : ScatterDims.WF S50000x4 S800000x1 S800000x4 [1] [0] [0] 1
  dot_S50000x256_S256x256_S50000x256_1_0_0_1_n_n_wf : DotDims.WF S50000x256 S256x256 S50000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x4x64_S800000x1_S800000x4x64_12_0_n_n_0_1_1464 : GatherDims S50000x4x64 S800000x1 S800000x4x64 where
  offsetDims := [1, 2]
  collapsedSliceDims := [0]
  operandBatchingDims := []
  startIndicesBatchingDims := []
  startIndexMap := [0]
  indexVectorDim := 1
  sliceSizes := ![1, 4, 64]
  wf := gather_S50000x4x64_S800000x1_S800000x4x64_12_0_n_n_0_1_1464_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel program's run WITH ITS RESULT: every weakly fair execution of @main terminates, nothing faulting,
  with the result array at what the last region's write-backs leave (the last boundary's contents `Gen.W7` read at the
  result buffer) and the ten argument arrays as launched.  The launch over the seven segments (three stretches of host
  operations, four pallas_call regions) is the frame's; the one thing added is that the final state is read at the
  result buffer too, which is an unscoped buffer like the arguments.
-/
import proofs.«129437_j77214922047879_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer ends at the last boundary's contents. -/
theorem run : θ_run defs (onTc (τ := τ) (main (F := F))) ⟨m, fun _ => 0, ρ⟩ (fun r => ∀ c : Dev nD,
      r.2.mem ((c.tc : Thread nD τ).loc main_v89) = W7 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v89 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Run

end
-- ==== Proof.Spec.lean ====
/-
  The mathematics both programs compute, stated once over arrays of extended reals indexed by literal shapes, with
  no program imported.

  A node table is a [50000, 256] array: row `p` is node `p`, column `c` is channel `c % 64` of head `c / 64`
  (4 heads of 64 channels).  One graph-attention layer is
    * `lin`   — the dense layer  x · wt + b,
    * `score` — per node and head, the sum over the head's 64 channels of leakyReLU (a · att),
    * on the edges (kept as host operations of the programs, not restated here) the weights
      exp ((s_l[src] + s_r[dst]) / 128), the weighted rows, and their sums per destination node,
    * `agg`   — the summed rows divided, head by head, by the summed weights.
  Between the layers sits a layer normalisation over the 256 columns followed by a leaky ReLU (`lnK`, `lnR`), and
  the network ends with the mean of the 4 heads (`headK`, `headR`).  The two spellings differ in three places, and
  the three laws below say they agree ON EVERY EXTENDED REAL (no finiteness is used):
    * `d * rsqrt y = d / sqrt y` whenever `0 < y` — and `y = variance + ε` is positive because a sum of squares is
      non-negative on the extended reals and `ε` is a positive real;
    * `x * (1/4) = x / 4`;
    * a sum of four terms grouped from the left is the sum over `Fin 4`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Shapes and columns -/

abbrev SNC : Shape := ⟨2, ![50000, 256]⟩
abbrev SNH : Shape := ⟨2, ![50000, 4]⟩
abbrev SND : Shape := ⟨2, ![50000, 64]⟩
abbrev SC : Shape := ⟨1, ![256]⟩

/-- Column `64 h + q` of a flat row: channel `q` of head `h`. -/
def col (h : Fin 4) (q : Fin 64) : Fin 256 := ⟨64 * h.val + q.val, by omega⟩
/-- The head a flat column belongs to. -/
def headOf (c : Fin 256) : Fin 4 := ⟨c.val / 64, by omega⟩
/-- The channel of a flat column within its head. -/
def chanOf (c : Fin 256) : Fin 64 := ⟨c.val % 64, by omega⟩

theorem col_val (h : Fin 4) (q : Fin 64) : (col h q).val = 64 * h.val + q.val := rfl
theorem headOf_col (h : Fin 4) (q : Fin 64) : headOf (col h q) = h := Fin.ext (by simp only [headOf, col]; omega)
theorem chanOf_col (h : Fin 4) (q : Fin 64) : chanOf (col h q) = q := Fin.ext (by simp only [chanOf, col]; omega)
theorem col_headOf_chanOf (c : Fin 256) : col (headOf c) (chanOf c) = c := Fin.ext (by simp only [headOf, chanOf, col]; omega)

/-! ## The float words the programs spell, as extended reals -/

abbrev zeroW : EReal := Ideal.ofBits .f32 0x00000000#32
/-- the leaky slope, f32(0.01) -/
abbrev slopeW : EReal := Ideal.ofBits .f32 0x3C23D70A#32
/-- 256.0 -/
abbrev c256W : EReal := Ideal.ofBits .f32 0x43800000#32
/-- f32(1e-5) -/
abbrev epsW : EReal := Ideal.ofBits .f32 0x3727C5AC#32
/-- 0.25 -/
abbrev quarterW : EReal := Ideal.ofBits .f32 0x3E800000#32
/-- 4.0 -/
abbrev fourW : EReal := Ideal.ofBits .f32 0x40800000#32

theorem fourW_eq : fourW = ((4 : ℝ) : EReal) := by
  simp [fourW, Ideal.ofBits, Ideal.ieee, -EReal.coe_mul]; norm_num
theorem quarterW_eq : quarterW = ((1 / 4 : ℝ) : EReal) := by
  simp [quarterW, Ideal.ofBits, Ideal.ieee, -EReal.coe_mul]; norm_num
theorem c256W_eq : c256W = ((256 : ℝ) : EReal) := by
  simp [c256W, Ideal.ofBits, Ideal.ieee, -EReal.coe_mul]; norm_num
/-- `ε` is a positive real number. -/
theorem epsW_pos : ∃ e : ℝ, 0 < e ∧ epsW = (e : EReal) := by
  refine ⟨10995116 / 2 ^ 40, by norm_num, ?_⟩
  simp [epsW, Ideal.ofBits, Ideal.ieee, -EReal.coe_mul]; norm_num

/-! ## The layer's pieces -/

/-- Leaky ReLU as both programs spell it: `x` where `x > 0`, else `slope · x`. -/
def lrelu (x : EReal) : EReal :=
  Scalar.select (FloatOps.cmpf (F := Ideal) (φ := .f32) .ogt x zeroW) x (slopeW * x)

/-- The dense layer: `(∑ k, x (p,k) · wt (k,c)) + b c`. -/
def lin {K : Nat} (x : (⟨2, ![50000, K]⟩ : Shape).Idx → EReal) (wt : (⟨2, ![K, 256]⟩ : Shape).Idx → EReal)
    (b : SC.Idx → EReal) : SNC.Idx → EReal :=
  fun i => (∑ k : Fin K, x (ix2 (i 0) k) * wt (ix2 k (i 1))) + b (ix1 (i 1))

/-- The attention score of node `p`, head `h`: `∑ q, leakyReLU (a (p, 64h+q) · att (64h+q))`. -/
def score (a : SNC.Idx → EReal) (att : SC.Idx → EReal) : SNH.Idx → EReal :=
  fun i => ∑ q : Fin 64, lrelu (a (ix2 (i 0) (col (i 1) q)) * att (ix1 (col (i 1) q)))

/-- The summed rows divided head by head by the summed weights: `num (p,c) / den (p, c / 64)`. -/
def agg (num : SNC.Idx → EReal) (den : SNH.Idx → EReal) : SNC.Idx → EReal :=
  fun i => Ideal.div (num i) (den (ix2 (i 0) (headOf (i 1))))

/-- The mean of row `p`. -/
def rowMean (a : SNC.Idx → EReal) (p : Fin 50000) : EReal := Ideal.div (∑ c : Fin 256, a (ix2 p c)) c256W
/-- The variance of row `p`: the mean of the squared deviations. -/
def rowVar (a : SNC.Idx → EReal) (p : Fin 50000) : EReal :=
  Ideal.div (∑ c : Fin 256, (a (ix2 p c) - rowMean a p) * (a (ix2 p c) - rowMean a p)) c256W

/-- Layer normalisation then leaky ReLU, the kernel's spelling: the deviation TIMES `rsqrt (var + ε)`. -/
def lnK (a : SNC.Idx → EReal) (g b : SC.Idx → EReal) : SNC.Idx → EReal :=
  fun i => lrelu (((a i - rowMean a (i 0)) * Ideal.rsqrt (rowVar a (i 0) + epsW)) * g (ix1 (i 1)) + b (ix1 (i 1)))

/-- The same, the reference's spelling: the deviation DIVIDED BY `sqrt (var + ε)`. -/
def lnR (a : SNC.Idx → EReal) (g b : SC.Idx → EReal) : SNC.Idx → EReal :=
  fun i => lrelu (Ideal.div (a i - rowMean a (i 0)) (Ideal.sqrt (rowVar a (i 0) + epsW)) * g (ix1 (i 1)) + b (ix1 (i 1)))

/-- The mean of the 4 heads, the kernel's spelling: the four column bands added from the left, times `0.25`. -/
def headK (a : SNC.Idx → EReal) : SND.Idx → EReal :=
  fun i => (((a (ix2 (i 0) (col 0 (i 1))) + a (ix2 (i 0) (col 1 (i 1)))) + a (ix2 (i 0) (col 2 (i 1))))
    + a (ix2 (i 0) (col 3 (i 1)))) * quarterW

/-- The same, the reference's spelling: the sum over the heads divided by `4`. -/
def headR (a : SNC.Idx → EReal) : SND.Idx → EReal :=
  fun i => Ideal.div (∑ h : Fin 4, a (ix2 (i 0) (col h (i 1)))) fourW

/-! ## The three laws -/

/-- A square is non-negative on the extended reals (`⊥ · ⊥ = ⊤`). -/
theorem sq_nonneg_ereal (x : EReal) : 0 ≤ x * x := by
  induction x using EReal.rec with
  | bot => simp
  | top => simp
  | coe r => rw [← EReal.coe_mul]; exact_mod_cast _root_.mul_self_nonneg r

/-- A non-negative extended real divided by `256` is non-negative. -/
theorem div_c256_nonneg {s : EReal} (hs : 0 ≤ s) : 0 ≤ Ideal.div s c256W := by
  rw [c256W_eq, Ideal.div_coe (by norm_num : (256 : ℝ) ≠ 0)]
  exact mul_nonneg hs (by exact_mod_cast (by norm_num : (0 : ℝ) ≤ 1 / 256))

/-- The variance is non-negative, whatever the row holds. -/
theorem rowVar_nonneg (a : SNC.Idx → EReal) (p : Fin 50000) : 0 ≤ rowVar a p :=
  div_c256_nonneg (Finset.sum_nonneg fun c _ => sq_nonneg_ereal _)

/-- `var + ε` is positive. -/
theorem rowVar_add_eps_pos (a : SNC.Idx → EReal) (p : Fin 50000) : 0 < rowVar a p + epsW := by
  obtain ⟨e, he, heq⟩ := epsW_pos
  rw [heq]
  exact lt_of_lt_of_le (by exact_mod_cast he) (le_add_of_nonneg_left (rowVar_nonneg a p))

/-- THE FIRST LAW: for `0 < y`, multiplying by `rsqrt y` is dividing by `sqrt y`, on every extended real `d`
    (at `y = ⊤` both sides are `0`; at a positive real both are `d · (√y)⁻¹`). -/
theorem mul_rsqrt_eq_div_sqrt (d y : EReal) (hy : 0 < y) : d * Ideal.rsqrt y = Ideal.div d (Ideal.sqrt y) := by
  induction y using EReal.rec with
  | bot => exact absurd hy (by simp)
  | top =>
    show d * 0 = Ideal.div d ⊤
    unfold Ideal.div
    rw [if_neg (by simp), EReal.inv_top]
  | coe r =>
    have hr : 0 < r := by exact_mod_cast hy
    have hs : 0 < Real.sqrt r := Real.sqrt_pos.mpr hr
    show d * (if r < 0 then ⊥ else if r = 0 then ⊤ else (((Real.sqrt r)⁻¹ : ℝ) : EReal))
      = Ideal.div d (if r < 0 then ⊥ else ((Real.sqrt r : ℝ) : EReal))
    rw [if_neg (not_lt.mpr hr.le), if_neg hr.ne', if_neg (not_lt.mpr hr.le)]
    unfold Ideal.div
    rw [if_neg (by exact_mod_cast hs.ne'), EReal.coe_inv]

theorem lnK_eq_lnR (a : SNC.Idx → EReal) (g b : SC.Idx → EReal) : lnK a g b = lnR a g b := by
  funext i
  unfold lnK lnR
  rw [mul_rsqrt_eq_div_sqrt _ _ (rowVar_add_eps_pos a (i 0))]

/-- THE SECOND LAW: times `0.25` is divided by `4`, on every extended real. -/
theorem mul_quarter (x : EReal) : x * quarterW = Ideal.div x fourW := by
  rw [fourW_eq, quarterW_eq, Ideal.div_coe (by norm_num : (4 : ℝ) ≠ 0)]

/-- THE THIRD LAW with the second: the two spellings of the mean over the heads agree. -/
theorem headK_eq_headR (a : SNC.Idx → EReal) : headK a = headR a := by
  funext i
  unfold headK headR
  rw [mul_quarter, Fin.sum_univ_four]

end Cert.Spec

end
-- ==== Proof.KernelStages.lean ====
/-
  The idealized kernel program's host side, stage by stage, each written ONCE as a function of the CONTENTS of the buffers
  it reads, and the whole program's result as one function of its ten arguments.

    * `src`, `dst`      — the two rows of the edge list;  `wrap` — an index array as gather start indices (a negative
                          index counted from the end), `raw` — as scatter indices;
    * `wt0`, `wt1`      — the two weight matrices transposed;  `attLf`, `attRf` — the two halves of an attention vector,
                          each flattened to 256 entries (head-major);
    * `wgt`             — the edge weights exp ((s_l[src] + s_r[dst]) / 128), one per edge and head;
    * `rep`             — an edge's 4 weights laid over its 256 columns (each head's weight over its 64 channels);
    * `num`, `den`      — the weighted rows h[dst] · rep, and the weights, summed per source node.
  The four pallas_call regions between the stretches are the program-free functions of Spec.lean (`lin`, `score`, `lnK`
  after `agg`, `headK` after `agg`).
-/
import proofs.«129437_j77214922047879_1_alg».proof.Proof.Gen.KernelIdeal
import proofs.«129437_j77214922047879_1_alg».proof.Proof.Spec

noncomputable section

namespace Cert.KernelIdeal.Stage

open Cert.KernelIdeal Cert.KernelIdeal.Facts₀ Cert.KernelIdeal.Facts Idealize.ShloMosaic

variable {F : FTy → Type} [FloatOps F]

/-- The contents of a buffer of shape `s` and element type `e`. -/
abbrev Ct (F : FTy → Type) (s : Shape) (e : EltTy) : Type := (⟨s, e⟩ : BufTy).Contents (Elt F)

def src (e : Ct F S2x800000 .i32) : Ct F S800000 .i32 :=
  shapeCast S800000 (extractStridedSlice S1x800000 ![0, 0] e slices_S2x800000_S1x800000_0_0) shapeCasts_S1x800000_S800000

def dst (e : Ct F S2x800000 .i32) : Ct F S800000 .i32 :=
  shapeCast S800000 (extractStridedSlice S1x800000 ![1, 0] e slices_S2x800000_S1x800000_1_0) shapeCasts_S1x800000_S800000

def wt0 (w : Ct F S256x128 .f32) : Ct F S128x256 .f32 := transpose S128x256 [1, 0] w transposes_S256x128_S128x256_1_0
def wt1 (w : Ct F S256x256 .f32) : Ct F S256x256 .f32 := transpose S256x256 [1, 0] w transposes_S256x256_S256x256_1_0

def attLf (att : Ct F S1x4x128 .f32) : Ct F S256 .f32 :=
  shapeCast S256 (shapeCast S4x64 (extractStridedSlice S1x4x64 ![0, 0, 0] att slices_S1x4x128_S1x4x64_0_0_0)
    shapeCasts_S1x4x64_S4x64) shapeCasts_S4x64_S256

def attRf (att : Ct F S1x4x128 .f32) : Ct F S256 .f32 :=
  shapeCast S256 (shapeCast S4x64 (extractStridedSlice S1x4x64 ![0, 0, 64] att slices_S1x4x128_S1x4x64_0_0_64)
    shapeCasts_S1x4x64_S4x64) shapeCasts_S4x64_S256

def wrap (i : Ct F S800000 .i32) : Ct F S800000x1 .i32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

def raw (i : Ct F S800000 .i32) : Ct F S800000x1 .i32 :=
  broadcastInDim S800000x1 ![0] bcast_S800000_S800000x1_0 i

def wgt (sl sr : Ct F S50000x4 .f32) (i0 i1 : Ct F S800000 .i32) : Ct F S800000x4 .f32 :=
  Host.exp (Host.divf
    (addf (Host.gather gather_S50000x4_S800000x1_S800000x4_1_0_n_n_0_1_14 sl (wrap i0))
          (Host.gather gather_S50000x4_S800000x1_S800000x4_1_0_n_n_0_1_14 sr (wrap i1)))
    (broadcastInDim S800000x4 ![] bcast_S_S800000x4 (constant S_ .f32 0x43000000#32)))

def rep (s : Ct F S800000x4 .f32) : Ct F S800000x256 .f32 :=
  shapeCast S800000x256 (broadcastInDim S800000x4x64 ![0, 1] bcast_S800000x4_S800000x4x64_0_1 s)
    shapeCasts_S800000x4x64_S800000x256

def num (h : Ct F S50000x256 .f32) (s : Ct F S800000x4 .f32) (i0 i1 : Ct F S800000 .i32) : Ct F S50000x256 .f32 :=
  Host.scatterAdd scatter_S50000x256_S800000x1_S800000x256_1_0_0_1
    (broadcastInDim S50000x256 ![] bcast_S_S50000x256 (constant S_ .f32 0x00000000#32)) (raw i0)
    (mulf (Host.gather gather_S50000x256_S800000x1_S800000x256_1_0_n_n_0_1_1256 h (wrap i1)) (rep s))

def den (s : Ct F S800000x4 .f32) (i0 : Ct F S800000 .i32) : Ct F S50000x4 .f32 :=
  Host.scatterAdd scatter_S50000x4_S800000x1_S800000x4_1_0_0_1
    (broadcastInDim S50000x4 ![] bcast_S_S50000x4 (constant S_ .f32 0x00000000#32)) (raw i0) s

/-- One layer's aggregate: the dense layer, its scores, the edge weights, the weighted sums, and their quotient. -/
def layer {K : Nat} (x : (⟨2, ![50000, K]⟩ : Shape).Idx → EReal) (wt : (⟨2, ![K, 256]⟩ : Shape).Idx → EReal)
    (b : Ct Ideal S256 .f32) (attl attr : Ct Ideal S256 .f32) (i0 i1 : Ct Ideal S800000 .i32) : Ct Ideal S50000x256 .f32 :=
  let h : Ct Ideal S50000x256 .f32 := Cert.Spec.lin x wt b
  let s := wgt (F := Ideal) (Cert.Spec.score h attl) (Cert.Spec.score h attr) i0 i1
  Cert.Spec.agg (num (F := Ideal) h s i0 i1) (den (F := Ideal) s i0)

/-- The program's result as a function of its ten arguments' contents. -/
def result (x : Ct Ideal S50000x128 .f32) (e : Ct Ideal S2x800000 .i32) (w0 : Ct Ideal S256x128 .f32) (b0 : Ct Ideal S256 .f32)
    (w1 : Ct Ideal S256x256 .f32) (b1 : Ct Ideal S256 .f32) (att0 att1 : Ct Ideal S1x4x128 .f32) (g b : Ct Ideal S256 .f32) :
    Ct Ideal S50000x64 .f32 :=
  let x1 : Ct Ideal S50000x256 .f32 :=
    Cert.Spec.lnK (layer (K := 128) x (wt0 w0) b0 (attLf att0) (attRf att0) (src e) (dst e)) g b
  Cert.Spec.headK (layer (K := 256) x1 (wt1 w1) b1 (attLf att1) (attRf att1) (src e) (dst e))

end Cert.KernelIdeal.Stage

end
-- ==== Proof.KernelHost.lean ====
/-
  The idealized kernel program's three stretches of host operations read back over ANY buffer contents `W`: each result
  a later region or stretch reads is the stage function (KernelStages.lean) of the contents the stretch starts from, and
  a buffer the stretch does not write keeps its contents.
-/
import proofs.«129437_j77214922047879_1_alg».proof.Proof.Gen.KernelIdeal.Launch
import proofs.«129437_j77214922047879_1_alg».proof.Proof.KernelStages
import Idealize.ShloMosaic.Lib.StableHlo.Run

set_option maxRecDepth 16384

noncomputable section

namespace Cert.KernelIdeal.Host

open Cert.KernelIdeal Cert.KernelIdeal.Gen Idealize.ShloMosaic

variable {F : FTy → Type} [FloatOps F] (W : Valuation τ sig (Elt F))

/-- No operation of the named stretch writes the buffer: every operation writes one buffer, another one. -/
local macro "keep_of " ops:ident : tactic =>
  `(tactic| (refine StableHlo.after_of_forall_not_mem _ _ (List.forall_iff_forall_mem.mp ?_)
             simp only [$ops:ident, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The first stretch: the edge list's rows, the transposed weights, the flat attention halves -/

theorem pre_v1 : StableHlo.after (hostOps0 (F := F)) W (Proc.devRef .tc main_v1) = Stage.src (W (Proc.devRef .tc main_arg1)) := by
  show StableHlo.after (hostOps0 (F := F)) W (Proc.devRef .tc main_v1) = _; after_results; rfl
theorem pre_v3 : StableHlo.after (hostOps0 (F := F)) W (Proc.devRef .tc main_v3) = Stage.dst (W (Proc.devRef .tc main_arg1)) := by
  show StableHlo.after (hostOps0 (F := F)) W (Proc.devRef .tc main_v3) = _; after_results; rfl
theorem pre_v4 : StableHlo.after (hostOps0 (F := F)) W (Proc.devRef .tc main_v4) = Stage.wt0 (W (Proc.devRef .tc main_arg2)) := by
  show StableHlo.after (hostOps0 (F := F)) W (Proc.devRef .tc main_v4) = _; after_results; rfl
theorem pre_v5 : StableHlo.after (hostOps0 (F := F)) W (Proc.devRef .tc main_v5) = Stage.wt1 (W (Proc.devRef .tc main_arg4)) := by
  show StableHlo.after (hostOps0 (F := F)) W (Proc.devRef .tc main_v5) = _; after_results; rfl
theorem pre_v8 : StableHlo.after (hostOps0 (F := F)) W (Proc.devRef .tc main_v8) = Stage.attLf (W (Proc.devRef .tc main_arg6)) := by
  show StableHlo.after (hostOps0 (F := F)) W (Proc.devRef .tc main_v8) = _; after_results; rfl
theorem pre_v11 : StableHlo.after (hostOps0 (F := F)) W (Proc.devRef .tc main_v11) = Stage.attRf (W (Proc.devRef .tc main_arg6)) := by
  show StableHlo.after (hostOps0 (F := F)) W (Proc.devRef .tc main_v11) = _; after_results; rfl
theorem pre_v14 : StableHlo.after (hostOps0 (F := F)) W (Proc.devRef .tc main_v14) = Stage.attLf (W (Proc.devRef .tc main_arg7)) := by
  show StableHlo.after (hostOps0 (F := F)) W (Proc.devRef .tc main_v14) = _; after_results; rfl
theorem pre_v17 : StableHlo.after (hostOps0 (F := F)) W (Proc.devRef .tc main_v17) = Stage.attRf (W (Proc.devRef .tc main_arg7)) := by
  show StableHlo.after (hostOps0 (F := F)) W (Proc.devRef .tc main_v17) = _; after_results; rfl

theorem keep0_arg0 : StableHlo.after (hostOps0 (F := F)) W (Proc.devRef .tc main_arg0) = W (Proc.devRef .tc main_arg0) := by keep_of hostOps0
theorem keep0_arg3 : StableHlo.after (hostOps0 (F := F)) W (Proc.devRef .tc main_arg3) = W (Proc.devRef .tc main_arg3) := by keep_of hostOps0
theorem keep0_arg5 : StableHlo.after (hostOps0 (F := F)) W (Proc.devRef .tc main_arg5) = W (Proc.devRef .tc main_arg5) := by keep_of hostOps0
theorem keep0_arg8 : StableHlo.after (hostOps0 (F := F)) W (Proc.devRef .tc main_arg8) = W (Proc.devRef .tc main_arg8) := by keep_of hostOps0
theorem keep0_arg9 : StableHlo.after (hostOps0 (F := F)) W (Proc.devRef .tc main_arg9) = W (Proc.devRef .tc main_arg9) := by keep_of hostOps0

/-! ## The two edge stretches -/

theorem edge1_num : StableHlo.after (hostOps1 (F := F)) W (Proc.devRef .tc main_v49)
    = Stage.num (W (Proc.devRef .tc main_v18_0)) (Stage.wgt (W (Proc.devRef .tc main_v18_1)) (W (Proc.devRef .tc main_v18_2)) (W (Proc.devRef .tc main_v1)) (W (Proc.devRef .tc main_v3)))
        (W (Proc.devRef .tc main_v1)) (W (Proc.devRef .tc main_v3)) := by
  show StableHlo.after (hostOps1 (F := F)) W (Proc.devRef .tc main_v49) = _; after_results_simp; rfl
theorem edge1_den : StableHlo.after (hostOps1 (F := F)) W (Proc.devRef .tc main_v52)
    = Stage.den (Stage.wgt (W (Proc.devRef .tc main_v18_1)) (W (Proc.devRef .tc main_v18_2)) (W (Proc.devRef .tc main_v1)) (W (Proc.devRef .tc main_v3))) (W (Proc.devRef .tc main_v1)) := by
  show StableHlo.after (hostOps1 (F := F)) W (Proc.devRef .tc main_v52) = _; after_results_simp; rfl

theorem keep1_v1 : StableHlo.after (hostOps1 (F := F)) W (Proc.devRef .tc main_v1) = W (Proc.devRef .tc main_v1) := by keep_of hostOps1
theorem keep1_v3 : StableHlo.after (hostOps1 (F := F)) W (Proc.devRef .tc main_v3) = W (Proc.devRef .tc main_v3) := by keep_of hostOps1
theorem keep1_v5 : StableHlo.after (hostOps1 (F := F)) W (Proc.devRef .tc main_v5) = W (Proc.devRef .tc main_v5) := by keep_of hostOps1
theorem keep1_v14 : StableHlo.after (hostOps1 (F := F)) W (Proc.devRef .tc main_v14) = W (Proc.devRef .tc main_v14) := by keep_of hostOps1
theorem keep1_v17 : StableHlo.after (hostOps1 (F := F)) W (Proc.devRef .tc main_v17) = W (Proc.devRef .tc main_v17) := by keep_of hostOps1
theorem keep1_arg5 : StableHlo.after (hostOps1 (F := F)) W (Proc.devRef .tc main_arg5) = W (Proc.devRef .tc main_arg5) := by keep_of hostOps1
theorem keep1_arg8 : StableHlo.after (hostOps1 (F := F)) W (Proc.devRef .tc main_arg8) = W (Proc.devRef .tc main_arg8) := by keep_of hostOps1
theorem keep1_arg9 : StableHlo.after (hostOps1 (F := F)) W (Proc.devRef .tc main_arg9) = W (Proc.devRef .tc main_arg9) := by keep_of hostOps1

theorem edge3_num : StableHlo.after (hostOps3 (F := F)) W (Proc.devRef .tc main_v85)
    = Stage.num (W (Proc.devRef .tc main_v54_0)) (Stage.wgt (W (Proc.devRef .tc main_v54_1)) (W (Proc.devRef .tc main_v54_2)) (W (Proc.devRef .tc main_v1)) (W (Proc.devRef .tc main_v3)))
        (W (Proc.devRef .tc main_v1)) (W (Proc.devRef .tc main_v3)) := by
  show StableHlo.after (hostOps3 (F := F)) W (Proc.devRef .tc main_v85) = _; after_results_simp; rfl
theorem edge3_den : StableHlo.after (hostOps3 (F := F)) W (Proc.devRef .tc main_v88)
    = Stage.den (Stage.wgt (W (Proc.devRef .tc main_v54_1)) (W (Proc.devRef .tc main_v54_2)) (W (Proc.devRef .tc main_v1)) (W (Proc.devRef .tc main_v3))) (W (Proc.devRef .tc main_v1)) := by
  show StableHlo.after (hostOps3 (F := F)) W (Proc.devRef .tc main_v88) = _; after_results_simp; rfl

end Cert.KernelIdeal.Host

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.LibKeepdims.lean ====
/-
  Two layout operations read at an index given by coordinates: the "keepdims" column forms.

  A reduction along the lanes of an [a, b] array that keeps the reduced axis as a unit axis is, in vector
  operations, a reduction to [a], a shape cast of the [a] result to the column [a, 1], and a broadcast of the
  column [a, 1] back over the lanes to [a, b].  The cast does not move data: in row-major order entry (i, 0) of
  the column is entry i of the vector.  The broadcast repeats a row's one entry along the row: entry (p, c) of
  the result is entry (p, 0) of the column.  Both are stated for any element type and any extents.
-/
import Idealize.ShloMosaic.Lib.ValueIdx
import Idealize.ShloMosaic.Lib.Pipeline.Value

namespace Cert.Lib.Keepdims

open Idealize.ShloMosaic Idealize.ShloMosaic.ValueIdx

variable {α : Type}

/-- An \`[a]\` array cast to the column \`[a, 1]\` reads, at \`(i, u)\`, the operand at \`i\`, whatever the unit
    coordinate \`u\`: the row-major position of \`(i, u)\` in \`[a, 1]\` is \`i · 1 + 0 = i\`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column \`[a, 1]\` broadcast over the lanes to \`[a, b]\` reads, at \`(p, c)\`, the column's one entry of row \`p\`:
    the unit axis is read at \`0\`, the row axis at \`p\` (also when \`a = 1\`, where \`p = 0\`). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region0.lean ====
/-
  The dense layer fused with the attention scores, on the first layer's input (128 input channels): what its three
  output arrays hold after the region, as whole-array functions of the arrays the region finds.

  The region walks the 50000 rows in 25 blocks of 2000.  At block `t` it forms, from rows `2000 t … 2000 t + 1999`
  of `x`, the block of the dense layer  x · wᵀ + b  (entry `(p, c)` is row `p` of the block of `x` against column
  `c` of the weights, plus the bias at `c`: it uses no other row), multiplies it column by column with an
  attention vector, applies the leaky ReLU, and sums each of the four bands of 64 columns along the lanes; the four
  column sums side by side are the block of the scores.  Since entry `(p, c)` of a block depends on row `p` of the
  block of `x` only, block `t` of each result is the block of rows `2000 t …` of ONE function of the whole arrays
  (`Cert.Spec.lin`, `Cert.Spec.score`), and since every row `r` lies in block `r / 2000` the blocks cover the arrays.
-/
import proofs.«129437_j77214922047879_1_alg».proof.Proof.Gen.KernelIdeal.Frame
import proofs.«129437_j77214922047879_1_alg».proof.Proof.Spec
import proofs.«129437_j77214922047879_1_alg».proof.Proof.LibMatmulRows
import proofs.«129437_j77214922047879_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.ValueIdx Idealize.SL.Sem
open Idealize.ShloMosaic.TcCoe
open Idealize.ShloMosaic.Pipeline (Dat)

/-! ## Small layout readings -/

section Layout
variable {α : Type}

/-- A `[C]` vector laid as a `[1, C]` row and repeated down `N` rows reads, at `(n, j)`, the vector at `j`. -/
theorem row_down_apply {N C : ℕ} (hC : C ≠ 1) (v : (⟨1, ![C]⟩ : Shape).Idx → α)
    (h : (⟨1, ![C]⟩ : Shape).ShapeCasts ⟨2, ![1, C]⟩) (h' : (⟨2, ![1, C]⟩ : Shape).Broadcasts ⟨2, ![N, C]⟩)
    (n : Fin N) (j : Fin C) :
    broadcastTo ⟨2, ![N, C]⟩ (shapeCast ⟨2, ![1, C]⟩ v h) h' (ix2 n j) = v (ix1 j) := by
  refine (broadcastTo_apply _ h' (ix2 n j) (ix2 (0 : Fin 1) j) fun ax => ?_).trans ?_
  · match ax with
    | ⟨0, _⟩ => show (0 : ℕ) = if (1 : ℕ) = 1 then 0 else n.val; rw [if_pos rfl]
    | ⟨1, _⟩ => show j.val = if C = 1 then 0 else j.val; rw [if_neg hC]
  · refine shapeCast_apply v h (ix2 (0 : Fin 1) j) (ix1 j) ?_
    rw [Shape.rowMajor_val_two, Shape.rowMajor_val_one]
    show j.val = 0 * C + j.val
    omega

end Layout

/-! ## The dense layer's block at an index -/

/-- The kernel's dot dimension numbers are the plain "rows by contraction, times contraction by columns" ones. -/
theorem dot_eq_plain : dot_S2000x128_S128x256_S2000x256_1_0_0_1_n_n = DotDims.plain 2000 128 256 := rfl

/-- Entry `(p, q)` of the block of the dense layer: row `p` of the block of `x` against column `q` of the weights,
    plus the bias at `q` (the roundings to bf16 are the identity on the ideal values). -/
theorem pay3_apply (x0 : Vec Ideal S2000x128 .f32) (x1 : Vec Ideal S128x256 .f32) (x2 : Vec Ideal S256 .f32)
    (p : Fin 2000) (q : Fin 256) :
    k0_pay3 x0 x1 x2 (ix2 p q) = (∑ k : Fin 128, x0 (ix2 p k) * x1 (ix2 k q)) + x2 (ix1 q) := by
  unfold k0_pay3
  refine (addf_apply _ _ _).trans ?_
  refine congrArg₂ (· + ·) ?_ ?_
  · refine (Cert.Bridge.matmul_plain_zero_apply 2000 128 256 none _ _ p q).trans ?_
    refine Finset.sum_congr rfl fun k _ => ?_
    exact congrArg (x0 (ix2 p k) * ·) (congrFun (shapeCast_self x1 _) (ix2 k q))
  · exact row_down_apply (by decide) x2 _ _ p q

/-- Leaky ReLU of a product of two vectors, at an index where the second factor is known. -/
theorem lrelu_vec_apply (a w : FVec Ideal S2000x256 .f32) (i : S2000x256.Idx) (r : EReal) (hw : w i = r) :
    select (cmpf .ogt (mulf a w) (broadcast S2000x256 (Scalar.ofBits (F := Ideal) .f32 0x00000000#32))) (mulf a w)
      (mulf (broadcast S2000x256 (Scalar.ofBits (F := Ideal) .f32 0x3C23D70A#32)) (mulf a w)) i = Cert.Spec.lrelu (a i * r) := by
  subst hw; rfl

/-- Entry `(p, c)` of the leaky ReLU of the dense layer's block times an attention vector. -/
theorem pay4_apply (x0 : Vec Ideal S2000x128 .f32) (x1 : Vec Ideal S128x256 .f32) (x2 : Vec Ideal S256 .f32) (x3 : Vec Ideal S256 .f32)
    (p : Fin 2000) (c : Fin 256) :
    k0_pay4 x0 x1 x2 x3 (ix2 p c) = Cert.Spec.lrelu (k0_pay3 x0 x1 x2 (ix2 p c) * x3 (ix1 c)) := by
  unfold k0_pay4
  exact lrelu_vec_apply _ _ _ _ ((row_down_apply (by decide) _ _ _ p c).trans (congrFun (shapeCast_self x3 _) (ix1 c)))

theorem pay5_apply (x0 : Vec Ideal S2000x128 .f32) (x1 : Vec Ideal S128x256 .f32) (x2 : Vec Ideal S256 .f32) (x4 : Vec Ideal S256 .f32)
    (p : Fin 2000) (c : Fin 256) :
    k0_pay5 x0 x1 x2 x4 (ix2 p c) = Cert.Spec.lrelu (k0_pay3 x0 x1 x2 (ix2 p c) * x4 (ix1 c)) := by
  unfold k0_pay5
  exact lrelu_vec_apply _ _ _ _ ((row_down_apply (by decide) _ _ _ p c).trans (congrFun (shapeCast_self x4 _) (ix1 c)))

/-! ## A head's score: the lane sum of a 64-column band -/

/-- The lane sum of the band of 64 columns starting at column `o` of a `[2000, 256]` block, kept as a column, at
    row `p`: the sum over the band's columns. -/
theorem band_sum_apply (u : FVec Ideal S2000x256 .f32) (o : ℕ) (hs : S2000x256.Slices ![0, o] S2000x64)
    (hr : S2000x64.Reduces [1] S2000) (hφ : FKind.Formats .f32) (hacc : (0x00000000#32 : BitVec 32) = FKind.add.neutral .f32 hφ)
    (hc : S2000.ShapeCasts S2000x1) (p : Fin 2000) (z : Fin 1) (cidx : Fin 64 → Fin 256) (hcidx : ∀ q, (cidx q).val = o + q.val) :
    shapeCast S2000x1 (multiReduction .add [1] S2000 (extractStridedSlice S2000x64 ![0, o] u hs) 0x00000000#32 hr hφ hacc) hc (ix2 p z)
      = ∑ q : Fin 64, u (ix2 p (cidx q)) := by
  refine (Cert.Lib.Keepdims.shapeCast_a_a1_apply _ hc p z).trans ?_
  refine (Ideal.multiReduction_add_single _ _ hr hφ hacc (ix1 p)).trans ?_
  refine Finset.sum_congr rfl fun q _ => ?_
  refine extractStridedSlice_apply ![0, o] u hs _ (ix2 p (cidx q)) fun ax => ?_
  match ax with
  | ⟨0, _⟩ => show p.val = 0 + p.val; omega
  | ⟨1, _⟩ => show (cidx q).val = o + q.val; exact hcidx q

/-- Four columns side by side as a `[2000, 4]` block, read at `(p, h)`: column `h` at row `p`. -/
theorem concat4_apply (v0 v1 v2 v3 : FVec Ideal S2000x1 .f32)
    (hcat : Shape.Concatenates [S2000x1, S2000x1, S2000x1, S2000x1] S2000x4 1)
    (p : Fin 2000) (h : Fin 4) (r : EReal)
    (h0 : h.val = 0 → v0 (ix2 p (0 : Fin 1)) = r) (h1 : h.val = 1 → v1 (ix2 p (0 : Fin 1)) = r)
    (h2 : h.val = 2 → v2 (ix2 p (0 : Fin 1)) = r) (h3 : h.val = 3 → v3 (ix2 p (0 : Fin 1)) = r) :
    concatenate S2000x4 1 [⟨S2000x1, v0⟩, ⟨S2000x1, v1⟩, ⟨S2000x1, v2⟩, ⟨S2000x1, v3⟩] hcat (ix2 p h) = r := by
  match h with
  | ⟨0, hh⟩ =>
    refine (concatenate_apply_piece (t := S2000x4) (α := EReal) 1 [⟨S2000x1, v0⟩, ⟨S2000x1, v1⟩, ⟨S2000x1, v2⟩, ⟨S2000x1, v3⟩] hcat (ix2 p ⟨0, hh⟩) 0 (by show (0 : ℕ) < 4; omega) S2000x1 v0 rfl rfl 0 rfl (ix2 p (0 : Fin 1)) (fun b hb => ?_) rfl).trans (h0 rfl)
    match b with
    | ⟨0, _⟩ => rfl
    | ⟨1, _⟩ => exact absurd rfl hb
  | ⟨1, hh⟩ =>
    refine (concatenate_apply_piece (t := S2000x4) (α := EReal) 1 [⟨S2000x1, v0⟩, ⟨S2000x1, v1⟩, ⟨S2000x1, v2⟩, ⟨S2000x1, v3⟩] hcat (ix2 p ⟨1, hh⟩) 1 (by show (1 : ℕ) < 4; omega) S2000x1 v1 rfl rfl 1 rfl (ix2 p (0 : Fin 1)) (fun b hb => ?_) rfl).trans (h1 rfl)
    match b with
    | ⟨0, _⟩ => rfl
    | ⟨1, _⟩ => exact absurd rfl hb
  | ⟨2, hh⟩ =>
    refine (concatenate_apply_piece (t := S2000x4) (α := EReal) 1 [⟨S2000x1, v0⟩, ⟨S2000x1, v1⟩, ⟨S2000x1, v2⟩, ⟨S2000x1, v3⟩] hcat (ix2 p ⟨2, hh⟩) 2 (by show (2 : ℕ) < 4; omega) S2000x1 v2 rfl rfl 2 rfl (ix2 p (0 : Fin 1)) (fun b hb => ?_) rfl).trans (h2 rfl)
    match b with
    | ⟨0, _⟩ => rfl
    | ⟨1, _⟩ => exact absurd rfl hb
  | ⟨3, hh⟩ =>
    refine (concatenate_apply_piece (t := S2000x4) (α := EReal) 1 [⟨S2000x1, v0⟩, ⟨S2000x1, v1⟩, ⟨S2000x1, v2⟩, ⟨S2000x1, v3⟩] hcat (ix2 p ⟨3, hh⟩) 3 (by show (3 : ℕ) < 4; omega) S2000x1 v3 rfl rfl 3 rfl (ix2 p (0 : Fin 1)) (fun b hb => ?_) rfl).trans (h3 rfl)
    match b with
    | ⟨0, _⟩ => rfl
    | ⟨1, _⟩ => exact absurd rfl hb

/-- The column of channel `q` of head `h` when `h` is the literal `k`. -/
theorem col_of_val (h : Fin 4) (k : ℕ) (hk : h.val = k) (q : Fin 64) : (Cert.Spec.col h q).val = 64 * k + q.val := by
  rw [Cert.Spec.col_val, hk]

/-- The first scores block at `(p, h)`: the sum over head `h`'s 64 columns of the activated products. -/
theorem pay1_apply (x0 : Vec Ideal S2000x128 .f32) (x1 : Vec Ideal S128x256 .f32) (x2 : Vec Ideal S256 .f32) (x3 : Vec Ideal S256 .f32)
    (p : Fin 2000) (h : Fin 4) :
    k0_pay1 (k0_pay6 x0 x1 x2 x3) (k0_pay7 x0 x1 x2 x3) (k0_pay8 x0 x1 x2 x3) (k0_pay9 x0 x1 x2 x3) (ix2 p h)
      = ∑ q : Fin 64, k0_pay4 x0 x1 x2 x3 (ix2 p (Cert.Spec.col h q)) := by
  unfold k0_pay1 k0_pay6 k0_pay7 k0_pay8 k0_pay9
  refine concat4_apply _ _ _ _ _ p h _ (fun hk => ?_) (fun hk => ?_) (fun hk => ?_) (fun hk => ?_)
  · exact band_sum_apply _ 0 _ _ _ _ _ p 0 (Cert.Spec.col h) fun q => by rw [col_of_val h 0 hk q]
  · exact band_sum_apply _ 64 _ _ _ _ _ p 0 (Cert.Spec.col h) fun q => by rw [col_of_val h 1 hk q]
  · exact band_sum_apply _ 128 _ _ _ _ _ p 0 (Cert.Spec.col h) fun q => by rw [col_of_val h 2 hk q]
  · exact band_sum_apply _ 192 _ _ _ _ _ p 0 (Cert.Spec.col h) fun q => by rw [col_of_val h 3 hk q]

/-- The second scores block at `(p, h)`, from the activated products with the other attention vector. -/
theorem pay2_apply (u : FVec Ideal S2000x256 .f32) (p : Fin 2000) (h : Fin 4) :
    k0_pay2 u (ix2 p h) = ∑ q : Fin 64, u (ix2 p (Cert.Spec.col h q)) := by
  unfold k0_pay2
  refine concat4_apply _ _ _ _ _ p h _ (fun hk => ?_) (fun hk => ?_) (fun hk => ?_) (fun hk => ?_)
  · exact band_sum_apply _ 0 _ _ _ _ _ p 0 (Cert.Spec.col h) fun q => by rw [col_of_val h 0 hk q]
  · exact band_sum_apply _ 64 _ _ _ _ _ p 0 (Cert.Spec.col h) fun q => by rw [col_of_val h 1 hk q]
  · exact band_sum_apply _ 128 _ _ _ _ _ p 0 (Cert.Spec.col h) fun q => by rw [col_of_val h 2 hk q]
  · exact band_sum_apply _ 192 _ _ _ _ _ p 0 (Cert.Spec.col h) fun q => by rw [col_of_val h 3 hk q]

/-! ## From the blocks to the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The windows index maps, decided over the 25 grid points: the row-blocked windows sit at block `t` of the rows and
    block 0 of the columns; the small operands at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of block `t` of `x` is row `2000 t + p` of `x`. -/
theorem blk0_apply (c : Dev nD) (t : Fin cfg0.N) (p : Fin 2000) (k : Fin 128) (P : Fin 50000) (hP : P.val = 2000 * t.val + p.val) :
    (iblk0 V c 0 t : Vec Ideal S2000x128 .f32) (ix2 p k) = V c main_arg0 (ix2 P k) := by
  obtain ⟨e0, e1, -⟩ := idx_facts t
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 2000 + 1 * p.val = P.val; rw [e0, hP]; omega
  | ⟨1, _⟩ => show win0_0.index t (1 : Fin 2) * 128 + 1 * k.val = k.val; rw [e1]; omega

/-- The weights' one block is the whole array. -/
theorem blk1_eq (c : Dev nD) (t : Fin cfg0.N) : (iblk0 V c 1 t : Vec Ideal S128x256 .f32) = V c main_v4 := by
  obtain ⟨-, -, e2, e3, -⟩ := idx_facts t
  funext j
  show V c main_v4 (((cfg0.win 1).blk t).view.emb j) = V c main_v4 j
  refine congrArg (V c main_v4) (funext fun a => Fin.ext ?_)
  match a with
  | ⟨0, _⟩ => show win0_1.index t (0 : Fin 2) * 128 + 1 * (j 0).val = (j 0).val; rw [e2]; omega
  | ⟨1, _⟩ => show win0_1.index t (1 : Fin 2) * 256 + 1 * (j 1).val = (j 1).val; rw [e3]; omega

/-- The bias's one block is the whole vector. -/
theorem blk2_eq (c : Dev nD) (t : Fin cfg0.N) : (iblk0 V c 2 t : Vec Ideal S256 .f32) = V c main_arg3 := by
  obtain ⟨-, -, -, -, e4, -⟩ := idx_facts t
  funext j
  show V c main_arg3 (((cfg0.win 2).blk t).view.emb j) = V c main_arg3 j
  refine congrArg (V c main_arg3) (funext fun a => Fin.ext ?_)
  match a with
  | ⟨0, _⟩ => show win0_2.index t (0 : Fin 1) * 256 + 1 * (j 0).val = (j 0).val; rw [e4]; omega

/-- The first attention vector's one block is the whole vector. -/
theorem blk3_eq (c : Dev nD) (t : Fin cfg0.N) : (iblk0 V c 3 t : Vec Ideal S256 .f32) = V c main_v8 := by
  obtain ⟨-, -, -, -, -, e5, -⟩ := idx_facts t
  funext j
  show V c main_v8 (((cfg0.win 3).blk t).view.emb j) = V c main_v8 j
  refine congrArg (V c main_v8) (funext fun a => Fin.ext ?_)
  match a with
  | ⟨0, _⟩ => show win0_3.index t (0 : Fin 1) * 256 + 1 * (j 0).val = (j 0).val; rw [e5]; omega

/-- The second attention vector's one block is the whole vector. -/
theorem blk4_eq (c : Dev nD) (t : Fin cfg0.N) : (iblk0 V c 4 t : Vec Ideal S256 .f32) = V c main_v11 := by
  obtain ⟨-, -, -, -, -, -, e6, -⟩ := idx_facts t
  funext j
  show V c main_v11 (((cfg0.win 4).blk t).view.emb j) = V c main_v11 j
  refine congrArg (V c main_v11) (funext fun a => Fin.ext ?_)
  match a with
  | ⟨0, _⟩ => show win0_4.index t (0 : Fin 1) * 256 + 1 * (j 0).val = (j 0).val; rw [e6]; omega

/-- The dense layer's block from a block of rows of `x` is the block of rows of the dense layer of `x`: entry
    `(p, c)` uses row `p` of the block only. -/
theorem pay3_lin (x0 : Vec Ideal S2000x128 .f32) (x1 : Vec Ideal S128x256 .f32) (x2 : Vec Ideal S256 .f32)
    (X : S50000x128.Idx → EReal) (W : S128x256.Idx → EReal) (B : S256.Idx → EReal)
    (p : Fin 2000) (P : Fin 50000) (h0 : ∀ k : Fin 128, x0 (ix2 p k) = X (ix2 P k)) (h1 : x1 = W) (h2 : x2 = B) (c : Fin 256) :
    k0_pay3 x0 x1 x2 (ix2 p c) = Cert.Spec.lin (K := 128) X W B (ix2 P c) := by
  subst h1 h2
  rw [pay3_apply]
  show _ = (∑ k : Fin 128, X (ix2 P k) * x1 (ix2 k c)) + x2 (ix1 c)
  exact congrArg (· + x2 (ix1 c)) (Finset.sum_congr rfl fun k _ => by rw [h0 k])

/-- The dense layer of the arrays as the region finds them. -/
abbrev H (c : Dev nD) : S50000x256.Idx → EReal :=
  Cert.Spec.lin (K := 128) (V c main_arg0) (V c main_v4) (V c main_arg3)

theorem block_lin (c : Dev nD) (t : Fin cfg0.N) (p : Fin 2000) (q : Fin 256) (P : Fin 50000) (hP : P.val = 2000 * t.val + p.val) :
    k0_pay3 (iblk0 V c 0 t) (iblk0 V c 1 t) (iblk0 V c 2 t) (ix2 p q) = H V c (ix2 P q) :=
  pay3_lin _ _ _ _ _ _ p P (fun k => blk0_apply V c t p k P hP) (blk1_eq V c t) (blk2_eq V c t) q

/-- The row of the array under row `p` of block `t`. -/
theorem row_lt (t : Fin cfg0.N) (p : Fin 2000) : 2000 * t.val + p.val < 50000 := by
  have ht : t.val < grid0.N := t.isLt
  rw [N_0] at ht
  omega

theorem emb5 (t : Fin cfg0.N) (y : S2000x256.Idx) :
    ((cfg0.win 5).blk t).view.emb y = ix2 (⟨2000 * t.val + (y 0).val, row_lt t (y 0)⟩ : Fin 50000) (y 1) := by
  obtain ⟨-, -, -, -, -, -, -, e0, e1, -⟩ := idx_facts t
  refine funext fun a => Fin.ext ?_
  match a with
  | ⟨0, _⟩ => show win0_5.index t (0 : Fin 2) * 2000 + 1 * (y 0).val = 2000 * t.val + (y 0).val; rw [e0]; omega
  | ⟨1, _⟩ => show win0_5.index t (1 : Fin 2) * 256 + 1 * (y 1).val = (y 1).val; rw [e1]; omega

/-- WHAT POINT `t` WRITES BACK to the dense layer's array is block `t` of the dense layer of the arrays. -/
theorem flushed5_eq (c : Dev nD) (t : Fin cfg0.N) :
    (dat0 V c).flushed 5 t = ((cfg0.win 5).blk t).view.read (Elt Ideal) (H V c : Buf (Elt Ideal) ((c : Thread nD τ).loc main_v18_0)) := by
  show (cfg0.win 5).cut (grid0.coords t) ((dat0 V c).after 5 t) = _
  rw [after0_5]
  unfold out0_5
  rw [View.canon_unit_zero (S := S2000x256) hz2]
  simp only [View.ld_unit_zero (S := S2000x128) hz2, View.ld_unit_zero (S := S128x256) hz2, View.ld_unit_zero (S := S256) hz1]
  funext y
  show k0_pay3 (iblk0 V c 0 t) (iblk0 V c 1 t) (iblk0 V c 2 t) y = H V c (((cfg0.win 5).blk t).view.emb y)
  exact (congrArg _ (eq_ix2 y)).trans ((block_lin V c t (y 0) (y 1) _ rfl).trans (congrArg (H V c) (emb5 t y).symm))

/-- An index of the array is in point `t`'s block iff each coordinate is in the block's range on its axis. -/
theorem mem_blk5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v18_0).slice (win0_5.rect t)).set ↔ _
  rw [View.set_slice_whole, Rect.mem_set_unit]
  exact Iff.rfl

/-- The point whose block holds row `r`: `r / 2000`. -/
def ptOf (r : ℕ) (hr : r < 50000) : Fin cfg0.N := ⟨r / 2000, by show r / 2000 < grid0.N; rw [N_0]; omega⟩

theorem cover5 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨-, -, -, -, -, -, -, e0, e1, -⟩ := idx_facts (ptOf (i 0).val hi0)
  refine ⟨ptOf (i 0).val hi0, flush0_5 _, ?_⟩
  rw [mem_blk5]
  intro a
  match a with
  | ⟨0, _⟩ =>
    show win0_5.index (ptOf (i 0).val hi0) (0 : Fin 2) * 2000 ≤ (i 0).val ∧ (i 0).val < win0_5.index (ptOf (i 0).val hi0) (0 : Fin 2) * 2000 + 2000
    rw [e0]; show (i 0).val / 2000 * 2000 ≤ (i 0).val ∧ (i 0).val < (i 0).val / 2000 * 2000 + 2000; omega
  | ⟨1, _⟩ =>
    show win0_5.index (ptOf (i 0).val hi0) (1 : Fin 2) * 256 ≤ (i 1).val ∧ (i 1).val < win0_5.index (ptOf (i 0).val hi0) (1 : Fin 2) * 256 + 256
    rw [e1]; omega

/-- THE DENSE LAYER'S ARRAY after the region: the dense layer of the arrays as the region finds them. -/
theorem final0_5 (c : Dev nD) : (Gen.dat0 V c).arrAt 5 cfg0.N = Cert.Spec.lin (K := 128) (V c main_arg0) (V c main_v4) (V c main_arg3) :=
  (dat0 V c).arrAt_eq_of_cover 5 (H V c) (fun t _ => flushed5_eq V c t) cover5

/-! ## The two scores arrays -/

/-- The sum over a head's columns of the activated products of a block of rows is the score of the whole arrays at
    the row under it, when the dense layer's block is the block of rows of the array `A`. -/
theorem pay4_score (x0 : Vec Ideal S2000x128 .f32) (x1 : Vec Ideal S128x256 .f32) (x2 : Vec Ideal S256 .f32) (x3 : Vec Ideal S256 .f32)
    (A : S50000x256.Idx → EReal) (att : S256.Idx → EReal) (p : Fin 2000) (P : Fin 50000)
    (hA : ∀ c : Fin 256, k0_pay3 x0 x1 x2 (ix2 p c) = A (ix2 P c)) (h3 : x3 = att) (h : Fin 4) :
    (∑ q : Fin 64, k0_pay4 x0 x1 x2 x3 (ix2 p (Cert.Spec.col h q))) = Cert.Spec.score A att (ix2 P h) := by
  subst h3
  show _ = ∑ q : Fin 64, Cert.Spec.lrelu (A (ix2 P (Cert.Spec.col h q)) * x3 (ix1 (Cert.Spec.col h q)))
  exact Finset.sum_congr rfl fun q _ => by rw [pay4_apply, hA]

theorem pay5_score (x0 : Vec Ideal S2000x128 .f32) (x1 : Vec Ideal S128x256 .f32) (x2 : Vec Ideal S256 .f32) (x4 : Vec Ideal S256 .f32)
    (A : S50000x256.Idx → EReal) (att : S256.Idx → EReal) (p : Fin 2000) (P : Fin 50000)
    (hA : ∀ c : Fin 256, k0_pay3 x0 x1 x2 (ix2 p c) = A (ix2 P c)) (h4 : x4 = att) (h : Fin 4) :
    (∑ q : Fin 64, k0_pay5 x0 x1 x2 x4 (ix2 p (Cert.Spec.col h q))) = Cert.Spec.score A att (ix2 P h) := by
  subst h4
  show _ = ∑ q : Fin 64, Cert.Spec.lrelu (A (ix2 P (Cert.Spec.col h q)) * x4 (ix1 (Cert.Spec.col h q)))
  exact Finset.sum_congr rfl fun q _ => by rw [pay5_apply, hA]

theorem block_score6 (c : Dev nD) (t : Fin cfg0.N) (p : Fin 2000) (h : Fin 4) (P : Fin 50000) (hP : P.val = 2000 * t.val + p.val) :
    k0_pay1 (k0_pay6 (iblk0 V c 0 t) (iblk0 V c 1 t) (iblk0 V c 2 t) (iblk0 V c 3 t)) (k0_pay7 (iblk0 V c 0 t) (iblk0 V c 1 t) (iblk0 V c 2 t) (iblk0 V c 3 t))
        (k0_pay8 (iblk0 V c 0 t) (iblk0 V c 1 t) (iblk0 V c 2 t) (iblk0 V c 3 t)) (k0_pay9 (iblk0 V c 0 t) (iblk0 V c 1 t) (iblk0 V c 2 t) (iblk0 V c 3 t)) (ix2 p h)
      = Cert.Spec.score (H V c) (V c main_v8) (ix2 P h) :=
  (pay1_apply _ _ _ _ p h).trans
    (pay4_score _ _ _ _ (H V c) (V c main_v8) p P (fun c' => block_lin V c t p c' P hP) (blk3_eq V c t) h)

theorem block_score7 (c : Dev nD) (t : Fin cfg0.N) (p : Fin 2000) (h : Fin 4) (P : Fin 50000) (hP : P.val = 2000 * t.val + p.val) :
    k0_pay2 (k0_pay5 (iblk0 V c 0 t) (iblk0 V c 1 t) (iblk0 V c 2 t) (iblk0 V c 4 t)) (ix2 p h)
      = Cert.Spec.score (H V c) (V c main_v11) (ix2 P h) :=
  (pay2_apply _ p h).trans
    (pay5_score _ _ _ _ (H V c) (V c main_v11) p P (fun c' => block_lin V c t p c' P hP) (blk4_eq V c t) h)

theorem emb6 (t : Fin cfg0.N) (y : S2000x4.Idx) :
    ((cfg0.win 6).blk t).view.emb y = ix2 (⟨2000 * t.val + (y 0).val, row_lt t (y 0)⟩ : Fin 50000) (y 1) := by
  obtain ⟨-, -, -, -, -, -, -, -, -, e0, e1, -⟩ := idx_facts t
  refine funext fun a => Fin.ext ?_
  match a with
  | ⟨0, _⟩ => show win0_6.index t (0 : Fin 2) * 2000 + 1 * (y 0).val = 2000 * t.val + (y 0).val; rw [e0]; omega
  | ⟨1, _⟩ => show win0_6.index t (1 : Fin 2) * 4 + 1 * (y 1).val = (y 1).val; rw [e1]; omega

theorem emb7 (t : Fin cfg0.N) (y : S2000x4.Idx) :
    ((cfg0.win 7).blk t).view.emb y = ix2 (⟨2000 * t.val + (y 0).val, row_lt t (y 0)⟩ : Fin 50000) (y 1) := by
  obtain ⟨-, -, -, -, -, -, -, -, -, -, -, e0, e1⟩ := idx_facts t
  refine funext fun a => Fin.ext ?_
  match a with
  | ⟨0, _⟩ => show win0_7.index t (0 : Fin 2) * 2000 + 1 * (y 0).val = 2000 * t.val + (y 0).val; rw [e0]; omega
  | ⟨1, _⟩ => show win0_7.index t (1 : Fin 2) * 4 + 1 * (y 1).val = (y 1).val; rw [e1]; omega

/-- WHAT POINT `t` WRITES BACK to the first scores array is block `t` of the scores of the arrays. -/
theorem flushed6_eq (c : Dev nD) (t : Fin cfg0.N) :
    (dat0 V c).flushed 6 t = ((cfg0.win 6).blk t).view.read (Elt Ideal)
      (Cert.Spec.score (H V c) (V c main_v8) : Buf (Elt Ideal) ((c : Thread nD τ).loc main_v18_1)) := by
  show (cfg0.win 6).cut (grid0.coords t) ((dat0 V c).after 6 t) = _
  rw [after0_6]
  unfold out0_6
  rw [View.canon_unit_zero (S := S2000x4) hz2]
  simp only [View.ld_unit_zero (S := S2000x128) hz2, View.ld_unit_zero (S := S128x256) hz2, View.ld_unit_zero (S := S256) hz1]
  funext y
  exact (congrArg _ (eq_ix2 y)).trans ((block_score6 V c t (y 0) (y 1) _ rfl).trans
    (congrArg (Cert.Spec.score (H V c) (V c main_v8)) (emb6 t y).symm))

/-- WHAT POINT `t` WRITES BACK to the second scores array likewise. -/
theorem flushed7_eq (c : Dev nD) (t : Fin cfg0.N) :
    (dat0 V c).flushed 7 t = ((cfg0.win 7).blk t).view.read (Elt Ideal)
      (Cert.Spec.score (H V c) (V c main_v11) : Buf (Elt Ideal) ((c : Thread nD τ).loc main_v18_2)) := by
  show (cfg0.win 7).cut (grid0.coords t) ((dat0 V c).after 7 t) = _
  rw [after0_7]
  unfold out0_7
  rw [View.canon_unit_zero (S := S2000x4) hz2]
  simp only [View.ld_unit_zero (S := S2000x128) hz2, View.ld_unit_zero (S := S128x256) hz2, View.ld_unit_zero (S := S256) hz1]
  funext y
  exact (congrArg _ (eq_ix2 y)).trans ((block_score7 V c t (y 0) (y 1) _ rfl).trans
    (congrArg (Cert.Spec.score (H V c) (V c main_v11)) (emb7 t y).symm))

theorem mem_blk6 (t : Fin cfg0.N) (i : S50000x4.Idx) :
    i ∈ ((cfg0.win 6).blk t).view.set ↔ ∀ a : Fin 2, win0_6.index t a * S2000x4.size a ≤ (i a).val ∧ (i a).val < win0_6.index t a * S2000x4.size a + S2000x4.size a := by
  show i ∈ ((View.whole main_v18_1).slice (win0_6.rect t)).set ↔ _
  rw [View.set_slice_whole, Rect.mem_set_unit]
  exact Iff.rfl

theorem mem_blk7 (t : Fin cfg0.N) (i : S50000x4.Idx) :
    i ∈ ((cfg0.win 7).blk t).view.set ↔ ∀ a : Fin 2, win0_7.index t a * S2000x4.size a ≤ (i a).val ∧ (i a).val < win0_7.index t a * S2000x4.size a + S2000x4.size a := by
  show i ∈ ((View.whole main_v18_2).slice (win0_7.rect t)).set ↔ _
  rw [View.set_slice_whole, Rect.mem_set_unit]
  exact Iff.rfl

theorem cover6 (i : S50000x4.Idx) : ∃ t : Fin cfg0.N, (cfg0.win 6).flush t = true ∧ i ∈ ((cfg0.win 6).blk t).view.set := by
  have hi0 : (i 0).val < 50000 := (i 0).isLt
  have hi1 : (i 1).val < 4 := (i 1).isLt
  obtain ⟨-, -, -, -, -, -, -, -, -, e0, e1, -⟩ := idx_facts (ptOf (i 0).val hi0)
  refine ⟨ptOf (i 0).val hi0, flush0_6 _, ?_⟩
  rw [mem_blk6]
  intro a
  match a with
  | ⟨0, _⟩ =>
    show win0_6.index (ptOf (i 0).val hi0) (0 : Fin 2) * 2000 ≤ (i 0).val ∧ (i 0).val < win0_6.index (ptOf (i 0).val hi0) (0 : Fin 2) * 2000 + 2000
    rw [e0]; show (i 0).val / 2000 * 2000 ≤ (i 0).val ∧ (i 0).val < (i 0).val / 2000 * 2000 + 2000; omega
  | ⟨1, _⟩ =>
    show win0_6.index (ptOf (i 0).val hi0) (1 : Fin 2) * 4 ≤ (i 1).val ∧ (i 1).val < win0_6.index (ptOf (i 0).val hi0) (1 : Fin 2) * 4 + 4
    rw [e1]; omega

theorem cover7 (i : S50000x4.Idx) : ∃ t : Fin cfg0.N, (cfg0.win 7).flush t = true ∧ i ∈ ((cfg0.win 7).blk t).view.set := by
  have hi0 : (i 0).val < 50000 := (i 0).isLt
  have hi1 : (i 1).val < 4 := (i 1).isLt
  obtain ⟨-, -, -, -, -, -, -, -, -, -, -, e0, e1⟩ := idx_facts (ptOf (i 0).val hi0)
  refine ⟨ptOf (i 0).val hi0, flush0_7 _, ?_⟩
  rw [mem_blk7]
  intro a
  match a with
  | ⟨0, _⟩ =>
    show win0_7.index (ptOf (i 0).val hi0) (0 : Fin 2) * 2000 ≤ (i 0).val ∧ (i 0).val < win0_7.index (ptOf (i 0).val hi0) (0 : Fin 2) * 2000 + 2000
    rw [e0]; show (i 0).val / 2000 * 2000 ≤ (i 0).val ∧ (i 0).val < (i 0).val / 2000 * 2000 + 2000; omega
  | ⟨1, _⟩ =>
    show win0_7.index (ptOf (i 0).val hi0) (1 : Fin 2) * 4 ≤ (i 1).val ∧ (i 1).val < win0_7.index (ptOf (i 0).val hi0) (1 : Fin 2) * 4 + 4
    rw [e1]; omega

/-- THE FIRST SCORES ARRAY after the region: the scores of the dense layer of the arrays against the first attention vector. -/
theorem final0_6 (c : Dev nD) : (Gen.dat0 V c).arrAt 6 cfg0.N
    = Cert.Spec.score (Cert.Spec.lin (K := 128) (V c main_arg0) (V c main_v4) (V c main_arg3)) (V c main_v8) :=
  (dat0 V c).arrAt_eq_of_cover 6 (Cert.Spec.score (H V c) (V c main_v8)) (fun t _ => flushed6_eq V c t) cover6

/-- THE SECOND SCORES ARRAY after the region: the same against the second attention vector. -/
theorem final0_7 (c : Dev nD) : (Gen.dat0 V c).arrAt 7 cfg0.N
    = Cert.Spec.score (Cert.Spec.lin (K := 128) (V c main_arg0) (V c main_v4) (V c main_arg3)) (V c main_v11) :=
  (dat0 V c).arrAt_eq_of_cover 7 (Cert.Spec.score (H V c) (V c main_v11)) (fun t _ => flushed7_eq V c t) cover7

end Cert.KernelIdeal.Region0

end
-- ==== Proof.Region1.lean ====
/-
  The layer-normalisation region of the kernel program, as one function of the arrays it finds.

  The region reads `num` ([50000, 256]: per node, 4 heads of 64 channels laid side by side), `den` ([50000, 4]: per node
  and head), `gamma` and `beta` ([256]). Its body, on a block of 2000 rows, lays the denominators over the columns
  (column `c` gets `den (r, c / 64)`) and divides: `a = num / den`. Then per row: the mean is the sum over the 256 columns
  divided by 256.0, kept as a column and broadcast back; the variance is the mean of the squared deviations; the result is
  `((a − mean) · rsqrt (var + ε)) · gamma + beta`, then the leaky ReLU (`x` where `x > 0`, else `slope · x`). Read index by
  index that is `Spec.lnK (Spec.agg num den) gamma beta` restricted to the block's rows — a row's statistics only read that
  row, so a block of whole rows computes them as the whole array does; the 25 blocks tile the 50000 rows, so the output array
  after the region is `Spec.lnK (Spec.agg num den) gamma beta`, whole (`final1_4`).
  No arithmetic law is used: every extended-real operation appears in the Spec in the body's own order; the proof is
  re-indexing only.
-/
import proofs.«129437_j77214922047879_1_alg».proof.Proof.Gen.KernelIdeal.Frame
import proofs.«129437_j77214922047879_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.ValueIdx Idealize.SL.Sem
open Idealize.ShloMosaic.Pipeline (Dat)
open Idealize.ShloMosaic.TcCoe

/-! ## The layout operations of the body, read at an index -/

/-- Column `k` of a [2000,4] block, kept as a [2000,1] column and broadcast over 64 columns. -/
abbrev headCol (x1 : S2000x4.Idx → EReal) (o : Nat) (hs : S2000x4.Slices ![0, o] S2000x1) : S2000x64.Idx → EReal :=
  broadcastTo S2000x64 (shapeCast S2000x1 (extractStridedSlice S2000x1 ![0, o]
    (shapeCast S2000x4 x1 shapeCasts_S2000x4_S2000x4) hs) shapeCasts_S2000x1_S2000x1) broadcasts_S2000x1_S2000x64

/-- It reads at `(r, q)` the block at `(r, k)`. -/
theorem headCol_apply (x1 : S2000x4.Idx → EReal) (o : Nat) (hs : S2000x4.Slices ![0, o] S2000x1) (k : Fin 4)
    (hk : k.val = o + 0) (r : Fin 2000) (q : Fin 64) : headCol x1 o hs (ix2 r q) = x1 (ix2 r k) := by
  refine (broadcastTo_apply _ _ (ix2 r q) (ix2 r (0 : Fin 1)) fun a => ?_).trans ?_
  · match a with
    | ⟨0, _⟩ => rfl
    | ⟨1, _⟩ => rfl
  rw [shapeCast_self]
  refine (slice2_axis1_apply o _ hs r (0 : Fin 1) k hk).trans ?_
  rw [shapeCast_self]

/-- Four [2000,64] bands laid side by side read, at column `64 k + q`, band `k` at column `q`. -/
theorem concat4_apply (y0 y1 y2 y3 : S2000x64.Idx → EReal) (r : Fin 2000) (c : Fin 256) (k : Nat) (hk : k < 4)
    (y : S2000x64.Idx → EReal)
    (hy : ([⟨S2000x64, y0⟩, ⟨S2000x64, y1⟩, ⟨S2000x64, y2⟩, ⟨S2000x64, y3⟩] : List ((s : Shape) × (s.Idx → EReal)))[k]'hk
      = ⟨S2000x64, y⟩)
    (q : Fin 64) (hc : c.val = 64 * k + q.val) :
    concatenate S2000x256 1 [⟨S2000x64, y0⟩, ⟨S2000x64, y1⟩, ⟨S2000x64, y2⟩, ⟨S2000x64, y3⟩]
      concatenates_S2000x64_S2000x64_S2000x64_S2000x64_S2000x256_d1 (ix2 r c) = y (ix2 r q) := by
  refine concatenate_apply_piece (t := S2000x256) (1 : Fin 2)
    ([⟨S2000x64, y0⟩, ⟨S2000x64, y1⟩, ⟨S2000x64, y2⟩, ⟨S2000x64, y3⟩] : List ((s : Shape) × (s.Idx → EReal)))
    concatenates_S2000x64_S2000x64_S2000x64_S2000x64_S2000x256_d1 (ix2 r c) k hk S2000x64 y hy rfl (64 * k) ?_ (ix2 r q)
    (fun b hb => ?_) ?_
  · interval_cases k <;> rfl
  · match b with
    | ⟨0, _⟩ => rfl
    | ⟨1, _⟩ => exact absurd rfl hb
  · show 64 * k + q.val = c.val
    omega

/-- The denominators laid over the 256 columns: the four columns of the [2000,4] block, each over its head's 64. -/
abbrev denLay (x1 : S2000x4.Idx → EReal) : S2000x256.Idx → EReal :=
  concatenate S2000x256 1 [⟨S2000x64, headCol x1 0 slices_S2000x4_o0_0_S2000x1⟩, ⟨S2000x64, headCol x1 1 slices_S2000x4_o0_1_S2000x1⟩,
    ⟨S2000x64, headCol x1 2 slices_S2000x4_o0_2_S2000x1⟩, ⟨S2000x64, headCol x1 3 slices_S2000x4_o0_3_S2000x1⟩]
    concatenates_S2000x64_S2000x64_S2000x64_S2000x64_S2000x256_d1

/-- At column `64 h + q` it reads the block at `(r, h)`. -/
theorem denLay_apply (x1 : S2000x4.Idx → EReal) (r : Fin 2000) (h : Fin 4) (q : Fin 64) :
    denLay x1 (ix2 r (Spec.col h q)) = x1 (ix2 r h) := by
  match h with
  | ⟨0, _⟩ => exact (concat4_apply _ _ _ _ r _ 0 (by omega) _ rfl q rfl).trans (headCol_apply x1 0 _ _ rfl r q)
  | ⟨1, _⟩ => exact (concat4_apply _ _ _ _ r _ 1 (by omega) _ rfl q rfl).trans (headCol_apply x1 1 _ _ rfl r q)
  | ⟨2, _⟩ => exact (concat4_apply _ _ _ _ r _ 2 (by omega) _ rfl q rfl).trans (headCol_apply x1 2 _ _ rfl r q)
  | ⟨3, _⟩ => exact (concat4_apply _ _ _ _ r _ 3 (by omega) _ rfl q rfl).trans (headCol_apply x1 3 _ _ rfl r q)

/-- `num / den` on a block: the numerators divided head by head by the block's denominators. -/
def aggB (x0 : S2000x256.Idx → EReal) (x1 : S2000x4.Idx → EReal) : S2000x256.Idx → EReal :=
  fun i => Ideal.div (x0 i) (x1 (ix2 (i 0) (Spec.headOf (i 1))))

/-- The body's quotient at an index. -/
theorem aggBlock_apply (x0 : S2000x256.Idx → EReal) (x1 : S2000x4.Idx → EReal) (r : Fin 2000) (c : Fin 256) :
    divf (F := Ideal) (φ := .f32) (shapeCast S2000x256 x0 shapeCasts_S2000x256_S2000x256) (denLay x1) (ix2 r c) = aggB x0 x1 (ix2 r c) := by
  obtain ⟨h, q, rfl⟩ : ∃ (h : Fin 4) (q : Fin 64), c = Spec.col h q :=
    ⟨Spec.headOf c, Spec.chanOf c, (Spec.col_headOf_chanOf c).symm⟩
  show Ideal.div (shapeCast S2000x256 x0 shapeCasts_S2000x256_S2000x256 (ix2 r (Spec.col h q))) (denLay x1 (ix2 r (Spec.col h q)))
    = Ideal.div (x0 (ix2 r (Spec.col h q))) (x1 (ix2 r (Spec.headOf (Spec.col h q))))
  rw [shapeCast_self, denLay_apply, Spec.headOf_col]

/-- A [2000,1] column broadcast over 256 columns reads at `(r, c)` the column at `(r, 0)`. -/
theorem keepCol_apply (w : S2000x1.Idx → EReal) (r : Fin 2000) (c : Fin 256) :
    broadcastTo S2000x256 w broadcasts_S2000x1_S2000x256 (ix2 r c) = w (ix2 r (0 : Fin 1)) := by
  refine broadcastTo_apply w _ (ix2 r c) (ix2 r (0 : Fin 1)) fun a => ?_
  match a with
  | ⟨0, _⟩ => rfl
  | ⟨1, _⟩ => rfl

/-- A [2000] vector kept as a [2000,1] column reads at `(r, u)` the vector at `r`. -/
theorem colOfVec_apply (v : S2000.Idx → EReal) (r : Fin 2000) (u : Fin 1) :
    shapeCast S2000x1 v shapeCasts_S2000_S2000x1 (ix2 r u) = v (ix1 r) := by
  refine shapeCast_apply v _ (ix2 r u) (ix1 r) ?_
  have hu : u.val = 0 := by omega
  rw [Shape.rowMajor_val_two, Shape.rowMajor_val_one]
  show r.val = r.val * 1 + u.val
  omega

/-- The lane sum of a [2000,256] block at row `r` is the sum over the 256 columns. -/
theorem laneSum_apply (a : FVec Ideal S2000x256 .f32) (hφ : FKind.Formats .f32)
    (hacc : (0x00000000#32 : BitVec 32) = FKind.add.neutral .f32 hφ) (r : Fin 2000) :
    multiReduction (F := Ideal) .add [1] S2000 a 0x00000000#32 reduces_S2000x256_S2000 hφ hacc (ix1 r)
      = ∑ k : Fin 256, a (ix2 r k) := by
  refine (Ideal.multiReduction_add_single a _ reduces_S2000x256_S2000 hφ hacc (ix1 r)).trans ?_
  show ∑ k : Fin 256, a (reduces_S2000x256_S2000.lift (ix1 r) k) = _
  refine Finset.sum_congr rfl fun k _ => congrArg a ?_
  funext b
  apply Fin.ext
  match b with
  | ⟨0, _⟩ => rfl
  | ⟨1, _⟩ => rfl

/-- A [256] vector laid as one row and broadcast down the 2000 rows reads at `(r, c)` the vector at `c`. -/
theorem rowBroadcast_apply (g : S256.Idx → EReal) (r : Fin 2000) (c : Fin 256) :
    broadcastTo S2000x256 (shapeCast S1x256 g shapeCasts_S256_S1x256) broadcasts_S1x256_S2000x256 (ix2 r c) = g (ix1 c) :=
  (broadcastTo_1b_ab_apply _ _ r c).trans (shapeCast_a_1a_apply g _ 0 c)

/-! ## Row statistics of a block -/

/-- The mean of row `r` of a block. -/
def meanB (a : S2000x256.Idx → EReal) (r : Fin 2000) : EReal := Ideal.div (∑ k : Fin 256, a (ix2 r k)) Spec.c256W

/-- The lane sum kept as a column and divided by 256.0 is the row mean, at `(r, 0)`. -/
theorem meanCol_apply (a : FVec Ideal S2000x256 .f32) (hφ : FKind.Formats .f32)
    (hacc : (0x00000000#32 : BitVec 32) = FKind.add.neutral .f32 hφ) (r : Fin 2000) :
    divf (F := Ideal) (φ := .f32) (shapeCast S2000x1 (multiReduction (F := Ideal) .add [1] S2000 a 0x00000000#32 reduces_S2000x256_S2000 hφ hacc)
        shapeCasts_S2000_S2000x1) (broadcast S2000x1 (Scalar.ofBits (F := Ideal) .f32 0x43800000#32)) (ix2 r (0 : Fin 1))
      = meanB a r :=
  congrArg₂ Ideal.div ((colOfVec_apply _ r 0).trans (laneSum_apply a hφ hacc r)) rfl

/-- The variance of row `r` of a block: the mean of the squared deviations. -/
def varB (a : S2000x256.Idx → EReal) (r : Fin 2000) : EReal :=
  Ideal.div (∑ k : Fin 256, (a (ix2 r k) - meanB a r) * (a (ix2 r k) - meanB a r)) Spec.c256W

/-- The row mean broadcast back over the columns, for a block that is `A` on row `r`. -/
theorem meanKeep_apply (a : FVec Ideal S2000x256 .f32) (A : S2000x256.Idx → EReal) (hφ : FKind.Formats .f32)
    (hacc : (0x00000000#32 : BitVec 32) = FKind.add.neutral .f32 hφ) (r : Fin 2000)
    (hA : ∀ k : Fin 256, a (ix2 r k) = A (ix2 r k)) (c : Fin 256) :
    broadcastTo S2000x256 (divf (F := Ideal) (φ := .f32) (shapeCast S2000x1
        (multiReduction (F := Ideal) .add [1] S2000 a 0x00000000#32 reduces_S2000x256_S2000 hφ hacc) shapeCasts_S2000_S2000x1)
        (broadcast S2000x1 (Scalar.ofBits (F := Ideal) .f32 0x43800000#32))) broadcasts_S2000x1_S2000x256 (ix2 r c)
      = meanB A r :=
  (keepCol_apply _ r c).trans ((meanCol_apply a hφ hacc r).trans
    (congrArg (fun s => Ideal.div s Spec.c256W) (Finset.sum_congr rfl fun k _ => hA k)))

/-! ## The body's payload at an index -/

/-- The normalised, scaled and shifted value the body computes at `(r, c)`: with `a = num / den` on the block,
    `((a − mean) · rsqrt (var + ε)) · gamma + beta`. -/
theorem pay2_apply (x0 : Vec Ideal S2000x256 .f32) (x1 : Vec Ideal S2000x4 .f32) (g b : Vec Ideal S256 .f32)
    (r : Fin 2000) (c : Fin 256) :
    k1_pay2 x0 x1 g b (ix2 r c)
      = ((aggB x0 x1 (ix2 r c) - meanB (aggB x0 x1) r) * Ideal.rsqrt (varB (aggB x0 x1) r + Spec.epsW)) * g (ix1 c)
        + b (ix1 c) := by
  unfold k1_pay2
  refine congrArg₂ (· + ·) (congrArg₂ (· * ·) (congrArg₂ (· * ·) (congrArg₂ (· - ·) ?_ ?_) ?_) ?_) ?_
  · exact aggBlock_apply x0 x1 r c
  · exact meanKeep_apply _ (aggB x0 x1) _ _ r (fun k => aggBlock_apply x0 x1 r k) c
  · refine (keepCol_apply _ r c).trans (congrArg Ideal.rsqrt (congrArg₂ (· + ·) ?_ rfl))
    refine (meanCol_apply _ _ _ r).trans (congrArg (fun s => Ideal.div s Spec.c256W) (Finset.sum_congr rfl fun k _ => ?_))
    exact congrArg₂ (· * ·)
      (congrArg₂ (· - ·) (aggBlock_apply x0 x1 r k) (meanKeep_apply _ (aggB x0 x1) _ _ r (fun k => aggBlock_apply x0 x1 r k) k))
      (congrArg₂ (· - ·) (aggBlock_apply x0 x1 r k) (meanKeep_apply _ (aggB x0 x1) _ _ r (fun k => aggBlock_apply x0 x1 r k) k))
  · exact rowBroadcast_apply g r c
  · exact rowBroadcast_apply b r c

/-- What the body stores at `(r, c)`: the leaky ReLU of that value. -/
theorem pay1_apply (x0 : Vec Ideal S2000x256 .f32) (x1 : Vec Ideal S2000x4 .f32) (g b : Vec Ideal S256 .f32)
    (i : S2000x256.Idx) :
    k1_pay1 (k1_pay2 x0 x1 g b) (k1_pay3 x0 x1 g b) (Scalar.ofBits (F := Ideal) .f32 0x3C23D70A#32) i
      = Spec.lrelu (k1_pay2 x0 x1 g b i) := by
  unfold k1_pay1 k1_pay3 Spec.lrelu
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The block of grid point `t` is rows `2000 t … 2000 t + 1999` of the [50000, ·] arrays, all their columns; the two
    [256] vectors are one whole block at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 :=
  (by decide +kernel : ∀ t : Fin grid1.N, _)

/-- Blocks of the inputs that hold rows `R r` of `num` and `den`, and the whole of `gamma` and `beta`, are sent by the
    body to the same rows of the layer normalisation of `num / den`, scaled, shifted and leaky-ReLU'd. -/
theorem block_eq (num : Spec.SNC.Idx → EReal) (den : Spec.SNH.Idx → EReal) (gam bet : Spec.SC.Idx → EReal)
    (x0 : Vec Ideal S2000x256 .f32) (x1 : Vec Ideal S2000x4 .f32) (x2 x3 : Vec Ideal S256 .f32) (R : Fin 2000 → Fin 50000)
    (h0 : ∀ (r : Fin 2000) (k : Fin 256), x0 (ix2 r k) = num (ix2 (R r) k))
    (h1 : ∀ (r : Fin 2000) (h : Fin 4), x1 (ix2 r h) = den (ix2 (R r) h))
    (h2 : ∀ k : Fin 256, x2 (ix1 k) = gam (ix1 k)) (h3 : ∀ k : Fin 256, x3 (ix1 k) = bet (ix1 k))
    (r : Fin 2000) (c : Fin 256) :
    k1_pay1 (k1_pay2 x0 x1 x2 x3) (k1_pay3 x0 x1 x2 x3) (Scalar.ofBits (F := Ideal) .f32 0x3C23D70A#32) (ix2 r c)
      = Spec.lnK (Spec.agg num den) gam bet (ix2 (R r) c) := by
  have hagg : ∀ k : Fin 256, aggB x0 x1 (ix2 r k) = Spec.agg num den (ix2 (R r) k) := fun k => by
    show Ideal.div (x0 (ix2 r k)) (x1 (ix2 r (Spec.headOf k)))
      = Ideal.div (num (ix2 (R r) k)) (den (ix2 (R r) (Spec.headOf k)))
    rw [h0, h1]
  have hmean : meanB (aggB x0 x1) r = Spec.rowMean (Spec.agg num den) (R r) := by
    unfold meanB Spec.rowMean
    exact congrArg (fun s => Ideal.div s Spec.c256W) (Finset.sum_congr rfl fun k _ => hagg k)
  have hvar : varB (aggB x0 x1) r = Spec.rowVar (Spec.agg num den) (R r) := by
    unfold varB Spec.rowVar
    rw [hmean]
    exact congrArg (fun s => Ideal.div s Spec.c256W) (Finset.sum_congr rfl fun k _ => by rw [hagg k])
  rw [pay1_apply, pay2_apply, hagg c, hmean, hvar, h2, h3]
  rfl

/-- The same at an index not yet split into its coordinates. -/
theorem block_eq' (num : Spec.SNC.Idx → EReal) (den : Spec.SNH.Idx → EReal) (gam bet : Spec.SC.Idx → EReal)
    (x0 : Vec Ideal S2000x256 .f32) (x1 : Vec Ideal S2000x4 .f32) (x2 x3 : Vec Ideal S256 .f32) (R : Fin 2000 → Fin 50000)
    (h0 : ∀ (r : Fin 2000) (k : Fin 256), x0 (ix2 r k) = num (ix2 (R r) k))
    (h1 : ∀ (r : Fin 2000) (h : Fin 4), x1 (ix2 r h) = den (ix2 (R r) h))
    (h2 : ∀ k : Fin 256, x2 (ix1 k) = gam (ix1 k)) (h3 : ∀ k : Fin 256, x3 (ix1 k) = bet (ix1 k))
    (y : S2000x256.Idx) :
    k1_pay1 (k1_pay2 x0 x1 x2 x3) (k1_pay3 x0 x1 x2 x3) (Scalar.ofBits (F := Ideal) .f32 0x3C23D70A#32) y
      = Spec.lnK (Spec.agg num den) gam bet (ix2 (R (y 0)) (y 1)) :=
  (congrArg (k1_pay1 (k1_pay2 x0 x1 x2 x3) (k1_pay3 x0 x1 x2 x3) (Scalar.ofBits (F := Ideal) .f32 0x3C23D70A#32)) (eq_ix2 y)).trans
    (block_eq num den gam bet x0 x1 x2 x3 R h0 h1 h2 h3 (y 0) (y 1))

/-- The whole-array function the region computes. -/
abbrev G (c : Dev nD) : Buf (Elt Ideal) ((c : Thread nD τ).loc main_v53) :=
  Spec.lnK (Spec.agg (V c main_v49) (V c main_v52)) (V c main_arg8) (V c main_arg9)

/-- Row `r` of the block of grid point `t` is row `2000 t + r` of the array. -/
def rowOf (t : Fin cfg1.N) (r : Fin 2000) : Fin 50000 :=
  ⟨2000 * t.val + r.val, by have ht : t.val < 25 := lt_of_lt_of_eq t.isLt N_1; have := r.isLt; omega⟩

/-- WHAT POINT `t` WRITES BACK is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x4) hz, View.ld_unit_zero (S := S256) hz1]
  obtain ⟨e0, e1, e2, e3, e4, e5, e6, e7⟩ := idx_facts t
  refine funext fun (y : S2000x256.Idx) => ?_
  show k1_pay1 (k1_pay2 (iblk1 V c 0 t) (iblk1 V c 1 t) (iblk1 V c 2 t) (iblk1 V c 3 t))
      (k1_pay3 (iblk1 V c 0 t) (iblk1 V c 1 t) (iblk1 V c 2 t) (iblk1 V c 3 t)) (Scalar.ofBits (F := Ideal) .f32 0x3C23D70A#32) y
    = G V c (((cfg1.win 4).blk t).view.emb y)
  refine (block_eq' (V c main_v49) (V c main_v52) (V c main_arg8) (V c main_arg9) (iblk1 V c 0 t) (iblk1 V c 1 t)
    (iblk1 V c 2 t) (iblk1 V c 3 t) (rowOf t) (fun r k => ?_) (fun r k => ?_) (fun k => ?_) (fun k => ?_) y).trans ?_
  · show V c main_v49 (((cfg1.win 0).blk t).view.emb (ix2 r k)) = V c main_v49 (ix2 (rowOf t r) k)
    have e : ((cfg1.win 0).blk t).view.emb (ix2 r k) = ix2 (rowOf t r) k := by
      funext a; apply Fin.ext
      match a with
      | ⟨0, _⟩ => show win1_0.index t (0 : Fin 2) * 2000 + 1 * r.val = 2000 * t.val + r.val; omega
      | ⟨1, _⟩ => show win1_0.index t (1 : Fin 2) * 256 + 1 * k.val = k.val; omega
    rw [e]
  · show V c main_v52 (((cfg1.win 1).blk t).view.emb (ix2 r k)) = V c main_v52 (ix2 (rowOf t r) k)
    have e : ((cfg1.win 1).blk t).view.emb (ix2 r k) = ix2 (rowOf t r) k := by
      funext a; apply Fin.ext
      match a with
      | ⟨0, _⟩ => show win1_1.index t (0 : Fin 2) * 2000 + 1 * r.val = 2000 * t.val + r.val; omega
      | ⟨1, _⟩ => show win1_1.index t (1 : Fin 2) * 4 + 1 * k.val = k.val; omega
    rw [e]
  · show V c main_arg8 (((cfg1.win 2).blk t).view.emb (ix1 k)) = V c main_arg8 (ix1 k)
    have e : ((cfg1.win 2).blk t).view.emb (ix1 k) = ix1 k := by
      funext a; apply Fin.ext
      match a with
      | ⟨0, _⟩ => show win1_2.index t (0 : Fin 1) * 256 + 1 * k.val = k.val; omega
    rw [e]
  · show V c main_arg9 (((cfg1.win 3).blk t).view.emb (ix1 k)) = V c main_arg9 (ix1 k)
    have e : ((cfg1.win 3).blk t).view.emb (ix1 k) = ix1 k := by
      funext a; apply Fin.ext
      match a with
      | ⟨0, _⟩ => show win1_3.index t (0 : Fin 1) * 256 + 1 * k.val = k.val; omega
    rw [e]
  · have e : ((cfg1.win 4).blk t).view.emb y = ix2 (rowOf t (y 0)) (y 1) := by
      funext a; apply Fin.ext
      match a with
      | ⟨0, _⟩ => show win1_4.index t (0 : Fin 2) * 2000 + 1 * (y 0).val = 2000 * t.val + (y 0).val; omega
      | ⟨1, _⟩ => show win1_4.index t (1 : Fin 2) * 256 + 1 * (y 1).val = (y 1).val; omega
    rw [e]
    rfl

/-- An index of the array is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v53).slice (win1_4.rect t)).set ↔ _
  rw [View.set_slice_whole, Rect.mem_set_unit]
  exact Iff.rfl

/-- Every row lies in the block of the point `row / 2000`. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_4 _, ?_⟩
  rw [mem_blk]
  obtain ⟨-, -, -, -, -, -, e6, e7⟩ := idx_facts ⟨(i 0).val / 2000, by rw [hN]; omega⟩
  intro a
  match a with
  | ⟨0, _⟩ =>
    show win1_4.index ⟨(i 0).val / 2000, _⟩ (0 : Fin 2) * 2000 ≤ (i 0).val
      ∧ (i 0).val < win1_4.index ⟨(i 0).val / 2000, _⟩ (0 : Fin 2) * 2000 + 2000
    rw [e6]; show (i 0).val / 2000 * 2000 ≤ (i 0).val ∧ (i 0).val < (i 0).val / 2000 * 2000 + 2000; omega
  | ⟨1, _⟩ =>
    show win1_4.index ⟨(i 0).val / 2000, _⟩ (1 : Fin 2) * 256 ≤ (i 1).val
      ∧ (i 1).val < win1_4.index ⟨(i 0).val / 2000, _⟩ (1 : Fin 2) * 256 + 256
    rw [e7]; omega

/-- THE ARRAY after the region: the layer normalisation of `num / den` over the 256 columns, scaled by `gamma`,
    shifted by `beta`, then the leaky ReLU — whole. -/
theorem final1_4 (c : Dev nD) :
    (Gen.dat1 V c).arrAt 4 cfg1.N
      = Cert.Spec.lnK (Cert.Spec.agg (V c main_v49) (V c main_v52)) (V c main_arg8) (V c main_arg9) :=
  (dat1 V c).arrAt_eq_of_cover 4 (G V c) (fun t _ => flushed_eq V c t) cover

end Cert.KernelIdeal.Region1

end
-- ==== Proof.Region2.lean ====
/-
  The dense layer fused with the attention scores, on the second layer's input (256 input channels): what its three
  output arrays hold after the region, as whole-array functions of the arrays the region finds.

  The region walks the 50000 rows in 25 blocks of 2000.  At block `t` it forms, from rows `2000 t … 2000 t + 1999`
  of the normalised node table, the block of the dense layer  x · wᵀ + b  (entry `(p, c)` is row `p` of the block of
  `x` against column `c` of the weights, plus the bias at `c`: it uses no other row), multiplies it column by column
  with an attention vector, applies the leaky ReLU, and sums each of the four bands of 64 columns along the lanes;
  the four column sums side by side are the block of the scores.  Since entry `(p, c)` of a block depends on row `p`
  of the block of `x` only, block `t` of each result is the block of rows `2000 t …` of ONE function of the whole
  arrays (`Cert.Spec.lin`, `Cert.Spec.score`), and since every row `r` lies in block `r / 2000` the blocks cover the
  arrays.
-/
import proofs.«129437_j77214922047879_1_alg».proof.Proof.Gen.KernelIdeal.Frame
import proofs.«129437_j77214922047879_1_alg».proof.Proof.Spec
import proofs.«129437_j77214922047879_1_alg».proof.Proof.LibMatmulRows
import proofs.«129437_j77214922047879_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.ValueIdx Idealize.SL.Sem
open Idealize.ShloMosaic.TcCoe
open Idealize.ShloMosaic.Pipeline (Dat)

/-! ## Small layout readings -/

section Layout
variable {α : Type}

/-- A `[C]` vector laid as a `[1, C]` row and repeated down `N` rows reads, at `(n, j)`, the vector at `j`. -/
theorem row_down_apply {N C : ℕ} (hC : C ≠ 1) (v : (⟨1, ![C]⟩ : Shape).Idx → α)
    (h : (⟨1, ![C]⟩ : Shape).ShapeCasts ⟨2, ![1, C]⟩) (h' : (⟨2, ![1, C]⟩ : Shape).Broadcasts ⟨2, ![N, C]⟩)
    (n : Fin N) (j : Fin C) :
    broadcastTo ⟨2, ![N, C]⟩ (shapeCast ⟨2, ![1, C]⟩ v h) h' (ix2 n j) = v (ix1 j) := by
  refine (broadcastTo_apply _ h' (ix2 n j) (ix2 (0 : Fin 1) j) fun ax => ?_).trans ?_
  · match ax with
    | ⟨0, _⟩ => show (0 : ℕ) = if (1 : ℕ) = 1 then 0 else n.val; rw [if_pos rfl]
    | ⟨1, _⟩ => show j.val = if C = 1 then 0 else j.val; rw [if_neg hC]
  · refine shapeCast_apply v h (ix2 (0 : Fin 1) j) (ix1 j) ?_
    rw [Shape.rowMajor_val_two, Shape.rowMajor_val_one]
    show j.val = 0 * C + j.val
    omega

end Layout

/-! ## The dense layer's block at an index -/

/-- The kernel's dot dimension numbers are the plain "rows by contraction, times contraction by columns" ones. -/
theorem dot_eq_plain : dot_S2000x256_S256x256_S2000x256_1_0_0_1_n_n = DotDims.plain 2000 256 256 := rfl

/-- Entry `(p, q)` of the block of the dense layer: row `p` of the block of `x` against column `q` of the weights,
    plus the bias at `q` (the roundings to bf16 are the identity on the ideal values). -/
theorem pay3_apply (x0 : Vec Ideal S2000x256 .f32) (x1 : Vec Ideal S256x256 .f32) (x2 : Vec Ideal S256 .f32)
    (p : Fin 2000) (q : Fin 256) :
    k2_pay3 x0 x1 x2 (ix2 p q) = (∑ k : Fin 256, x0 (ix2 p k) * x1 (ix2 k q)) + x2 (ix1 q) := by
  unfold k2_pay3
  refine (addf_apply _ _ _).trans ?_
  refine congrArg₂ (· + ·) ?_ ?_
  · refine (Cert.Bridge.matmul_plain_zero_apply 2000 256 256 none _ _ p q).trans ?_
    refine Finset.sum_congr rfl fun k _ => ?_
    exact congrArg₂ (· * ·) (congrFun (shapeCast_self x0 _) (ix2 p k)) (congrFun (shapeCast_self x1 _) (ix2 k q))
  · exact row_down_apply (by decide) x2 _ _ p q

/-- Leaky ReLU of a product of two vectors, at an index where the second factor is known. -/
theorem lrelu_vec_apply (a w : FVec Ideal S2000x256 .f32) (i : S2000x256.Idx) (r : EReal) (hw : w i = r) :
    select (cmpf .ogt (mulf a w) (broadcast S2000x256 (Scalar.ofBits (F := Ideal) .f32 0x00000000#32))) (mulf a w)
      (mulf (broadcast S2000x256 (Scalar.ofBits (F := Ideal) .f32 0x3C23D70A#32)) (mulf a w)) i = Cert.Spec.lrelu (a i * r) := by
  subst hw; rfl

/-- Entry `(p, c)` of the leaky ReLU of the dense layer's block times an attention vector. -/
theorem pay4_apply (x0 : Vec Ideal S2000x256 .f32) (x1 : Vec Ideal S256x256 .f32) (x2 : Vec Ideal S256 .f32) (x3 : Vec Ideal S256 .f32)
    (p : Fin 2000) (c : Fin 256) :
    k2_pay4 x0 x1 x2 x3 (ix2 p c) = Cert.Spec.lrelu (k2_pay3 x0 x1 x2 (ix2 p c) * x3 (ix1 c)) := by
  unfold k2_pay4
  exact lrelu_vec_apply _ _ _ _ ((row_down_apply (by decide) _ _ _ p c).trans (congrFun (shapeCast_self x3 _) (ix1 c)))

theorem pay5_apply (x0 : Vec Ideal S2000x256 .f32) (x1 : Vec Ideal S256x256 .f32) (x2 : Vec Ideal S256 .f32) (x4 : Vec Ideal S256 .f32)
    (p : Fin 2000) (c : Fin 256) :
    k2_pay5 x0 x1 x2 x4 (ix2 p c) = Cert.Spec.lrelu (k2_pay3 x0 x1 x2 (ix2 p c) * x4 (ix1 c)) := by
  unfold k2_pay5
  exact lrelu_vec_apply _ _ _ _ ((row_down_apply (by decide) _ _ _ p c).trans (congrFun (shapeCast_self x4 _) (ix1 c)))

/-! ## A head's score: the lane sum of a 64-column band -/

/-- The lane sum of the band of 64 columns starting at column `o` of a `[2000, 256]` block, kept as a column, at
    row `p`: the sum over the band's columns. -/
theorem band_sum_apply (u : FVec Ideal S2000x256 .f32) (o : ℕ) (hs : S2000x256.Slices ![0, o] S2000x64)
    (hr : S2000x64.Reduces [1] S2000) (hφ : FKind.Formats .f32) (hacc : (0x00000000#32 : BitVec 32) = FKind.add.neutral .f32 hφ)
    (hc : S2000.ShapeCasts S2000x1) (p : Fin 2000) (z : Fin 1) (cidx : Fin 64 → Fin 256) (hcidx : ∀ q, (cidx q).val = o + q.val) :
    shapeCast S2000x1 (multiReduction .add [1] S2000 (extractStridedSlice S2000x64 ![0, o] u hs) 0x00000000#32 hr hφ hacc) hc (ix2 p z)
      = ∑ q : Fin 64, u (ix2 p (cidx q)) := by
  refine (Cert.Lib.Keepdims.shapeCast_a_a1_apply _ hc p z).trans ?_
  refine (Ideal.multiReduction_add_single _ _ hr hφ hacc (ix1 p)).trans ?_
  refine Finset.sum_congr rfl fun q _ => ?_
  refine extractStridedSlice_apply ![0, o] u hs _ (ix2 p (cidx q)) fun ax => ?_
  match ax with
  | ⟨0, _⟩ => show p.val = 0 + p.val; omega
  | ⟨1, _⟩ => show (cidx q).val = o + q.val; exact hcidx q

/-- Four columns side by side as a `[2000, 4]` block, read at `(p, h)`: column `h` at row `p`. -/
theorem concat4_apply (v0 v1 v2 v3 : FVec Ideal S2000x1 .f32)
    (hcat : Shape.Concatenates [S2000x1, S2000x1, S2000x1, S2000x1] S2000x4 1)
    (p : Fin 2000) (h : Fin 4) (r : EReal)
    (h0 : h.val = 0 → v0 (ix2 p (0 : Fin 1)) = r) (h1 : h.val = 1 → v1 (ix2 p (0 : Fin 1)) = r)
    (h2 : h.val = 2 → v2 (ix2 p (0 : Fin 1)) = r) (h3 : h.val = 3 → v3 (ix2 p (0 : Fin 1)) = r) :
    concatenate S2000x4 1 [⟨S2000x1, v0⟩, ⟨S2000x1, v1⟩, ⟨S2000x1, v2⟩, ⟨S2000x1, v3⟩] hcat (ix2 p h) = r := by
  match h with
  | ⟨0, hh⟩ =>
    refine (concatenate_apply_piece (t := S2000x4) (α := EReal) 1 [⟨S2000x1, v0⟩, ⟨S2000x1, v1⟩, ⟨S2000x1, v2⟩, ⟨S2000x1, v3⟩] hcat (ix2 p ⟨0, hh⟩) 0 (by show (0 : ℕ) < 4; omega) S2000x1 v0 rfl rfl 0 rfl (ix2 p (0 : Fin 1)) (fun b hb => ?_) rfl).trans (h0 rfl)
    match b with
    | ⟨0, _⟩ => rfl
    | ⟨1, _⟩ => exact absurd rfl hb
  | ⟨1, hh⟩ =>
    refine (concatenate_apply_piece (t := S2000x4) (α := EReal) 1 [⟨S2000x1, v0⟩, ⟨S2000x1, v1⟩, ⟨S2000x1, v2⟩, ⟨S2000x1, v3⟩] hcat (ix2 p ⟨1, hh⟩) 1 (by show (1 : ℕ) < 4; omega) S2000x1 v1 rfl rfl 1 rfl (ix2 p (0 : Fin 1)) (fun b hb => ?_) rfl).trans (h1 rfl)
    match b with
    | ⟨0, _⟩ => rfl
    | ⟨1, _⟩ => exact absurd rfl hb
  | ⟨2, hh⟩ =>
    refine (concatenate_apply_piece (t := S2000x4) (α := EReal) 1 [⟨S2000x1, v0⟩, ⟨S2000x1, v1⟩, ⟨S2000x1, v2⟩, ⟨S2000x1, v3⟩] hcat (ix2 p ⟨2, hh⟩) 2 (by show (2 : ℕ) < 4; omega) S2000x1 v2 rfl rfl 2 rfl (ix2 p (0 : Fin 1)) (fun b hb => ?_) rfl).trans (h2 rfl)
    match b with
    | ⟨0, _⟩ => rfl
    | ⟨1, _⟩ => exact absurd rfl hb
  | ⟨3, hh⟩ =>
    refine (concatenate_apply_piece (t := S2000x4) (α := EReal) 1 [⟨S2000x1, v0⟩, ⟨S2000x1, v1⟩, ⟨S2000x1, v2⟩, ⟨S2000x1, v3⟩] hcat (ix2 p ⟨3, hh⟩) 3 (by show (3 : ℕ) < 4; omega) S2000x1 v3 rfl rfl 3 rfl (ix2 p (0 : Fin 1)) (fun b hb => ?_) rfl).trans (h3 rfl)
    match b with
    | ⟨0, _⟩ => rfl
    | ⟨1, _⟩ => exact absurd rfl hb

/-- The column of channel `q` of head `h` when `h` is the literal `k`. -/
theorem col_of_val (h : Fin 4) (k : ℕ) (hk : h.val = k) (q : Fin 64) : (Cert.Spec.col h q).val = 64 * k + q.val := by
  rw [Cert.Spec.col_val, hk]

/-- The first scores block at `(p, h)`: the sum over head `h`'s 64 columns of the activated products. -/
theorem pay1_apply (x0 : Vec Ideal S2000x256 .f32) (x1 : Vec Ideal S256x256 .f32) (x2 : Vec Ideal S256 .f32) (x3 : Vec Ideal S256 .f32)
    (p : Fin 2000) (h : Fin 4) :
    k2_pay1 (k2_pay4 x0 x1 x2 x3) (k2_pay6 x0 x1 x2 x3) (k2_pay7 x0 x1 x2 x3) (k2_pay8 x0 x1 x2 x3) (ix2 p h)
      = ∑ q : Fin 64, k2_pay4 x0 x1 x2 x3 (ix2 p (Cert.Spec.col h q)) := by
  unfold k2_pay1 k2_pay6 k2_pay7 k2_pay8
  refine concat4_apply _ _ _ _ _ p h _ (fun hk => ?_) (fun hk => ?_) (fun hk => ?_) (fun hk => ?_)
  · exact band_sum_apply _ 0 _ _ _ _ _ p 0 (Cert.Spec.col h) fun q => by rw [col_of_val h 0 hk q]
  · exact band_sum_apply _ 64 _ _ _ _ _ p 0 (Cert.Spec.col h) fun q => by rw [col_of_val h 1 hk q]
  · exact band_sum_apply _ 128 _ _ _ _ _ p 0 (Cert.Spec.col h) fun q => by rw [col_of_val h 2 hk q]
  · exact band_sum_apply _ 192 _ _ _ _ _ p 0 (Cert.Spec.col h) fun q => by rw [col_of_val h 3 hk q]

/-- The second scores block at `(p, h)`, from the activated products with the other attention vector. -/
theorem pay2_apply (u : FVec Ideal S2000x256 .f32) (p : Fin 2000) (h : Fin 4) :
    k2_pay2 u (ix2 p h) = ∑ q : Fin 64, u (ix2 p (Cert.Spec.col h q)) := by
  unfold k2_pay2
  refine concat4_apply _ _ _ _ _ p h _ (fun hk => ?_) (fun hk => ?_) (fun hk => ?_) (fun hk => ?_)
  · exact band_sum_apply _ 0 _ _ _ _ _ p 0 (Cert.Spec.col h) fun q => by rw [col_of_val h 0 hk q]
  · exact band_sum_apply _ 64 _ _ _ _ _ p 0 (Cert.Spec.col h) fun q => by rw [col_of_val h 1 hk q]
  · exact band_sum_apply _ 128 _ _ _ _ _ p 0 (Cert.Spec.col h) fun q => by rw [col_of_val h 2 hk q]
  · exact band_sum_apply _ 192 _ _ _ _ _ p 0 (Cert.Spec.col h) fun q => by rw [col_of_val h 3 hk q]

/-! ## From the blocks to the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The windows index maps, decided over the 25 grid points: the row-blocked windows sit at block `t` of the rows and
    block 0 of the columns; the small operands at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- Row `p` of block `t` of `x` is row `2000 t + p` of `x`. -/
theorem blk0_apply (c : Dev nD) (t : Fin cfg2.N) (p : Fin 2000) (k : Fin 256) (P : Fin 50000) (hP : P.val = 2000 * t.val + p.val) :
    (iblk2 V c 0 t : Vec Ideal S2000x256 .f32) (ix2 p k) = V c main_v53 (ix2 P k) := by
  obtain ⟨e0, e1, -⟩ := idx_facts t
  show V c main_v53 (((cfg2.win 0).blk t).view.emb (ix2 p k)) = V c main_v53 (ix2 P k)
  refine congrArg (V c main_v53) (funext fun a => Fin.ext ?_)
  match a with
  | ⟨0, _⟩ => show win2_0.index t (0 : Fin 2) * 2000 + 1 * p.val = P.val; rw [e0, hP]; omega
  | ⟨1, _⟩ => show win2_0.index t (1 : Fin 2) * 256 + 1 * k.val = k.val; rw [e1]; omega

/-- The weights' one block is the whole array. -/
theorem blk1_eq (c : Dev nD) (t : Fin cfg2.N) : (iblk2 V c 1 t : Vec Ideal S256x256 .f32) = V c main_v5 := by
  obtain ⟨-, -, e2, e3, -⟩ := idx_facts t
  funext j
  show V c main_v5 (((cfg2.win 1).blk t).view.emb j) = V c main_v5 j
  refine congrArg (V c main_v5) (funext fun a => Fin.ext ?_)
  match a with
  | ⟨0, _⟩ => show win2_1.index t (0 : Fin 2) * 256 + 1 * (j 0).val = (j 0).val; rw [e2]; omega
  | ⟨1, _⟩ => show win2_1.index t (1 : Fin 2) * 256 + 1 * (j 1).val = (j 1).val; rw [e3]; omega

/-- The bias's one block is the whole vector. -/
theorem blk2_eq (c : Dev nD) (t : Fin cfg2.N) : (iblk2 V c 2 t : Vec Ideal S256 .f32) = V c main_arg5 := by
  obtain ⟨-, -, -, -, e4, -⟩ := idx_facts t
  funext j
  show V c main_arg5 (((cfg2.win 2).blk t).view.emb j) = V c main_arg5 j
  refine congrArg (V c main_arg5) (funext fun a => Fin.ext ?_)
  match a with
  | ⟨0, _⟩ => show win2_2.index t (0 : Fin 1) * 256 + 1 * (j 0).val = (j 0).val; rw [e4]; omega

/-- The first attention vector's one block is the whole vector. -/
theorem blk3_eq (c : Dev nD) (t : Fin cfg2.N) : (iblk2 V c 3 t : Vec Ideal S256 .f32) = V c main_v14 := by
  obtain ⟨-, -, -, -, -, e5, -⟩ := idx_facts t
  funext j
  show V c main_v14 (((cfg2.win 3).blk t).view.emb j) = V c main_v14 j
  refine congrArg (V c main_v14) (funext fun a => Fin.ext ?_)
  match a with
  | ⟨0, _⟩ => show win2_3.index t (0 : Fin 1) * 256 + 1 * (j 0).val = (j 0).val; rw [e5]; omega

/-- The second attention vector's one block is the whole vector. -/
theorem blk4_eq (c : Dev nD) (t : Fin cfg2.N) : (iblk2 V c 4 t : Vec Ideal S256 .f32) = V c main_v17 := by
  obtain ⟨-, -, -, -, -, -, e6, -⟩ := idx_facts t
  funext j
  show V c main_v17 (((cfg2.win 4).blk t).view.emb j) = V c main_v17 j
  refine congrArg (V c main_v17) (funext fun a => Fin.ext ?_)
  match a with
  | ⟨0, _⟩ => show win2_4.index t (0 : Fin 1) * 256 + 1 * (j 0).val = (j 0).val; rw [e6]; omega

/-- The dense layer's block from a block of rows of `x` is the block of rows of the dense layer of `x`: entry
    `(p, c)` uses row `p` of the block only. -/
theorem pay3_lin (x0 : Vec Ideal S2000x256 .f32) (x1 : Vec Ideal S256x256 .f32) (x2 : Vec Ideal S256 .f32)
    (X : S50000x256.Idx → EReal) (W : S256x256.Idx → EReal) (B : S256.Idx → EReal)
    (p : Fin 2000) (P : Fin 50000) (h0 : ∀ k : Fin 256, x0 (ix2 p k) = X (ix2 P k)) (h1 : x1 = W) (h2 : x2 = B) (c : Fin 256) :
    k2_pay3 x0 x1 x2 (ix2 p c) = Cert.Spec.lin (K := 256) X W B (ix2 P c) := by
  subst h1 h2
  rw [pay3_apply]
  show _ = (∑ k : Fin 256, X (ix2 P k) * x1 (ix2 k c)) + x2 (ix1 c)
  exact congrArg (· + x2 (ix1 c)) (Finset.sum_congr rfl fun k _ => by rw [h0 k])

/-- The dense layer of the arrays as the region finds them. -/
abbrev H (c : Dev nD) : S50000x256.Idx → EReal :=
  Cert.Spec.lin (K := 256) (V c main_v53) (V c main_v5) (V c main_arg5)

theorem block_lin (c : Dev nD) (t : Fin cfg2.N) (p : Fin 2000) (q : Fin 256) (P : Fin 50000) (hP : P.val = 2000 * t.val + p.val) :
    k2_pay3 (iblk2 V c 0 t) (iblk2 V c 1 t) (iblk2 V c 2 t) (ix2 p q) = H V c (ix2 P q) :=
  pay3_lin _ _ _ _ _ _ p P (fun k => blk0_apply V c t p k P hP) (blk1_eq V c t) (blk2_eq V c t) q

/-- The row of the array under row `p` of block `t`. -/
theorem row_lt (t : Fin cfg2.N) (p : Fin 2000) : 2000 * t.val + p.val < 50000 := by
  have ht : t.val < grid2.N := t.isLt
  rw [N_2] at ht
  omega

theorem emb5 (t : Fin cfg2.N) (y : S2000x256.Idx) :
    ((cfg2.win 5).blk t).view.emb y = ix2 (⟨2000 * t.val + (y 0).val, row_lt t (y 0)⟩ : Fin 50000) (y 1) := by
  obtain ⟨-, -, -, -, -, -, -, e0, e1, -⟩ := idx_facts t
  refine funext fun a => Fin.ext ?_
  match a with
  | ⟨0, _⟩ => show win2_5.index t (0 : Fin 2) * 2000 + 1 * (y 0).val = 2000 * t.val + (y 0).val; rw [e0]; omega
  | ⟨1, _⟩ => show win2_5.index t (1 : Fin 2) * 256 + 1 * (y 1).val = (y 1).val; rw [e1]; omega

/-- WHAT POINT `t` WRITES BACK to the dense layer's array is block `t` of the dense layer of the arrays. -/
theorem flushed5_eq (c : Dev nD) (t : Fin cfg2.N) :
    (dat2 V c).flushed 5 t = ((cfg2.win 5).blk t).view.read (Elt Ideal) (H V c : Buf (Elt Ideal) ((c : Thread nD τ).loc main_v54_0)) := by
  show (cfg2.win 5).cut (grid2.coords t) ((dat2 V c).after 5 t) = _
  rw [after2_5]
  unfold out2_5
  rw [View.canon_unit_zero (S := S2000x256) hz2]
  simp only [View.ld_unit_zero (S := S2000x256) hz2, View.ld_unit_zero (S := S256x256) hz2, View.ld_unit_zero (S := S256) hz1]
  funext y
  show k2_pay3 (iblk2 V c 0 t) (iblk2 V c 1 t) (iblk2 V c 2 t) y = H V c (((cfg2.win 5).blk t).view.emb y)
  exact (congrArg _ (eq_ix2 y)).trans ((block_lin V c t (y 0) (y 1) _ rfl).trans (congrArg (H V c) (emb5 t y).symm))

/-- An index of the array is in point `t`'s block iff each coordinate is in the block's range on its axis. -/
theorem mem_blk5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v54_0).slice (win2_5.rect t)).set ↔ _
  rw [View.set_slice_whole, Rect.mem_set_unit]
  exact Iff.rfl

/-- The point whose block holds row `r`: `r / 2000`. -/
def ptOf (r : ℕ) (hr : r < 50000) : Fin cfg2.N := ⟨r / 2000, by show r / 2000 < grid2.N; rw [N_2]; omega⟩

theorem cover5 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  obtain ⟨-, -, -, -, -, -, -, e0, e1, -⟩ := idx_facts (ptOf (i 0).val hi0)
  refine ⟨ptOf (i 0).val hi0, flush2_5 _, ?_⟩
  rw [mem_blk5]
  intro a
  match a with
  | ⟨0, _⟩ =>
    show win2_5.index (ptOf (i 0).val hi0) (0 : Fin 2) * 2000 ≤ (i 0).val ∧ (i 0).val < win2_5.index (ptOf (i 0).val hi0) (0 : Fin 2) * 2000 + 2000
    rw [e0]; show (i 0).val / 2000 * 2000 ≤ (i 0).val ∧ (i 0).val < (i 0).val / 2000 * 2000 + 2000; omega
  | ⟨1, _⟩ =>
    show win2_5.index (ptOf (i 0).val hi0) (1 : Fin 2) * 256 ≤ (i 1).val ∧ (i 1).val < win2_5.index (ptOf (i 0).val hi0) (1 : Fin 2) * 256 + 256
    rw [e1]; omega

/-- THE DENSE LAYER'S ARRAY after the region: the dense layer of the arrays as the region finds them. -/
theorem final2_5 (c : Dev nD) : (Gen.dat2 V c).arrAt 5 cfg2.N = Cert.Spec.lin (K := 256) (V c main_v53) (V c main_v5) (V c main_arg5) :=
  (dat2 V c).arrAt_eq_of_cover 5 (H V c) (fun t _ => flushed5_eq V c t) cover5

/-! ## The two scores arrays -/

/-- The sum over a head's columns of the activated products of a block of rows is the score of the whole arrays at
    the row under it, when the dense layer's block is the block of rows of the array `A`. -/
theorem pay4_score (x0 : Vec Ideal S2000x256 .f32) (x1 : Vec Ideal S256x256 .f32) (x2 : Vec Ideal S256 .f32) (x3 : Vec Ideal S256 .f32)
    (A : S50000x256.Idx → EReal) (att : S256.Idx → EReal) (p : Fin 2000) (P : Fin 50000)
    (hA : ∀ c : Fin 256, k2_pay3 x0 x1 x2 (ix2 p c) = A (ix2 P c)) (h3 : x3 = att) (h : Fin 4) :
    (∑ q : Fin 64, k2_pay4 x0 x1 x2 x3 (ix2 p (Cert.Spec.col h q))) = Cert.Spec.score A att (ix2 P h) := by
  subst h3
  show _ = ∑ q : Fin 64, Cert.Spec.lrelu (A (ix2 P (Cert.Spec.col h q)) * x3 (ix1 (Cert.Spec.col h q)))
  exact Finset.sum_congr rfl fun q _ => by rw [pay4_apply, hA]

theorem pay5_score (x0 : Vec Ideal S2000x256 .f32) (x1 : Vec Ideal S256x256 .f32) (x2 : Vec Ideal S256 .f32) (x4 : Vec Ideal S256 .f32)
    (A : S50000x256.Idx → EReal) (att : S256.Idx → EReal) (p : Fin 2000) (P : Fin 50000)
    (hA : ∀ c : Fin 256, k2_pay3 x0 x1 x2 (ix2 p c) = A (ix2 P c)) (h4 : x4 = att) (h : Fin 4) :
    (∑ q : Fin 64, k2_pay5 x0 x1 x2 x4 (ix2 p (Cert.Spec.col h q))) = Cert.Spec.score A att (ix2 P h) := by
  subst h4
  show _ = ∑ q : Fin 64, Cert.Spec.lrelu (A (ix2 P (Cert.Spec.col h q)) * x4 (ix1 (Cert.Spec.col h q)))
  exact Finset.sum_congr rfl fun q _ => by rw [pay5_apply, hA]

theorem block_score6 (c : Dev nD) (t : Fin cfg2.N) (p : Fin 2000) (h : Fin 4) (P : Fin 50000) (hP : P.val = 2000 * t.val + p.val) :
    k2_pay1 (k2_pay4 (iblk2 V c 0 t) (iblk2 V c 1 t) (iblk2 V c 2 t) (iblk2 V c 3 t)) (k2_pay6 (iblk2 V c 0 t) (iblk2 V c 1 t) (iblk2 V c 2 t) (iblk2 V c 3 t))
        (k2_pay7 (iblk2 V c 0 t) (iblk2 V c 1 t) (iblk2 V c 2 t) (iblk2 V c 3 t)) (k2_pay8 (iblk2 V c 0 t) (iblk2 V c 1 t) (iblk2 V c 2 t) (iblk2 V c 3 t)) (ix2 p h)
      = Cert.Spec.score (H V c) (V c main_v14) (ix2 P h) :=
  (pay1_apply _ _ _ _ p h).trans
    (pay4_score _ _ _ _ (H V c) (V c main_v14) p P (fun c' => block_lin V c t p c' P hP) (blk3_eq V c t) h)

theorem block_score7 (c : Dev nD) (t : Fin cfg2.N) (p : Fin 2000) (h : Fin 4) (P : Fin 50000) (hP : P.val = 2000 * t.val + p.val) :
    k2_pay2 (k2_pay5 (iblk2 V c 0 t) (iblk2 V c 1 t) (iblk2 V c 2 t) (iblk2 V c 4 t)) (ix2 p h)
      = Cert.Spec.score (H V c) (V c main_v17) (ix2 P h) :=
  (pay2_apply _ p h).trans
    (pay5_score _ _ _ _ (H V c) (V c main_v17) p P (fun c' => block_lin V c t p c' P hP) (blk4_eq V c t) h)

theorem emb6 (t : Fin cfg2.N) (y : S2000x4.Idx) :
    ((cfg2.win 6).blk t).view.emb y = ix2 (⟨2000 * t.val + (y 0).val, row_lt t (y 0)⟩ : Fin 50000) (y 1) := by
  obtain ⟨-, -, -, -, -, -, -, -, -, e0, e1, -⟩ := idx_facts t
  refine funext fun a => Fin.ext ?_
  match a with
  | ⟨0, _⟩ => show win2_6.index t (0 : Fin 2) * 2000 + 1 * (y 0).val = 2000 * t.val + (y 0).val; rw [e0]; omega
  | ⟨1, _⟩ => show win2_6.index t (1 : Fin 2) * 4 + 1 * (y 1).val = (y 1).val; rw [e1]; omega

theorem emb7 (t : Fin cfg2.N) (y : S2000x4.Idx) :
    ((cfg2.win 7).blk t).view.emb y = ix2 (⟨2000 * t.val + (y 0).val, row_lt t (y 0)⟩ : Fin 50000) (y 1) := by
  obtain ⟨-, -, -, -, -, -, -, -, -, -, -, e0, e1⟩ := idx_facts t
  refine funext fun a => Fin.ext ?_
  match a with
  | ⟨0, _⟩ => show win2_7.index t (0 : Fin 2) * 2000 + 1 * (y 0).val = 2000 * t.val + (y 0).val; rw [e0]; omega
  | ⟨1, _⟩ => show win2_7.index t (1 : Fin 2) * 4 + 1 * (y 1).val = (y 1).val; rw [e1]; omega

/-- WHAT POINT `t` WRITES BACK to the first scores array is block `t` of the scores of the arrays. -/
theorem flushed6_eq (c : Dev nD) (t : Fin cfg2.N) :
    (dat2 V c).flushed 6 t = ((cfg2.win 6).blk t).view.read (Elt Ideal)
      (Cert.Spec.score (H V c) (V c main_v14) : Buf (Elt Ideal) ((c : Thread nD τ).loc main_v54_1)) := by
  show (cfg2.win 6).cut (grid2.coords t) ((dat2 V c).after 6 t) = _
  rw [after2_6]
  unfold out2_6
  rw [View.canon_unit_zero (S := S2000x4) hz2]
  simp only [View.ld_unit_zero (S := S2000x256) hz2, View.ld_unit_zero (S := S256x256) hz2, View.ld_unit_zero (S := S256) hz1]
  funext y
  exact (congrArg _ (eq_ix2 y)).trans ((block_score6 V c t (y 0) (y 1) _ rfl).trans
    (congrArg (Cert.Spec.score (H V c) (V c main_v14)) (emb6 t y).symm))

/-- WHAT POINT `t` WRITES BACK to the second scores array likewise. -/
theorem flushed7_eq (c : Dev nD) (t : Fin cfg2.N) :
    (dat2 V c).flushed 7 t = ((cfg2.win 7).blk t).view.read (Elt Ideal)
      (Cert.Spec.score (H V c) (V c main_v17) : Buf (Elt Ideal) ((c : Thread nD τ).loc main_v54_2)) := by
  show (cfg2.win 7).cut (grid2.coords t) ((dat2 V c).after 7 t) = _
  rw [after2_7]
  unfold out2_7
  rw [View.canon_unit_zero (S := S2000x4) hz2]
  simp only [View.ld_unit_zero (S := S2000x256) hz2, View.ld_unit_zero (S := S256x256) hz2, View.ld_unit_zero (S := S256) hz1]
  funext y
  exact (congrArg _ (eq_ix2 y)).trans ((block_score7 V c t (y 0) (y 1) _ rfl).trans
    (congrArg (Cert.Spec.score (H V c) (V c main_v17)) (emb7 t y).symm))

theorem mem_blk6 (t : Fin cfg2.N) (i : S50000x4.Idx) :
    i ∈ ((cfg2.win 6).blk t).view.set ↔ ∀ a : Fin 2, win2_6.index t a * S2000x4.size a ≤ (i a).val ∧ (i a).val < win2_6.index t a * S2000x4.size a + S2000x4.size a := by
  show i ∈ ((View.whole main_v54_1).slice (win2_6.rect t)).set ↔ _
  rw [View.set_slice_whole, Rect.mem_set_unit]
  exact Iff.rfl

theorem mem_blk7 (t : Fin cfg2.N) (i : S50000x4.Idx) :
    i ∈ ((cfg2.win 7).blk t).view.set ↔ ∀ a : Fin 2, win2_7.index t a * S2000x4.size a ≤ (i a).val ∧ (i a).val < win2_7.index t a * S2000x4.size a + S2000x4.size a := by
  show i ∈ ((View.whole main_v54_2).slice (win2_7.rect t)).set ↔ _
  rw [View.set_slice_whole, Rect.mem_set_unit]
  exact Iff.rfl

theorem cover6 (i : S50000x4.Idx) : ∃ t : Fin cfg2.N, (cfg2.win 6).flush t = true ∧ i ∈ ((cfg2.win 6).blk t).view.set := by
  have hi0 : (i 0).val < 50000 := (i 0).isLt
  have hi1 : (i 1).val < 4 := (i 1).isLt
  obtain ⟨-, -, -, -, -, -, -, -, -, e0, e1, -⟩ := idx_facts (ptOf (i 0).val hi0)
  refine ⟨ptOf (i 0).val hi0, flush2_6 _, ?_⟩
  rw [mem_blk6]
  intro a
  match a with
  | ⟨0, _⟩ =>
    show win2_6.index (ptOf (i 0).val hi0) (0 : Fin 2) * 2000 ≤ (i 0).val ∧ (i 0).val < win2_6.index (ptOf (i 0).val hi0) (0 : Fin 2) * 2000 + 2000
    rw [e0]; show (i 0).val / 2000 * 2000 ≤ (i 0).val ∧ (i 0).val < (i 0).val / 2000 * 2000 + 2000; omega
  | ⟨1, _⟩ =>
    show win2_6.index (ptOf (i 0).val hi0) (1 : Fin 2) * 4 ≤ (i 1).val ∧ (i 1).val < win2_6.index (ptOf (i 0).val hi0) (1 : Fin 2) * 4 + 4
    rw [e1]; omega

theorem cover7 (i : S50000x4.Idx) : ∃ t : Fin cfg2.N, (cfg2.win 7).flush t = true ∧ i ∈ ((cfg2.win 7).blk t).view.set := by
  have hi0 : (i 0).val < 50000 := (i 0).isLt
  have hi1 : (i 1).val < 4 := (i 1).isLt
  obtain ⟨-, -, -, -, -, -, -, -, -, -, -, e0, e1⟩ := idx_facts (ptOf (i 0).val hi0)
  refine ⟨ptOf (i 0).val hi0, flush2_7 _, ?_⟩
  rw [mem_blk7]
  intro a
  match a with
  | ⟨0, _⟩ =>
    show win2_7.index (ptOf (i 0).val hi0) (0 : Fin 2) * 2000 ≤ (i 0).val ∧ (i 0).val < win2_7.index (ptOf (i 0).val hi0) (0 : Fin 2) * 2000 + 2000
    rw [e0]; show (i 0).val / 2000 * 2000 ≤ (i 0).val ∧ (i 0).val < (i 0).val / 2000 * 2000 + 2000; omega
  | ⟨1, _⟩ =>
    show win2_7.index (ptOf (i 0).val hi0) (1 : Fin 2) * 4 ≤ (i 1).val ∧ (i 1).val < win2_7.index (ptOf (i 0).val hi0) (1 : Fin 2) * 4 + 4
    rw [e1]; omega

/-- THE FIRST SCORES ARRAY after the region: the scores of the dense layer of the arrays against the first attention vector. -/
theorem final2_6 (c : Dev nD) : (Gen.dat2 V c).arrAt 6 cfg2.N
    = Cert.Spec.score (Cert.Spec.lin (K := 256) (V c main_v53) (V c main_v5) (V c main_arg5)) (V c main_v14) :=
  (dat2 V c).arrAt_eq_of_cover 6 (Cert.Spec.score (H V c) (V c main_v14)) (fun t _ => flushed6_eq V c t) cover6

/-- THE SECOND SCORES ARRAY after the region: the same against the second attention vector. -/
theorem final2_7 (c : Dev nD) : (Gen.dat2 V c).arrAt 7 cfg2.N
    = Cert.Spec.score (Cert.Spec.lin (K := 256) (V c main_v53) (V c main_v5) (V c main_arg5)) (V c main_v17) :=
  (dat2 V c).arrAt_eq_of_cover 7 (Cert.Spec.score (H V c) (V c main_v17)) (fun t _ => flushed7_eq V c t) cover7

end Cert.KernelIdeal.Region2

end
-- ==== Proof.Region3.lean ====
/-
  The last region of the kernel program, as one function of the arrays it finds.

  The region reads two arrays: `num` ([50000, 256]: per node, 4 heads of 64 channels laid side by side) and `den`
  ([50000, 4]: per node and head). Its body, on a block of 2000 rows, lays the denominators over the columns (column
  `c` gets `den (r, c / 64)`), divides, adds the four 64-column bands from the left and multiplies by 0.25. Read index by
  index that is `Spec.headK (Spec.agg num den)` restricted to the block's rows; the 25 blocks tile the 50000 rows, so the
  output array after the region is `Spec.headK (Spec.agg num den)`, whole (`final3_2`).
  No arithmetic law is used: every extended-real operation appears in the Spec in the body's own order; the proof is
  re-indexing only.
-/
import proofs.«129437_j77214922047879_1_alg».proof.Proof.Gen.KernelIdeal.Frame
import proofs.«129437_j77214922047879_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.ValueIdx Idealize.SL.Sem
open Idealize.ShloMosaic.Pipeline (Dat)
open Idealize.ShloMosaic.TcCoe

/-! ## The layout operations of the body, read at an index -/

/-- Column `k` of a [2000,4] block, kept as a [2000,1] column and broadcast over 64 columns, reads at `(r, q)` the
    block at `(r, k)`. -/
theorem colBroadcast_apply (x1 : S2000x4.Idx → EReal) (o : Nat) (hs : S2000x4.Slices ![0, o] S2000x1) (k : Fin 4)
    (hk : k.val = o + 0) (r : Fin 2000) (q : Fin 64) :
    broadcastTo S2000x64 (shapeCast S2000x1 (extractStridedSlice S2000x1 ![0, o]
      (shapeCast S2000x4 x1 shapeCasts_S2000x4_S2000x4) hs) shapeCasts_S2000x1_S2000x1) broadcasts_S2000x1_S2000x64 (ix2 r q)
      = x1 (ix2 r k) := by
  refine (broadcastTo_apply _ _ (ix2 r q) (ix2 r (0 : Fin 1)) fun a => ?_).trans ?_
  · match a with
    | ⟨0, _⟩ => rfl
    | ⟨1, _⟩ => rfl
  rw [shapeCast_self]
  refine (slice2_axis1_apply o _ hs r (0 : Fin 1) k hk).trans ?_
  rw [shapeCast_self]

/-- Four [2000,64] bands laid side by side read, at column `64 k + q`, band `k` at column `q`. -/
theorem concat4_apply (y0 y1 y2 y3 : S2000x64.Idx → EReal) (r : Fin 2000) (c : Fin 256) (k : Nat) (hk : k < 4)
    (y : S2000x64.Idx → EReal)
    (hy : ([⟨S2000x64, y0⟩, ⟨S2000x64, y1⟩, ⟨S2000x64, y2⟩, ⟨S2000x64, y3⟩] : List ((s : Shape) × (s.Idx → EReal)))[k]'hk
      = ⟨S2000x64, y⟩)
    (q : Fin 64) (hc : c.val = 64 * k + q.val) :
    concatenate S2000x256 1 [⟨S2000x64, y0⟩, ⟨S2000x64, y1⟩, ⟨S2000x64, y2⟩, ⟨S2000x64, y3⟩]
      concatenates_S2000x64_S2000x64_S2000x64_S2000x64_S2000x256_d1 (ix2 r c) = y (ix2 r q) := by
  refine concatenate_apply_piece (t := S2000x256) (1 : Fin 2)
    ([⟨S2000x64, y0⟩, ⟨S2000x64, y1⟩, ⟨S2000x64, y2⟩, ⟨S2000x64, y3⟩] : List ((s : Shape) × (s.Idx → EReal)))
    concatenates_S2000x64_S2000x64_S2000x64_S2000x64_S2000x256_d1 (ix2 r c) k hk S2000x64 y hy rfl (64 * k) ?_ (ix2 r q)
    (fun b hb => ?_) ?_
  · interval_cases k <;> rfl
  · match b with
    | ⟨0, _⟩ => rfl
    | ⟨1, _⟩ => exact absurd rfl hb
  · show 64 * k + q.val = c.val
    omega

/-! ## The body's payload at an index -/

/-- What the body stores at `(r, q)`: the four bands of `num / den` (the denominators laid over the heads' columns)
    added from the left, times 0.25. -/
theorem pay_apply (x0 : Vec Ideal S2000x256 .f32) (x1 : Vec Ideal S2000x4 .f32) (r : Fin 2000) (q : Fin 64) :
    k3_pay1 x0 x1 (ix2 r q)
      = (((Ideal.div (x0 (ix2 r (Spec.col 0 q))) (x1 (ix2 r (0 : Fin 4)))
            + Ideal.div (x0 (ix2 r (Spec.col 1 q))) (x1 (ix2 r (1 : Fin 4))))
          + Ideal.div (x0 (ix2 r (Spec.col 2 q))) (x1 (ix2 r (2 : Fin 4))))
        + Ideal.div (x0 (ix2 r (Spec.col 3 q))) (x1 (ix2 r (3 : Fin 4)))) * Spec.quarterW := by
  unfold k3_pay1
  refine congrArg₂ (· * ·) (congrArg₂ (· + ·) (congrArg₂ (· + ·) (congrArg₂ (· + ·) ?_ ?_) ?_) ?_) rfl
  · refine (slice2_axis1_apply 0 _ _ r q (Spec.col 0 q) (by rw [Spec.col_val]; simp)).trans ?_
    refine congrArg₂ Ideal.div (congrFun (shapeCast_self _ _) _) ?_
    refine (concat4_apply _ _ _ _ r (Spec.col 0 q) 0 (by omega) _ rfl q (by rw [Spec.col_val]; rfl)).trans ?_
    exact colBroadcast_apply x1 0 _ 0 rfl r q
  · refine (slice2_axis1_apply 64 _ _ r q (Spec.col 1 q) (by rw [Spec.col_val]; rfl)).trans ?_
    refine congrArg₂ Ideal.div (congrFun (shapeCast_self _ _) _) ?_
    refine (concat4_apply _ _ _ _ r (Spec.col 1 q) 1 (by omega) _ rfl q (by rw [Spec.col_val]; rfl)).trans ?_
    exact colBroadcast_apply x1 1 _ 1 rfl r q
  · refine (slice2_axis1_apply 128 _ _ r q (Spec.col 2 q) (by rw [Spec.col_val]; rfl)).trans ?_
    refine congrArg₂ Ideal.div (congrFun (shapeCast_self _ _) _) ?_
    refine (concat4_apply _ _ _ _ r (Spec.col 2 q) 2 (by omega) _ rfl q (by rw [Spec.col_val]; rfl)).trans ?_
    exact colBroadcast_apply x1 2 _ 2 rfl r q
  · refine (slice2_axis1_apply 192 _ _ r q (Spec.col 3 q) (by rw [Spec.col_val]; rfl)).trans ?_
    refine congrArg₂ Ideal.div (congrFun (shapeCast_self _ _) _) ?_
    refine (concat4_apply _ _ _ _ r (Spec.col 3 q) 3 (by omega) _ rfl q (by rw [Spec.col_val]; rfl)).trans ?_
    exact colBroadcast_apply x1 3 _ 3 rfl r q

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block of grid point `t` is rows `2000 t … 2000 t + 1999` of each window's array, all its columns. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- A block of the two inputs that holds rows `2000 b + r` of `num` and `den` is sent by the body to the same rows of
    the mean over the heads of `num / den`. -/
theorem block_eq (num : Spec.SNC.Idx → EReal) (den : Spec.SNH.Idx → EReal)
    (x0 : Vec Ideal S2000x256 .f32) (x1 : Vec Ideal S2000x4 .f32) (R : Fin 2000 → Fin 50000)
    (h0 : ∀ (r : Fin 2000) (c : Fin 256), x0 (ix2 r c) = num (ix2 (R r) c))
    (h1 : ∀ (r : Fin 2000) (h : Fin 4), x1 (ix2 r h) = den (ix2 (R r) h))
    (r : Fin 2000) (q : Fin 64) :
    k3_pay1 x0 x1 (ix2 r q) = Spec.headK (Spec.agg num den) (ix2 (R r) q) := by
  rw [pay_apply]
  simp only [h0, h1]
  show _ = (((Ideal.div (num (ix2 (R r) (Spec.col 0 q))) (den (ix2 (R r) (Spec.headOf (Spec.col 0 q))))
            + Ideal.div (num (ix2 (R r) (Spec.col 1 q))) (den (ix2 (R r) (Spec.headOf (Spec.col 1 q)))))
          + Ideal.div (num (ix2 (R r) (Spec.col 2 q))) (den (ix2 (R r) (Spec.headOf (Spec.col 2 q)))))
        + Ideal.div (num (ix2 (R r) (Spec.col 3 q))) (den (ix2 (R r) (Spec.headOf (Spec.col 3 q))))) * Spec.quarterW
  simp only [Spec.headOf_col]

/-- The same at an index not yet split into its coordinates. -/
theorem block_eq' (num : Spec.SNC.Idx → EReal) (den : Spec.SNH.Idx → EReal)
    (x0 : Vec Ideal S2000x256 .f32) (x1 : Vec Ideal S2000x4 .f32) (R : Fin 2000 → Fin 50000)
    (h0 : ∀ (r : Fin 2000) (c : Fin 256), x0 (ix2 r c) = num (ix2 (R r) c))
    (h1 : ∀ (r : Fin 2000) (h : Fin 4), x1 (ix2 r h) = den (ix2 (R r) h))
    (y : S2000x64.Idx) :
    k3_pay1 x0 x1 y = Spec.headK (Spec.agg num den) (ix2 (R (y 0)) (y 1)) :=
  (congrArg (k3_pay1 x0 x1) (eq_ix2 y)).trans (block_eq num den x0 x1 R h0 h1 (y 0) (y 1))

/-- The whole-array function the region computes. -/
abbrev G (c : Dev nD) : Buf (Elt Ideal) ((c : Thread nD τ).loc main_v89) :=
  Spec.headK (Spec.agg (V c main_v85) (V c main_v88))

/-- Row `r` of the block of grid point `t` is row `2000 t + r` of the array. -/
def rowOf (t : Fin cfg3.N) (r : Fin 2000) : Fin 50000 :=
  ⟨2000 * t.val + r.val, by have ht : t.val < 25 := lt_of_lt_of_eq t.isLt N_3; have := r.isLt; omega⟩

/-- WHAT POINT `t` WRITES BACK is block `t` of `G`. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S2000x256) hz, View.ld_unit_zero (S := S2000x4) hz]
  obtain ⟨e0, e1, e2, e3, e4, e5⟩ := idx_facts t
  refine funext fun (y : S2000x64.Idx) => ?_
  show k3_pay1 (iblk3 V c 0 t) (iblk3 V c 1 t) y = G V c (((cfg3.win 2).blk t).view.emb y)
  refine (block_eq' (V c main_v85) (V c main_v88) (iblk3 V c 0 t) (iblk3 V c 1 t) (rowOf t) (fun r k => ?_) (fun r k => ?_) y).trans ?_
  · show V c main_v85 (((cfg3.win 0).blk t).view.emb (ix2 r k)) = V c main_v85 (ix2 (rowOf t r) k)
    have e : ((cfg3.win 0).blk t).view.emb (ix2 r k) = ix2 (rowOf t r) k := by
      funext a; apply Fin.ext
      match a with
      | ⟨0, _⟩ => show win3_0.index t (0 : Fin 2) * 2000 + 1 * r.val = 2000 * t.val + r.val; omega
      | ⟨1, _⟩ => show win3_0.index t (1 : Fin 2) * 256 + 1 * k.val = k.val; omega
    rw [e]
  · show V c main_v88 (((cfg3.win 1).blk t).view.emb (ix2 r k)) = V c main_v88 (ix2 (rowOf t r) k)
    have e : ((cfg3.win 1).blk t).view.emb (ix2 r k) = ix2 (rowOf t r) k := by
      funext a; apply Fin.ext
      match a with
      | ⟨0, _⟩ => show win3_1.index t (0 : Fin 2) * 2000 + 1 * r.val = 2000 * t.val + r.val; omega
      | ⟨1, _⟩ => show win3_1.index t (1 : Fin 2) * 4 + 1 * k.val = k.val; omega
    rw [e]
  · have e : ((cfg3.win 2).blk t).view.emb y = ix2 (rowOf t (y 0)) (y 1) := by
      funext a; apply Fin.ext
      match a with
      | ⟨0, _⟩ => show win3_2.index t (0 : Fin 2) * 2000 + 1 * (y 0).val = 2000 * t.val + (y 0).val; omega
      | ⟨1, _⟩ => show win3_2.index t (1 : Fin 2) * 64 + 1 * (y 1).val = (y 1).val; omega
    rw [e]
    rfl

/-- An index of the array is in point `t`'s block iff each coordinate is in the block's range on its axis. -/
theorem mem_blk (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v89).slice (win3_2.rect t)).set ↔ _
  rw [View.set_slice_whole, Rect.mem_set_unit]
  exact Iff.rfl

/-- Every row lies in the block of the point `row / 2000`. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  refine ⟨⟨(i 0).val / 2000, by rw [hN]; omega⟩, flush3_2 _, ?_⟩
  rw [mem_blk]
  obtain ⟨-, -, -, -, e4, e5⟩ := idx_facts ⟨(i 0).val / 2000, by rw [hN]; omega⟩
  intro a
  match a with
  | ⟨0, _⟩ =>
    show win3_2.index ⟨(i 0).val / 2000, _⟩ (0 : Fin 2) * 2000 ≤ (i 0).val
      ∧ (i 0).val < win3_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, _⟩ (1 : Fin 2) * 64 ≤ (i 1).val
      ∧ (i 1).val < win3_2.index ⟨(i 0).val / 2000, _⟩ (1 : Fin 2) * 64 + 64
    rw [e5]; omega

/-- THE ARRAY after the region: the mean over the heads of `num / den`, whole. -/
theorem final3_2 (c : Dev nD) :
    (Gen.dat3 V c).arrAt 2 cfg3.N = Cert.Spec.headK (Cert.Spec.agg (V c main_v85) (V c main_v88)) :=
  (dat3 V c).arrAt_eq_of_cover 2 (G V c) (fun t _ => flushed_eq V c t) cover

end Cert.KernelIdeal.Region3

end
-- ==== Proof.Chain.lean ====
/-
  The idealized kernel program's result walked back through its seven segment boundaries to the arguments: a region's
  output array is the program-free function of what the region found (Region0 … Region3), a host stretch's result the
  stage function of what the stretch started from (KernelHost), and a buffer a segment does not write is what it was.
  The composite is `Stage.result` of the ten arguments (KernelStages.lean).
-/
import proofs.«129437_j77214922047879_1_alg».proof.Proof.Gen.KernelIdeal.Frame
import proofs.«129437_j77214922047879_1_alg».proof.Proof.KernelHost
import proofs.«129437_j77214922047879_1_alg».proof.Proof.Region0
import proofs.«129437_j77214922047879_1_alg».proof.Proof.Region1
import proofs.«129437_j77214922047879_1_alg».proof.Proof.Region2
import proofs.«129437_j77214922047879_1_alg».proof.Proof.Region3

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## What the first region finds: the arguments, and the first stretch's results -/

theorem W1_arg0 : W1 m ρ c (Proc.devRef .tc main_arg0) = (m ((c : Thread nD τ).loc main_arg0)) := Host.keep0_arg0 (W0 m ρ c)
theorem W1_arg3 : W1 m ρ c (Proc.devRef .tc main_arg3) = (m ((c : Thread nD τ).loc main_arg3)) := Host.keep0_arg3 (W0 m ρ c)
theorem W1_arg5 : W1 m ρ c (Proc.devRef .tc main_arg5) = (m ((c : Thread nD τ).loc main_arg5)) := Host.keep0_arg5 (W0 m ρ c)
theorem W1_arg8 : W1 m ρ c (Proc.devRef .tc main_arg8) = (m ((c : Thread nD τ).loc main_arg8)) := Host.keep0_arg8 (W0 m ρ c)
theorem W1_arg9 : W1 m ρ c (Proc.devRef .tc main_arg9) = (m ((c : Thread nD τ).loc main_arg9)) := Host.keep0_arg9 (W0 m ρ c)
theorem W1_v1 : W1 m ρ c (Proc.devRef .tc main_v1) = Stage.src (m ((c : Thread nD τ).loc main_arg1)) := Host.pre_v1 (W0 m ρ c)
theorem W1_v3 : W1 m ρ c (Proc.devRef .tc main_v3) = Stage.dst (m ((c : Thread nD τ).loc main_arg1)) := Host.pre_v3 (W0 m ρ c)
theorem W1_v4 : W1 m ρ c (Proc.devRef .tc main_v4) = Stage.wt0 (m ((c : Thread nD τ).loc main_arg2)) := Host.pre_v4 (W0 m ρ c)
theorem W1_v5 : W1 m ρ c (Proc.devRef .tc main_v5) = Stage.wt1 (m ((c : Thread nD τ).loc main_arg4)) := Host.pre_v5 (W0 m ρ c)
theorem W1_v8 : W1 m ρ c (Proc.devRef .tc main_v8) = Stage.attLf (m ((c : Thread nD τ).loc main_arg6)) := Host.pre_v8 (W0 m ρ c)
theorem W1_v11 : W1 m ρ c (Proc.devRef .tc main_v11) = Stage.attRf (m ((c : Thread nD τ).loc main_arg6)) := Host.pre_v11 (W0 m ρ c)
theorem W1_v14 : W1 m ρ c (Proc.devRef .tc main_v14) = Stage.attLf (m ((c : Thread nD τ).loc main_arg7)) := Host.pre_v14 (W0 m ρ c)
theorem W1_v17 : W1 m ρ c (Proc.devRef .tc main_v17) = Stage.attRf (m ((c : Thread nD τ).loc main_arg7)) := Host.pre_v17 (W0 m ρ c)

/-! ## After the first region: the dense layer and its scores; everything else as before -/

/-- The first dense layer's rows. -/
abbrev h0 : Stage.Ct Ideal S50000x256 .f32 := Cert.Spec.lin (K := 128) (m ((c : Thread nD τ).loc main_arg0)) (Stage.wt0 (m ((c : Thread nD τ).loc main_arg2))) (m ((c : Thread nD τ).loc main_arg3))

theorem W2_h : W2 m ρ c (Proc.devRef .tc main_v18_0) = h0 m c := by
  refine (W2_arr m ρ c 5).trans ((Region0.final0_5 (V1 m ρ) c).trans ?_)
  show Cert.Spec.lin (K := 128) (W1 m ρ c (Proc.devRef .tc main_arg0)) (W1 m ρ c (Proc.devRef .tc main_v4)) (W1 m ρ c (Proc.devRef .tc main_arg3)) = _
  rw [W1_arg0, W1_v4, W1_arg3]
theorem W2_sl : W2 m ρ c (Proc.devRef .tc main_v18_1) = Cert.Spec.score (h0 m c) (Stage.attLf (m ((c : Thread nD τ).loc main_arg6))) := by
  refine (W2_arr m ρ c 6).trans ((Region0.final0_6 (V1 m ρ) c).trans ?_)
  show Cert.Spec.score (Cert.Spec.lin (K := 128) (W1 m ρ c (Proc.devRef .tc main_arg0)) (W1 m ρ c (Proc.devRef .tc main_v4)) (W1 m ρ c (Proc.devRef .tc main_arg3))) (W1 m ρ c (Proc.devRef .tc main_v8)) = _
  rw [W1_arg0, W1_v4, W1_arg3, W1_v8]
theorem W2_sr : W2 m ρ c (Proc.devRef .tc main_v18_2) = Cert.Spec.score (h0 m c) (Stage.attRf (m ((c : Thread nD τ).loc main_arg6))) := by
  refine (W2_arr m ρ c 7).trans ((Region0.final0_7 (V1 m ρ) c).trans ?_)
  show Cert.Spec.score (Cert.Spec.lin (K := 128) (W1 m ρ c (Proc.devRef .tc main_arg0)) (W1 m ρ c (Proc.devRef .tc main_v4)) (W1 m ρ c (Proc.devRef .tc main_arg3))) (W1 m ρ c (Proc.devRef .tc main_v11)) = _
  rw [W1_arg0, W1_v4, W1_arg3, W1_v11]

theorem W2_v1 : W2 m ρ c (Proc.devRef .tc main_v1) = Stage.src (m ((c : Thread nD τ).loc main_arg1)) := (W2_of_ne m ρ c main_v1 (by decide)).trans (W1_v1 m ρ c)
theorem W2_v3 : W2 m ρ c (Proc.devRef .tc main_v3) = Stage.dst (m ((c : Thread nD τ).loc main_arg1)) := (W2_of_ne m ρ c main_v3 (by decide)).trans (W1_v3 m ρ c)
theorem W2_v5 : W2 m ρ c (Proc.devRef .tc main_v5) = Stage.wt1 (m ((c : Thread nD τ).loc main_arg4)) := (W2_of_ne m ρ c main_v5 (by decide)).trans (W1_v5 m ρ c)
theorem W2_v14 : W2 m ρ c (Proc.devRef .tc main_v14) = Stage.attLf (m ((c : Thread nD τ).loc main_arg7)) := (W2_of_ne m ρ c main_v14 (by decide)).trans (W1_v14 m ρ c)
theorem W2_v17 : W2 m ρ c (Proc.devRef .tc main_v17) = Stage.attRf (m ((c : Thread nD τ).loc main_arg7)) := (W2_of_ne m ρ c main_v17 (by decide)).trans (W1_v17 m ρ c)
theorem W2_arg5 : W2 m ρ c (Proc.devRef .tc main_arg5) = (m ((c : Thread nD τ).loc main_arg5)) := (W2_of_ne m ρ c main_arg5 (by decide)).trans (W1_arg5 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)

/-! ## After the first edge stretch -/

/-- The first layer's aggregate, as the program's own stage functions of the arguments. -/
abbrev a0 : Stage.Ct Ideal S50000x256 .f32 :=
  Stage.layer (K := 128) (m ((c : Thread nD τ).loc main_arg0)) (Stage.wt0 (m ((c : Thread nD τ).loc main_arg2))) (m ((c : Thread nD τ).loc main_arg3)) (Stage.attLf (m ((c : Thread nD τ).loc main_arg6))) (Stage.attRf (m ((c : Thread nD τ).loc main_arg6))) (Stage.src (m ((c : Thread nD τ).loc main_arg1))) (Stage.dst (m ((c : Thread nD τ).loc main_arg1)))

theorem W3_num : W3 m ρ c (Proc.devRef .tc main_v49)
    = Stage.num (F := Ideal) (h0 m c) (Stage.wgt (F := Ideal) (Cert.Spec.score (h0 m c) (Stage.attLf (m ((c : Thread nD τ).loc main_arg6)))) (Cert.Spec.score (h0 m c) (Stage.attRf (m ((c : Thread nD τ).loc main_arg6)))) (Stage.src (m ((c : Thread nD τ).loc main_arg1))) (Stage.dst (m ((c : Thread nD τ).loc main_arg1)))) (Stage.src (m ((c : Thread nD τ).loc main_arg1))) (Stage.dst (m ((c : Thread nD τ).loc main_arg1))) := by
  refine (Host.edge1_num (W2 m ρ c)).trans ?_
  rw [W2_h, W2_sl, W2_sr, W2_v1, W2_v3]
theorem W3_den : W3 m ρ c (Proc.devRef .tc main_v52)
    = Stage.den (F := Ideal) (Stage.wgt (F := Ideal) (Cert.Spec.score (h0 m c) (Stage.attLf (m ((c : Thread nD τ).loc main_arg6)))) (Cert.Spec.score (h0 m c) (Stage.attRf (m ((c : Thread nD τ).loc main_arg6)))) (Stage.src (m ((c : Thread nD τ).loc main_arg1))) (Stage.dst (m ((c : Thread nD τ).loc main_arg1)))) (Stage.src (m ((c : Thread nD τ).loc main_arg1))) := by
  refine (Host.edge1_den (W2 m ρ c)).trans ?_
  rw [W2_sl, W2_sr, W2_v1, W2_v3]
theorem W3_v1 : W3 m ρ c (Proc.devRef .tc main_v1) = Stage.src (m ((c : Thread nD τ).loc main_arg1)) := (Host.keep1_v1 (W2 m ρ c)).trans (W2_v1 m ρ c)
theorem W3_v3 : W3 m ρ c (Proc.devRef .tc main_v3) = Stage.dst (m ((c : Thread nD τ).loc main_arg1)) := (Host.keep1_v3 (W2 m ρ c)).trans (W2_v3 m ρ c)
theorem W3_v5 : W3 m ρ c (Proc.devRef .tc main_v5) = Stage.wt1 (m ((c : Thread nD τ).loc main_arg4)) := (Host.keep1_v5 (W2 m ρ c)).trans (W2_v5 m ρ c)
theorem W3_v14 : W3 m ρ c (Proc.devRef .tc main_v14) = Stage.attLf (m ((c : Thread nD τ).loc main_arg7)) := (Host.keep1_v14 (W2 m ρ c)).trans (W2_v14 m ρ c)
theorem W3_v17 : W3 m ρ c (Proc.devRef .tc main_v17) = Stage.attRf (m ((c : Thread nD τ).loc main_arg7)) := (Host.keep1_v17 (W2 m ρ c)).trans (W2_v17 m ρ c)
theorem W3_arg5 : W3 m ρ c (Proc.devRef .tc main_arg5) = (m ((c : Thread nD τ).loc main_arg5)) := (Host.keep1_arg5 (W2 m ρ c)).trans (W2_arg5 m ρ c)
theorem W3_arg8 : W3 m ρ c (Proc.devRef .tc main_arg8) = (m ((c : Thread nD τ).loc main_arg8)) := (Host.keep1_arg8 (W2 m ρ c)).trans (W2_arg8 m ρ c)
theorem W3_arg9 : W3 m ρ c (Proc.devRef .tc main_arg9) = (m ((c : Thread nD τ).loc main_arg9)) := (Host.keep1_arg9 (W2 m ρ c)).trans (W2_arg9 m ρ c)

/-! ## After the normalisation region -/

/-- The second layer's input rows. -/
abbrev x1 : Stage.Ct Ideal S50000x256 .f32 := Cert.Spec.lnK (a0 m c) (m ((c : Thread nD τ).loc main_arg8)) (m ((c : Thread nD τ).loc main_arg9))

theorem W4_x1 : W4 m ρ c (Proc.devRef .tc main_v53) = x1 m c := by
  refine (W4_arr m ρ c 4).trans ((Region1.final1_4 (V3 m ρ) c).trans ?_)
  show Cert.Spec.lnK (Cert.Spec.agg (W3 m ρ c (Proc.devRef .tc main_v49)) (W3 m ρ c (Proc.devRef .tc main_v52))) (W3 m ρ c (Proc.devRef .tc main_arg8)) (W3 m ρ c (Proc.devRef .tc main_arg9)) = _
  rw [W3_num, W3_den, W3_arg8, W3_arg9]
  rfl
theorem W4_v1 : W4 m ρ c (Proc.devRef .tc main_v1) = Stage.src (m ((c : Thread nD τ).loc main_arg1)) := (W4_of_ne m ρ c main_v1 (by decide)).trans (W3_v1 m ρ c)
theorem W4_v3 : W4 m ρ c (Proc.devRef .tc main_v3) = Stage.dst (m ((c : Thread nD τ).loc main_arg1)) := (W4_of_ne m ρ c main_v3 (by decide)).trans (W3_v3 m ρ c)
theorem W4_v5 : W4 m ρ c (Proc.devRef .tc main_v5) = Stage.wt1 (m ((c : Thread nD τ).loc main_arg4)) := (W4_of_ne m ρ c main_v5 (by decide)).trans (W3_v5 m ρ c)
theorem W4_v14 : W4 m ρ c (Proc.devRef .tc main_v14) = Stage.attLf (m ((c : Thread nD τ).loc main_arg7)) := (W4_of_ne m ρ c main_v14 (by decide)).trans (W3_v14 m ρ c)
theorem W4_v17 : W4 m ρ c (Proc.devRef .tc main_v17) = Stage.attRf (m ((c : Thread nD τ).loc main_arg7)) := (W4_of_ne m ρ c main_v17 (by decide)).trans (W3_v17 m ρ c)
theorem W4_arg5 : W4 m ρ c (Proc.devRef .tc main_arg5) = (m ((c : Thread nD τ).loc main_arg5)) := (W4_of_ne m ρ c main_arg5 (by decide)).trans (W3_arg5 m ρ c)

/-! ## After the second dense region -/

/-- The second dense layer's rows. -/
abbrev h1 : Stage.Ct Ideal S50000x256 .f32 := Cert.Spec.lin (K := 256) (x1 m c) (Stage.wt1 (m ((c : Thread nD τ).loc main_arg4))) (m ((c : Thread nD τ).loc main_arg5))

theorem W5_h : W5 m ρ c (Proc.devRef .tc main_v54_0) = h1 m c := by
  refine (W5_arr m ρ c 5).trans ((Region2.final2_5 (V4 m ρ) c).trans ?_)
  show Cert.Spec.lin (K := 256) (W4 m ρ c (Proc.devRef .tc main_v53)) (W4 m ρ c (Proc.devRef .tc main_v5)) (W4 m ρ c (Proc.devRef .tc main_arg5)) = _
  rw [W4_x1, W4_v5, W4_arg5]
theorem W5_sl : W5 m ρ c (Proc.devRef .tc main_v54_1) = Cert.Spec.score (h1 m c) (Stage.attLf (m ((c : Thread nD τ).loc main_arg7))) := by
  refine (W5_arr m ρ c 6).trans ((Region2.final2_6 (V4 m ρ) c).trans ?_)
  show Cert.Spec.score (Cert.Spec.lin (K := 256) (W4 m ρ c (Proc.devRef .tc main_v53)) (W4 m ρ c (Proc.devRef .tc main_v5)) (W4 m ρ c (Proc.devRef .tc main_arg5))) (W4 m ρ c (Proc.devRef .tc main_v14)) = _
  rw [W4_x1, W4_v5, W4_arg5, W4_v14]
theorem W5_sr : W5 m ρ c (Proc.devRef .tc main_v54_2) = Cert.Spec.score (h1 m c) (Stage.attRf (m ((c : Thread nD τ).loc main_arg7))) := by
  refine (W5_arr m ρ c 7).trans ((Region2.final2_7 (V4 m ρ) c).trans ?_)
  show Cert.Spec.score (Cert.Spec.lin (K := 256) (W4 m ρ c (Proc.devRef .tc main_v53)) (W4 m ρ c (Proc.devRef .tc main_v5)) (W4 m ρ c (Proc.devRef .tc main_arg5))) (W4 m ρ c (Proc.devRef .tc main_v17)) = _
  rw [W4_x1, W4_v5, W4_arg5, W4_v17]
theorem W5_v1 : W5 m ρ c (Proc.devRef .tc main_v1) = Stage.src (m ((c : Thread nD τ).loc main_arg1)) := (W5_of_ne m ρ c main_v1 (by decide)).trans (W4_v1 m ρ c)
theorem W5_v3 : W5 m ρ c (Proc.devRef .tc main_v3) = Stage.dst (m ((c : Thread nD τ).loc main_arg1)) := (W5_of_ne m ρ c main_v3 (by decide)).trans (W4_v3 m ρ c)

/-! ## After the second edge stretch, and the last region -/

theorem W6_num : W6 m ρ c (Proc.devRef .tc main_v85)
    = Stage.num (F := Ideal) (h1 m c) (Stage.wgt (F := Ideal) (Cert.Spec.score (h1 m c) (Stage.attLf (m ((c : Thread nD τ).loc main_arg7)))) (Cert.Spec.score (h1 m c) (Stage.attRf (m ((c : Thread nD τ).loc main_arg7)))) (Stage.src (m ((c : Thread nD τ).loc main_arg1))) (Stage.dst (m ((c : Thread nD τ).loc main_arg1)))) (Stage.src (m ((c : Thread nD τ).loc main_arg1))) (Stage.dst (m ((c : Thread nD τ).loc main_arg1))) := by
  refine (Host.edge3_num (W5 m ρ c)).trans ?_
  rw [W5_h, W5_sl, W5_sr, W5_v1, W5_v3]
theorem W6_den : W6 m ρ c (Proc.devRef .tc main_v88)
    = Stage.den (F := Ideal) (Stage.wgt (F := Ideal) (Cert.Spec.score (h1 m c) (Stage.attLf (m ((c : Thread nD τ).loc main_arg7)))) (Cert.Spec.score (h1 m c) (Stage.attRf (m ((c : Thread nD τ).loc main_arg7)))) (Stage.src (m ((c : Thread nD τ).loc main_arg1))) (Stage.dst (m ((c : Thread nD τ).loc main_arg1)))) (Stage.src (m ((c : Thread nD τ).loc main_arg1))) := by
  refine (Host.edge3_den (W5 m ρ c)).trans ?_
  rw [W5_sl, W5_sr, W5_v1, W5_v3]

/-- THE KERNEL PROGRAM'S RESULT: the last boundary's contents at the result buffer are the stage functions' composite of
    the ten arguments. -/
theorem result_eq : W7 m ρ c (Proc.devRef .tc main_v89)
    = Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 2).trans ((Region3.final3_2 (V6 m ρ) c).trans ?_)
  show Cert.Spec.headK (Cert.Spec.agg (W6 m ρ c (Proc.devRef .tc main_v85)) (W6 m ρ c (Proc.devRef .tc main_v88))) = _
  rw [W6_num, W6_den]
  rfl

end Cert.KernelIdeal.Chain

end
-- ==== Proof.RefStages.lean ====
/-
  The reference program's host operations, grouped into the six stretches of its @main, each stretch's results written
  ONCE as a function of the CONTENTS of the buffers the stretch reads (the arguments and the earlier stretches'
  results).  Nothing is proved here: these are the operations' own composites, spelt with the program's records, so
  that the run can be read back one stretch at a time and every shared intermediate is named once.

    * `lin0`, `lin1`  — x · Wᵀ + b  as [50000, 256]   (the two dense layers: 128 and 256 inner columns);
    * `relay`         — the same numbers as [50000, 4, 64] (4 heads of 64 channels);
    * `attL`, `attR`  — the two halves of the attention vector as [4, 64];
    * `score`         — per node and head, the sum over the channels of leakyReLU (h · att);
    * `src`, `dst`    — the two rows of the edge list; `wrap` — an index array as gather start indices (a negative
                        index counted from the end), `raw` — as scatter indices;
    * `wgt`           — the edge weights exp ((s_l[src] + s_r[dst]) / 128);
    * `num`, `den`    — the weighted rows of h[dst], and the weights, summed per source node;
    * `agg`           — num / den, head by head;
    * `lnorm`         — layer normalisation over the 256 columns (deviation divided by sqrt (variance + ε)), scale, shift,
                        leaky ReLU;
    * `headMean`      — the sum over the 4 heads divided by 4.
-/
import proofs.«129437_j77214922047879_1_alg».proof.Proof.Gen.ReferenceIdeal

noncomputable section

namespace Cert.ReferenceIdeal.Stage

open Cert.ReferenceIdeal Cert.ReferenceIdeal.Facts₀ Cert.ReferenceIdeal.Facts Idealize.ShloMosaic

variable {F : FTy → Type} [FloatOps F]

/-- The contents of a buffer of shape `s` and element type `e`. -/
abbrev Ct (F : FTy → Type) (s : Shape) (e : EltTy) : Type := (⟨s, e⟩ : BufTy).Contents (Elt F)

/-! ## Leaky ReLU of a whole array -/

def lrelu3 (y : Ct F S50000x4x64 .f32) : Ct F S50000x4x64 .f32 :=
  select (cmpf .ogt y (broadcastInDim S50000x4x64 ![] bcast_S_S50000x4x64 (constant S_ .f32 0x00000000#32))) y
    (mulf (broadcastInDim S50000x4x64 ![] bcast_S_S50000x4x64 (constant S_ .f32 0x3C23D70A#32)) y)

def lrelu2 (y : Ct F S50000x256 .f32) : Ct F S50000x256 .f32 :=
  select (cmpf .ogt y (broadcastInDim S50000x256 ![] bcast_S_S50000x256 (constant S_ .f32 0x00000000#32))) y
    (mulf (broadcastInDim S50000x256 ![] bcast_S_S50000x256 (constant S_ .f32 0x3C23D70A#32)) y)

/-! ## A dense layer and its attention scores (stretches A and D) -/

/-- A bias row laid over the 50000 rows. -/
def biasRows (b : Ct F S256 .f32) : Ct F S50000x256 .f32 :=
  broadcastInDim S50000x256 ![0, 1] bcast_S1x256_S50000x256_0_1 (broadcastInDim S1x256 ![1] bcast_S256_S1x256_1 b)

def lin0 (x : Ct F S50000x128 .f32) (w : Ct F S256x128 .f32) (b : Ct F S256 .f32) : Ct F S50000x256 .f32 :=
  addf (Host.dotGeneral dot_S50000x128_S128x256_S50000x256_1_0_0_1_n_n none x
      (transpose S128x256 [1, 0] w transposes_S256x128_S128x256_1_0)) (biasRows b)

def lin1 (x : Ct F S50000x256 .f32) (w : Ct F S256x256 .f32) (b : Ct F S256 .f32) : Ct F S50000x256 .f32 :=
  addf (Host.dotGeneral dot_S50000x256_S256x256_S50000x256_1_0_0_1_n_n none x
      (transpose S256x256 [1, 0] w transposes_S256x256_S256x256_1_0)) (biasRows b)

/-- The rows re-laid as 4 heads of 64 channels. -/
def relay (a : Ct F S50000x256 .f32) : Ct F S50000x4x64 .f32 :=
  shapeCast S50000x4x64 a shapeCasts_S50000x256_S50000x4x64

def attL (att : Ct F S1x4x128 .f32) : Ct F S4x64 .f32 :=
  shapeCast S4x64 (extractStridedSlice S1x4x64 ![0, 0, 0] att slices_S1x4x128_S1x4x64_0_0_0) shapeCasts_S1x4x64_S4x64

def attR (att : Ct F S1x4x128 .f32) : Ct F S4x64 .f32 :=
  shapeCast S4x64 (extractStridedSlice S1x4x64 ![0, 0, 64] att slices_S1x4x128_S1x4x64_0_0_64) shapeCasts_S1x4x64_S4x64

/-- An attention half laid over the 50000 nodes. -/
def attRows (a : Ct F S4x64 .f32) : Ct F S50000x4x64 .f32 :=
  broadcastInDim S50000x4x64 ![0, 1, 2] bcast_S1x4x64_S50000x4x64_0_1_2 (broadcastInDim S1x4x64 ![1, 2] bcast_S4x64_S1x4x64_1_2 a)

def score (h3 : Ct F S50000x4x64 .f32) (a : Ct F S4x64 .f32) : Ct F S50000x4 .f32 :=
  Host.reduceAdd (lrelu3 (mulf h3 (attRows a))) (constant S_ .f32 0x00000000#32) reducesTo_S50000x4x64_S50000x4_d2 h_S_

/-! ## An edge stage (stretches B and E) -/

def src (e : Ct F S2x800000 .i32) : Ct F S800000 .i32 :=
  shapeCast S800000 (extractStridedSlice S1x800000 ![0, 0] e slices_S2x800000_S1x800000_0_0) shapeCasts_S1x800000_S800000

def dst (e : Ct F S2x800000 .i32) : Ct F S800000 .i32 :=
  shapeCast S800000 (extractStridedSlice S1x800000 ![1, 0] e slices_S2x800000_S1x800000_1_0) shapeCasts_S1x800000_S800000

/-- Gather start indices: a negative index counted from the end, as a column. -/
def wrap (i : Ct F S800000 .i32) : Ct F S800000x1 .i32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Scatter indices: the index array as a column, as it stands. -/
def raw (i : Ct F S800000 .i32) : Ct F S800000x1 .i32 :=
  broadcastInDim S800000x1 ![0] bcast_S800000_S800000x1_0 i

def wgt (sl sr : Ct F S50000x4 .f32) (e : Ct F S2x800000 .i32) : Ct F S800000x4 .f32 :=
  Host.exp (Host.divf
    (addf (Host.gather gather_S50000x4_S800000x1_S800000x4_1_0_n_n_0_1_14 sl (wrap (src e)))
          (Host.gather gather_S50000x4_S800000x1_S800000x4_1_0_n_n_0_1_14 sr (wrap (dst e))))
    (broadcastInDim S800000x4 ![] bcast_S_S800000x4 (constant S_ .f32 0x43000000#32)))

def num (h3 : Ct F S50000x4x64 .f32) (s : Ct F S800000x4 .f32) (e : Ct F S2x800000 .i32) : Ct F S50000x4x64 .f32 :=
  Host.scatterAdd scatter_S50000x4x64_S800000x1_S800000x4x64_12_0_0_1
    (broadcastInDim S50000x4x64 ![] bcast_S_S50000x4x64 (constant S_ .f32 0x00000000#32)) (raw (src e))
    (mulf (Host.gather gather_S50000x4x64_S800000x1_S800000x4x64_12_0_n_n_0_1_1464 h3 (wrap (dst e)))
      (broadcastInDim S800000x4x64 ![0, 1, 2] bcast_S800000x4x1_S800000x4x64_0_1_2
        (broadcastInDim S800000x4x1 ![0, 1] bcast_S800000x4_S800000x4x1_0_1 s)))

def den (s : Ct F S800000x4 .f32) (e : Ct F S2x800000 .i32) : Ct F S50000x4 .f32 :=
  Host.scatterAdd scatter_S50000x4_S800000x1_S800000x4_1_0_0_1
    (broadcastInDim S50000x4 ![] bcast_S_S50000x4 (constant S_ .f32 0x00000000#32)) (raw (src e)) s

def agg (h3 : Ct F S50000x4x64 .f32) (sl sr : Ct F S50000x4 .f32) (e : Ct F S2x800000 .i32) : Ct F S50000x4x64 .f32 :=
  Host.divf (num h3 (wgt sl sr e) e)
    (broadcastInDim S50000x4x64 ![0, 1, 2] bcast_S50000x4x1_S50000x4x64_0_1_2
      (broadcastInDim S50000x4x1 ![0, 1] bcast_S50000x4_S50000x4x1_0_1 (den (wgt sl sr e) e)))

/-- The first edge stage's result as the flat [50000, 256] array the normalisation reads. -/
def flat (a3 : Ct F S50000x4x64 .f32) : Ct F S50000x256 .f32 :=
  shapeCast S50000x256 a3 shapeCasts_S50000x4x64_S50000x256

/-! ## The layer normalisation (stretch C) -/

/-- A per-row column laid over the 256 columns. -/
def colRows (m : Ct F S50000x1 .f32) : Ct F S50000x256 .f32 :=
  broadcastInDim S50000x256 ![0, 1] bcast_S50000x1_S50000x256_0_1 m

/-- The mean of each row's 256 entries, as a column. -/
def rowMean (a : Ct F S50000x256 .f32) : Ct F S50000x1 .f32 :=
  Host.divf (broadcastInDim S50000x1 ![0] bcast_S50000_S50000x1_0
      (Host.reduceAdd a (constant S_ .f32 0x00000000#32) reducesTo_S50000x256_S50000_d1 h_S_))
    (broadcastInDim S50000x1 ![] bcast_S_S50000x1 (constant S_ .f32 0x43800000#32))

def dev (a : Ct F S50000x256 .f32) : Ct F S50000x256 .f32 := subf a (colRows (rowMean a))

def lnorm (a : Ct F S50000x256 .f32) (g b : Ct F S256 .f32) : Ct F S50000x256 .f32 :=
  lrelu2 (addf (mulf
    (Host.divf (dev a) (colRows (Host.sqrt (addf (rowMean (mulf (dev a) (dev a)))
      (broadcastInDim S50000x1 ![] bcast_S_S50000x1 (constant S_ .f32 0x3727C5AC#32))))))
    (biasRows g)) (biasRows b))

/-! ## The mean over the heads (stretch F) -/

def headMean (a3 : Ct F S50000x4x64 .f32) : Ct F S50000x64 .f32 :=
  Host.divf (Host.reduceAdd a3 (constant S_ .f32 0x00000000#32) reducesTo_S50000x4x64_S50000x64_d1 h_S_)
    (broadcastInDim S50000x64 ![] bcast_S_S50000x64 (constant S_ .f32 0x40800000#32))

/-! ## The whole reference, stretch by stretch -/

/-- The program's result as a function of its ten arguments' contents. -/
def result (x : Ct F S50000x128 .f32) (e : Ct F S2x800000 .i32) (w0 : Ct F S256x128 .f32) (b0 : Ct F S256 .f32)
    (w1 : Ct F S256x256 .f32) (b1 : Ct F S256 .f32) (att0 att1 : Ct F S1x4x128 .f32) (g b : Ct F S256 .f32) :
    Ct F S50000x64 .f32 :=
  let h0 := relay (lin0 x w0 b0)
  let x1 := lnorm (flat (agg h0 (score h0 (attL att0)) (score h0 (attR att0)) e)) g b
  let h1 := relay (lin1 x1 w1 b1)
  headMean (agg h1 (score h1 (attL att1)) (score h1 (attR att1)) e)

end Cert.ReferenceIdeal.Stage

end
-- ==== Proof.LibHostPieces.lean ====
/-
  Straight lines of host operations cut into pieces: a line run after another is their concatenation run as one, the
  buffer contents after a concatenation are the contents after the second piece from the contents after the first, and a
  property of every operation of two pieces holds of every operation of their concatenation.
-/
import Idealize.ShloMosaic.Lib.StableHlo.Run

noncomputable section

namespace Idealize.ShloMosaic.StableHlo

open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The buffer contents after two pieces in a row: the second piece's fold over the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line, then a program that is itself a line: one line. -/
theorem seq_bind_eq (a R : List (HloOp τ sig Val)) (k : Prog (TpuEff nD τ sig Val Λ .tc) PUnit) (h : k = seq R) :
    (seq a >>= fun _ => k) = seq (a ++ R) := by rw [h, seq_append]

/-- What holds of every operation of two pieces holds of every operation of their concatenation. -/
theorem forall_mem_append {P : HloOp τ sig Val → Prop} {a b : List (HloOp τ sig Val)}
    (ha : ∀ op ∈ a, P op) (hb : ∀ op ∈ b, P op) : ∀ op ∈ a ++ b, P op :=
  fun op h => (List.mem_append.1 h).elim (ha op) (hb op)

end Idealize.ShloMosaic.StableHlo

end
-- ==== Proof.RefRun.lean ====
/-
  The reference program's run, read back one stretch at a time.

  The program is a straight line of 222 host operations, cut into six consecutive stretches.  The buffer contents
  after the whole line are the contents after the last stretch from the contents after the ones before it, so the
  result buffer is read by chaining, stretch by stretch:

    * for each stretch and each buffer a later stretch reads, the buffer's contents after the stretch, from ANY
      contents `W` before it, are the stretch's named composite of `W` at the buffers the stretch reads
      (a dense layer re-laid as heads and its two attention scores; the edge aggregation; the layer normalisation;
      the second dense layer and its scores; the second aggregation; the mean over the heads);
    * a buffer that no operation of a stretch writes keeps its contents through the stretch; the ten arguments are
      written by no operation at all, so they end as launched;
    * chained from the launch contents, the six composites are the whole program's composite of its ten arguments.
-/
import proofs.«129437_j77214922047879_1_alg».proof.Proof.RefBase
import proofs.«129437_j77214922047879_1_alg».proof.Proof.RefStages
import proofs.«129437_j77214922047879_1_alg».proof.Proof.LibHostPieces
import Idealize.ShloMosaic.Lib.StableHlo.Run

noncomputable section

namespace Cert.ReferenceIdeal.RefRun

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ## Stretch A (operations 0–33): the first dense layer as heads, and its two attention scores -/

theorem A_v5 (W : Valuation τ sig (Elt F)) :
    after opsA W (Proc.devRef .tc main_v5)
      = Stage.relay (Stage.lin0 (W (Proc.devRef .tc main_arg0)) (W (Proc.devRef .tc main_arg2)) (W (Proc.devRef .tc main_arg3))) := by
  after_results_simp <;> rfl

theorem A_v18 (W : Valuation τ sig (Elt F)) :
    after opsA W (Proc.devRef .tc main_v18)
      = Stage.score (Stage.relay (Stage.lin0 (W (Proc.devRef .tc main_arg0)) (W (Proc.devRef .tc main_arg2)) (W (Proc.devRef .tc main_arg3))))
          (Stage.attL (W (Proc.devRef .tc main_arg6))) := by
  after_results_simp <;> rfl

theorem A_v27 (W : Valuation τ sig (Elt F)) :
    after opsA W (Proc.devRef .tc main_v27)
      = Stage.score (Stage.relay (Stage.lin0 (W (Proc.devRef .tc main_arg0)) (W (Proc.devRef .tc main_arg2)) (W (Proc.devRef .tc main_arg3))))
          (Stage.attR (W (Proc.devRef .tc main_arg6))) := by
  after_results_simp <;> rfl

/-- The references stretch A writes. -/
def wA : List (Ref sig .tc) := [main_v0, main_v1, main_v2, main_v3, main_v4, main_v5, main_v6, main_v7, main_v8, main_v9, main_v10, main_v11, main_v12, main_cst, main_v13, main_v14, main_cst_0, main_v15, main_v16, main_v17, main_cst_1, main_v18, main_v19, main_v20, main_v21, main_cst_2, main_v22, main_v23, main_cst_3, main_v24, main_v25, main_v26, main_cst_4, main_v27]

theorem keepA (W : Valuation τ sig (Elt F)) {r : Ref sig .tc} (hr : r ∉ wA) :
    after opsA W (Proc.devRef .tc r) = W (Proc.devRef .tc r) :=
  after_of_writes_sub opsA W (by
    simp only [wA, List.Forall, nullary_writes, unary_writes, binary_writes, ternary_writes, reshape_writes,
      Finset.singleton_subset_iff, List.mem_toFinset]
    repeat' apply And.intro
    all_goals exact List.mem_map.mpr ⟨_, by decide, rfl⟩) hr

theorem freshA : ∀ op ∈ (opsA : List (HloOp τ sig (Elt F))), op.fresh = ∅ := by
  intro _ h; (repeat (cases h with | head => rfl | tail _ h => ?_)); exact nomatch h

/-! ## Stretch B (operations 34–90): the first edge aggregation, flattened -/

theorem B_v75 (W : Valuation τ sig (Elt F)) :
    after opsB W (Proc.devRef .tc main_v75)
      = Stage.flat (Stage.agg (W (Proc.devRef .tc main_v5)) (W (Proc.devRef .tc main_v18)) (W (Proc.devRef .tc main_v27)) (W (Proc.devRef .tc main_arg1))) := by
  after_results_simp <;> rfl

/-- The references stretch B writes. -/
def wB : List (Ref sig .tc) := [main_v28, main_v29, main_c, main_v30, main_v31, main_c_5, main_v32, main_v33, main_v34, main_v35, main_v36, main_v37, main_v38, main_c_6, main_v39, main_v40, main_c_7, main_v41, main_v42, main_v43, main_v44, main_v45, main_v46, main_cst_8, main_v47, main_v48, main_v49, main_v50, main_v51, main_c_9, main_v52, main_v53, main_c_10, main_v54, main_v55, main_v56, main_v57, main_v58, main_v59, main_v60, main_v61, main_v62, main_v63, main_cst_11, main_v64, main_v65, main_v66, main_v67, main_v68, main_cst_12, main_v69, main_v70, main_v71, main_v72, main_v73, main_v74, main_v75]

theorem keepB (W : Valuation τ sig (Elt F)) {r : Ref sig .tc} (hr : r ∉ wB) :
    after opsB W (Proc.devRef .tc r) = W (Proc.devRef .tc r) :=
  after_of_writes_sub opsB W (by
    simp only [wB, List.Forall, nullary_writes, unary_writes, binary_writes, ternary_writes, reshape_writes,
      Finset.singleton_subset_iff, List.mem_toFinset]
    repeat' apply And.intro
    all_goals exact List.mem_map.mpr ⟨_, by decide, rfl⟩) hr

theorem freshB : ∀ op ∈ (opsB : List (HloOp τ sig (Elt F))), op.fresh = ∅ := by
  intro _ h; (repeat (cases h with | head => rfl | tail _ h => ?_)); exact nomatch h

/-! ## Stretch C (operations 91–126): the layer normalisation -/

theorem C_v104 (W : Valuation τ sig (Elt F)) :
    after opsC W (Proc.devRef .tc main_v104)
      = Stage.lnorm (W (Proc.devRef .tc main_v75)) (W (Proc.devRef .tc main_arg8)) (W (Proc.devRef .tc main_arg9)) := by
  after_results_simp <;> rfl

/-- The references stretch C writes. -/
def wC : List (Ref sig .tc) := [main_cst_13, main_v76, main_v77, main_cst_14, main_v78, main_v79, main_v80, main_v81, main_v82, main_cst_15, main_v83, main_v84, main_cst_16, main_v85, main_v86, main_v87, main_v88, main_cst_17, main_v89, main_v90, main_v91, main_v92, main_v93, main_v94, main_v95, main_v96, main_v97, main_v98, main_v99, main_cst_18, main_v100, main_v101, main_cst_19, main_v102, main_v103, main_v104]

theorem keepC (W : Valuation τ sig (Elt F)) {r : Ref sig .tc} (hr : r ∉ wC) :
    after opsC W (Proc.devRef .tc r) = W (Proc.devRef .tc r) :=
  after_of_writes_sub opsC W (by
    simp only [wC, List.Forall, nullary_writes, unary_writes, binary_writes, ternary_writes, reshape_writes,
      Finset.singleton_subset_iff, List.mem_toFinset]
    repeat' apply And.intro
    all_goals exact List.mem_map.mpr ⟨_, by decide, rfl⟩) hr

theorem freshC : ∀ op ∈ (opsC : List (HloOp τ sig (Elt F))), op.fresh = ∅ := by
  intro _ h; (repeat (cases h with | head => rfl | tail _ h => ?_)); exact nomatch h

/-! ## Stretch D (operations 127–160): the second dense layer as heads, and its two attention scores -/

theorem D_v110 (W : Valuation τ sig (Elt F)) :
    after opsD W (Proc.devRef .tc main_v110)
      = Stage.relay (Stage.lin1 (W (Proc.devRef .tc main_v104)) (W (Proc.devRef .tc main_arg4)) (W (Proc.devRef .tc main_arg5))) := by
  after_results_simp <;> rfl

theorem D_v123 (W : Valuation τ sig (Elt F)) :
    after opsD W (Proc.devRef .tc main_v123)
      = Stage.score (Stage.relay (Stage.lin1 (W (Proc.devRef .tc main_v104)) (W (Proc.devRef .tc main_arg4)) (W (Proc.devRef .tc main_arg5))))
          (Stage.attL (W (Proc.devRef .tc main_arg7))) := by
  after_results_simp <;> rfl

theorem D_v132 (W : Valuation τ sig (Elt F)) :
    after opsD W (Proc.devRef .tc main_v132)
      = Stage.score (Stage.relay (Stage.lin1 (W (Proc.devRef .tc main_v104)) (W (Proc.devRef .tc main_arg4)) (W (Proc.devRef .tc main_arg5))))
          (Stage.attR (W (Proc.devRef .tc main_arg7))) := by
  after_results_simp <;> rfl

/-- The references stretch D writes. -/
def wD : List (Ref sig .tc) := [main_v105, main_v106, main_v107, main_v108, main_v109, main_v110, main_v111, main_v112, main_v113, main_v114, main_v115, main_v116, main_v117, main_cst_20, main_v118, main_v119, main_cst_21, main_v120, main_v121, main_v122, main_cst_22, main_v123, main_v124, main_v125, main_v126, main_cst_23, main_v127, main_v128, main_cst_24, main_v129, main_v130, main_v131, main_cst_25, main_v132]

theorem keepD (W : Valuation τ sig (Elt F)) {r : Ref sig .tc} (hr : r ∉ wD) :
    after opsD W (Proc.devRef .tc r) = W (Proc.devRef .tc r) :=
  after_of_writes_sub opsD W (by
    simp only [wD, List.Forall, nullary_writes, unary_writes, binary_writes, ternary_writes, reshape_writes,
      Finset.singleton_subset_iff, List.mem_toFinset]
    repeat' apply And.intro
    all_goals exact List.mem_map.mpr ⟨_, by decide, rfl⟩) hr

theorem freshD : ∀ op ∈ (opsD : List (HloOp τ sig (Elt F))), op.fresh = ∅ := by
  intro _ h; (repeat (cases h with | head => rfl | tail _ h => ?_)); exact nomatch h

/-! ## Stretch E (operations 161–216): the second edge aggregation -/

theorem E_v179 (W : Valuation τ sig (Elt F)) :
    after opsE W (Proc.devRef .tc main_v179)
      = Stage.agg (W (Proc.devRef .tc main_v110)) (W (Proc.devRef .tc main_v123)) (W (Proc.devRef .tc main_v132)) (W (Proc.devRef .tc main_arg1)) := by
  after_results_simp <;> rfl

/-- The references stretch E writes. -/
def wE : List (Ref sig .tc) := [main_v133, main_v134, main_c_26, main_v135, main_v136, main_c_27, main_v137, main_v138, main_v139, main_v140, main_v141, main_v142, main_v143, main_c_28, main_v144, main_v145, main_c_29, main_v146, main_v147, main_v148, main_v149, main_v150, main_v151, main_cst_30, main_v152, main_v153, main_v154, main_v155, main_v156, main_c_31, main_v157, main_v158, main_c_32, main_v159, main_v160, main_v161, main_v162, main_v163, main_v164, main_v165, main_v166, main_v167, main_v168, main_cst_33, main_v169, main_v170, main_v171, main_v172, main_v173, main_cst_34, main_v174, main_v175, main_v176, main_v177, main_v178, main_v179]

theorem keepE (W : Valuation τ sig (Elt F)) {r : Ref sig .tc} (hr : r ∉ wE) :
    after opsE W (Proc.devRef .tc r) = W (Proc.devRef .tc r) :=
  after_of_writes_sub opsE W (by
    simp only [wE, List.Forall, nullary_writes, unary_writes, binary_writes, ternary_writes, reshape_writes,
      Finset.singleton_subset_iff, List.mem_toFinset]
    repeat' apply And.intro
    all_goals exact List.mem_map.mpr ⟨_, by decide, rfl⟩) hr

theorem freshE : ∀ op ∈ (opsE : List (HloOp τ sig (Elt F))), op.fresh = ∅ := by
  intro _ h; (repeat (cases h with | head => rfl | tail _ h => ?_)); exact nomatch h

/-! ## Stretch F (operations 217–221): the mean over the heads -/

theorem F_v182 (W : Valuation τ sig (Elt F)) :
    after opsF W (Proc.devRef .tc main_v182) = Stage.headMean (W (Proc.devRef .tc main_v179)) := by
  after_results_simp <;> rfl

/-- The references stretch F writes. -/
def wF : List (Ref sig .tc) := [main_cst_35, main_v180, main_cst_36, main_v181, main_v182]

theorem keepF (W : Valuation τ sig (Elt F)) {r : Ref sig .tc} (hr : r ∉ wF) :
    after opsF W (Proc.devRef .tc r) = W (Proc.devRef .tc r) :=
  after_of_writes_sub opsF W (by
    simp only [wF, List.Forall, nullary_writes, unary_writes, binary_writes, ternary_writes, reshape_writes,
      Finset.singleton_subset_iff, List.mem_toFinset]
    repeat' apply And.intro
    all_goals exact List.mem_map.mpr ⟨_, by decide, rfl⟩) hr

theorem freshF : ∀ op ∈ (opsF : List (HloOp τ sig (Elt F))), op.fresh = ∅ := by
  intro _ h; (repeat (cases h with | head => rfl | tail _ h => ?_)); exact nomatch h

/-! ## The whole line -/

/-- The whole line is its six stretches, one after the other. -/
theorem after_ops (V : Valuation τ sig (Elt F)) :
    after ops V = after opsF (after opsE (after opsD (after opsC (after opsB (after opsA V))))) := by
  rw [ops_split, after_append, after_append, after_append, after_append, after_append]

/-- A reference no stretch writes keeps its contents through the whole line. -/
theorem keep_ops (V : Valuation τ sig (Elt F)) {r : Ref sig .tc} (hA : r ∉ wA) (hB : r ∉ wB) (hC : r ∉ wC)
    (hD : r ∉ wD) (hE : r ∉ wE) (hF : r ∉ wF) :
    after ops V (Proc.devRef .tc r) = V (Proc.devRef .tc r) := by
  rw [after_ops, keepF _ hF, keepE _ hE, keepD _ hD, keepC _ hC, keepB _ hB, keepA _ hA]

/-- The result buffer after the whole line, from the launch contents: the stretches' composites chained. -/
theorem result_eq (m : (ℓ : Loc nD τ sig) → Buf (Elt F) ℓ) (c : Dev nD) :
    after ops (launchContents m c) (Proc.devRef .tc main_v182)
      = Stage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops, F_v182, E_v179, D_v110, D_v123, D_v132, keepD (r := main_arg1) _ (by decide),
    C_v104, keepC (r := main_arg1) _ (by decide), keepC (r := main_arg4) _ (by decide), keepC (r := main_arg5) _ (by decide), keepC (r := main_arg7) _ (by decide),
    B_v75, keepB (r := main_arg1) _ (by decide), keepB (r := main_arg4) _ (by decide), keepB (r := main_arg5) _ (by decide), keepB (r := main_arg7) _ (by decide), keepB (r := main_arg8) _ (by decide), keepB (r := main_arg9) _ (by decide),
    A_v5, A_v18, A_v27, keepA (r := main_arg1) _ (by decide), keepA (r := main_arg4) _ (by decide), keepA (r := main_arg5) _ (by decide), keepA (r := main_arg7) _ (by decide), keepA (r := main_arg8) _ (by decide), keepA (r := main_arg9) _ (by decide)]
  rfl

theorem fresh_ops : ∀ op ∈ (ops : List (HloOp τ sig (Elt F))), op.fresh = ∅ := by
  rw [ops_split]
  exact forall_mem_append (forall_mem_append (forall_mem_append (forall_mem_append (forall_mem_append freshA freshB) freshC)
    freshD) freshE) freshF

/-- On every device, for any float values, from any memory with zero counters: every weakly fair execution of @main
    terminates with the result buffer at the stretches' composite of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182)
        = Stage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v182).trans (result_eq m c),
      (h c main_arg0).trans (keep_ops _ (by decide) (by decide) (by decide) (by decide) (by decide) (by decide)),
      (h c main_arg1).trans (keep_ops _ (by decide) (by decide) (by decide) (by decide) (by decide) (by decide)),
      (h c main_arg2).trans (keep_ops _ (by decide) (by decide) (by decide) (by decide) (by decide) (by decide)),
      (h c main_arg3).trans (keep_ops _ (by decide) (by decide) (by decide) (by decide) (by decide) (by decide)),
      (h c main_arg4).trans (keep_ops _ (by decide) (by decide) (by decide) (by decide) (by decide) (by decide)),
      (h c main_arg5).trans (keep_ops _ (by decide) (by decide) (by decide) (by decide) (by decide) (by decide)),
      (h c main_arg6).trans (keep_ops _ (by decide) (by decide) (by decide) (by decide) (by decide) (by decide)),
      (h c main_arg7).trans (keep_ops _ (by decide) (by decide) (by decide) (by decide) (by decide) (by decide)),
      (h c main_arg8).trans (keep_ops _ (by decide) (by decide) (by decide) (by decide) (by decide) (by decide)),
      (h c main_arg9).trans (keep_ops _ (by decide) (by decide) (by decide) (by decide) (by decide) (by decide))⟩)
    (run_seq scopedRefs_eq scopedSems_eq defs main (fun _ => ops) main_eq (fun _ => ops_sub) m ρ (fun _ => fresh_ops))

end Cert.ReferenceIdeal.RefRun

end
-- ==== Proof.Relay.lean ====
import proofs.«129437_j77214922047879_1_alg».proof.KernelIdeal
import proofs.«129437_j77214922047879_1_alg».proof.ReferenceIdeal
import Idealize.ShloMosaic.Lib.ValueIdx
import Idealize.ShloMosaic.Lib.Pipeline.Value
import Idealize.ShloMosaic.PureOps.Ideal.Laws

/-!
# Gathering and scatter-adding whole rows commute with re-laying each row

One program keeps a table of rows as a rank-2 array `[n, 256]`, the other keeps the same numbers as a
rank-3 array `[n, 4, 64]`: 4 heads of 64 channels, column `c` of the flat row being head `c / 64`,
channel `c % 64`. Both arrays list the same numbers in the same row-major order, so one is the reshape
(`shapeCast`) of the other, and the reshape matches index `(p, h, q)` with index `(p, 64 h + q)`: it acts
inside a row and never moves a number to another row.

A gather of whole rows picks, for each output row `e`, one source row `r e` (the start index read signed and
clamped into the table) and copies it: output `(e, c)` is input `(r e, c)` for the flat layout, output
`(e, h, q)` is input `(r e, h, q)` for the layout by heads. A scatter-add of whole rows adds update row `e`
into table row `r e` (the start index read signed, a row outside the table dropped). Either acts on the ROW
coordinate only and the reshape acts WITHIN a row only, so the two commute. This file proves exactly that,
and is the only place where the arithmetic `64 h + q` appears.
-/

noncomputable section

open scoped BigOperators

namespace Cert.Relay

open Idealize.ShloMosaic Idealize.ShloMosaic.ValueIdx

/-! ## The reshape between `[n, 256]` and `[n, 4, 64]`, by coordinates -/

section Layout
variable {n : Nat}

/-- Index `(p, h, q)` of `[n, 4, 64]` and index `(p, 64 h + q)` of `[n, 256]` sit at the same row-major
    position `256 p + 64 h + q`, so the reshape matches them. -/
theorem reshape_heads (hc : (⟨3, ![n, 4, 64]⟩ : Shape).numel = (⟨2, ![n, 256]⟩ : Shape).numel)
    (p : Fin n) (h : Fin 4) (q : Fin 64) :
    Shape.reshapeEquiv hc (ix3 p h q) = ix2 p (⟨64 * h.val + q.val, by omega⟩ : Fin 256) :=
  Shape.reshapeEquiv_eq_of_rowMajor hc (by
    rw [Shape.rowMajor_val_three, Shape.rowMajor_val_two]
    show p.val * 256 + (64 * h.val + q.val) = (p.val * 4 + h.val) * 64 + q.val
    omega)

/-- The other way: index `(p, c)` of `[n, 256]` is matched with `(p, c / 64, c % 64)` of `[n, 4, 64]`. -/
theorem reshape_cols (hc : (⟨2, ![n, 256]⟩ : Shape).numel = (⟨3, ![n, 4, 64]⟩ : Shape).numel)
    (p : Fin n) (c : Fin 256) :
    Shape.reshapeEquiv hc (ix2 p c)
      = ix3 p (⟨c.val / 64, by omega⟩ : Fin 4) (⟨c.val % 64, Nat.mod_lt _ (by omega)⟩ : Fin 64) :=
  Shape.reshapeEquiv_eq_of_rowMajor hc (by
    rw [Shape.rowMajor_val_three, Shape.rowMajor_val_two]
    show (p.val * 4 + c.val / 64) * 64 + c.val % 64 = p.val * 256 + c.val
    omega)

end Layout

/-! ## The re-laying of the node table read at coordinates -/

section Read
variable {α : Type}

/-- The flat table re-laid by heads reads, at `(p, h, q)`, the flat table's `(p, 64 h + q)`. -/
theorem relay_apply (x : Cert.KernelIdeal.S50000x256.Idx → α)
    (hN : Cert.KernelIdeal.S50000x256.ShapeCasts Cert.ReferenceIdeal.S50000x4x64)
    (p : Fin 50000) (h : Fin 4) (q : Fin 64) :
    shapeCast Cert.ReferenceIdeal.S50000x4x64 x hN (ix3 p h q)
      = x (ix2 p (⟨64 * h.val + q.val, by omega⟩ : Fin 256)) :=
  congrArg x (reshape_heads hN p h q)

/-- The table by heads re-laid flat reads, at `(p, c)`, head `c / 64`, channel `c % 64` of row `p`. -/
theorem relay_col (y : Cert.ReferenceIdeal.S50000x4x64.Idx → α)
    (hN' : Cert.ReferenceIdeal.S50000x4x64.ShapeCasts Cert.KernelIdeal.S50000x256)
    (p : Fin 50000) (c : Fin 256) :
    shapeCast Cert.KernelIdeal.S50000x256 y hN' (ix2 p c)
      = y (ix3 p (⟨c.val / 64, by omega⟩ : Fin 4) (⟨c.val % 64, Nat.mod_lt _ (by omega)⟩ : Fin 64)) :=
  congrArg y (reshape_cols hN' p c)

/-- The same two readings for the edge arrays (800000 rows). -/
theorem relay_edge_apply (x : Cert.KernelIdeal.S800000x256.Idx → α)
    (hE : Cert.KernelIdeal.S800000x256.ShapeCasts Cert.ReferenceIdeal.S800000x4x64)
    (e : Fin 800000) (h : Fin 4) (q : Fin 64) :
    shapeCast Cert.ReferenceIdeal.S800000x4x64 x hE (ix3 e h q)
      = x (ix2 e (⟨64 * h.val + q.val, by omega⟩ : Fin 256)) :=
  congrArg x (reshape_heads hE e h q)

theorem relay_edge_col (y : Cert.KernelIdeal.S800000x4x64.Idx → α)
    (hE' : Cert.KernelIdeal.S800000x4x64.ShapeCasts Cert.KernelIdeal.S800000x256)
    (e : Fin 800000) (c : Fin 256) :
    shapeCast Cert.KernelIdeal.S800000x256 y hE' (ix2 e c)
      = y (ix3 e (⟨c.val / 64, by omega⟩ : Fin 4) (⟨c.val % 64, Nat.mod_lt _ (by omega)⟩ : Fin 64)) :=
  congrArg y (reshape_cols hE' e c)

end Read

/-! ## Pointwise operations commute with any reshape

A reshape reads its operand at a re-indexed position; an operation applied index by index does not care
at which position it is read. -/

section Pointwise
variable {s t : Shape} {φ : FTy}

theorem mulf_relay (a b : FVec Ideal s φ) (h : s.ShapeCasts t) :
    mulf (shapeCast t a h) (shapeCast t b h) = shapeCast t (mulf a b) h := rfl

theorem divf_relay (a b : FVec Ideal s φ) (h : s.ShapeCasts t) :
    Host.divf (F := Ideal) (shapeCast t a h) (shapeCast t b h) = shapeCast t (Host.divf (F := Ideal) a b) h := rfl

theorem addf_relay (a b : FVec Ideal s φ) (h : s.ShapeCasts t) :
    addf (shapeCast t a h) (shapeCast t b h) = shapeCast t (addf a b) h := rfl

end Pointwise

/-! ## The zero table -/

section Zero
variable [Cert.KernelIdeal.Facts₀] [Cert.ReferenceIdeal.Facts₀]

/-- A table filled with one constant is the same table under either layout. -/
theorem zero_relay (hN : Cert.KernelIdeal.S50000x256.ShapeCasts Cert.ReferenceIdeal.S50000x4x64) :
    broadcastInDim Cert.ReferenceIdeal.S50000x4x64 ![] Cert.ReferenceIdeal.Facts₀.bcast_S_S50000x4x64
        (constant (F := Ideal) Cert.ReferenceIdeal.S_ .f32 0x00000000#32)
      = shapeCast Cert.ReferenceIdeal.S50000x4x64
          (broadcastInDim Cert.KernelIdeal.S50000x256 ![] Cert.KernelIdeal.Facts₀.bcast_S_S50000x256
            (constant (F := Ideal) Cert.KernelIdeal.S_ .f32 0x00000000#32)) hN := rfl

end Zero

/-! ## A per-head scalar laid over the 64 channels

The reference lays a `[n, 4]` array over the channels in two steps (a unit axis added, then broadcast along
it), the kernel in one; at `(e, h, q)` each reads the scalar of row `e`, head `h`. -/

section Rep
variable {α : Type} [Cert.KernelIdeal.Facts₀] [Cert.ReferenceIdeal.Facts₀]

theorem rep_edge_ref (s : Cert.ReferenceIdeal.S800000x4.Idx → α) (e : Fin 800000) (h : Fin 4) (q : Fin 64) :
    broadcastInDim Cert.ReferenceIdeal.S800000x4x64 ![0, 1, 2]
        Cert.ReferenceIdeal.Facts₀.bcast_S800000x4x1_S800000x4x64_0_1_2
        (broadcastInDim Cert.ReferenceIdeal.S800000x4x1 ![0, 1]
          Cert.ReferenceIdeal.Facts₀.bcast_S800000x4_S800000x4x1_0_1 s) (ix3 e h q)
      = s (ix2 e h) :=
  (broadcastInDim_apply _ _ _ (ix3 e h q) (ix3 e h (0 : Fin 1)) fun a =>
    match a with | ⟨0, _⟩ => rfl | ⟨1, _⟩ => rfl | ⟨2, _⟩ => rfl).trans
  (broadcastInDim_apply _ _ s (ix3 e h (0 : Fin 1)) (ix2 e h) fun a =>
    match a with | ⟨0, _⟩ => rfl | ⟨1, _⟩ => rfl)

theorem rep_edge_ker (s : Cert.KernelIdeal.S800000x4.Idx → α) (e : Fin 800000) (h : Fin 4) (q : Fin 64) :
    broadcastInDim Cert.KernelIdeal.S800000x4x64 ![0, 1]
        Cert.KernelIdeal.Facts₀.bcast_S800000x4_S800000x4x64_0_1 s (ix3 e h q)
      = s (ix2 e h) :=
  broadcastInDim_apply _ _ s (ix3 e h q) (ix2 e h) fun a =>
    match a with | ⟨0, _⟩ => rfl | ⟨1, _⟩ => rfl

theorem rep_node_ref (d : Cert.ReferenceIdeal.S50000x4.Idx → α) (p : Fin 50000) (h : Fin 4) (q : Fin 64) :
    broadcastInDim Cert.ReferenceIdeal.S50000x4x64 ![0, 1, 2]
        Cert.ReferenceIdeal.Facts₀.bcast_S50000x4x1_S50000x4x64_0_1_2
        (broadcastInDim Cert.ReferenceIdeal.S50000x4x1 ![0, 1]
          Cert.ReferenceIdeal.Facts₀.bcast_S50000x4_S50000x4x1_0_1 d) (ix3 p h q)
      = d (ix2 p h) :=
  (broadcastInDim_apply _ _ _ (ix3 p h q) (ix3 p h (0 : Fin 1)) fun a =>
    match a with | ⟨0, _⟩ => rfl | ⟨1, _⟩ => rfl | ⟨2, _⟩ => rfl).trans
  (broadcastInDim_apply _ _ d (ix3 p h (0 : Fin 1)) (ix2 p h) fun a =>
    match a with | ⟨0, _⟩ => rfl | ⟨1, _⟩ => rfl)

/-- As whole arrays: the reference's two-step laying of a per-head scalar over the channels is the kernel's
    one-step laying. -/
theorem rep_edge_eq (s : Cert.ReferenceIdeal.S800000x4.Idx → α) :
    broadcastInDim Cert.ReferenceIdeal.S800000x4x64 ![0, 1, 2]
        Cert.ReferenceIdeal.Facts₀.bcast_S800000x4x1_S800000x4x64_0_1_2
        (broadcastInDim Cert.ReferenceIdeal.S800000x4x1 ![0, 1]
          Cert.ReferenceIdeal.Facts₀.bcast_S800000x4_S800000x4x1_0_1 s)
      = broadcastInDim Cert.KernelIdeal.S800000x4x64 ![0, 1]
          Cert.KernelIdeal.Facts₀.bcast_S800000x4_S800000x4x64_0_1 s := by
  funext j
  obtain ⟨e, h, q, rfl⟩ : ∃ (e : Fin 800000) (h : Fin 4) (q : Fin 64), j = ix3 e h q := ⟨j 0, j 1, j 2, eq_ix3 j⟩
  exact (rep_edge_ref s e h q).trans (rep_edge_ker s e h q).symm

end Rep

/-! ## Gathering whole rows commutes with re-laying each row -/

section Gather
variable {α : Type} {w : Nat} [Cert.KernelIdeal.Facts₀] [Cert.ReferenceIdeal.Facts₀]

local notation "Kg" => Cert.KernelIdeal.gather_S50000x256_S800000x1_S800000x256_1_0_n_n_0_1_1256
local notation "Rg" => Cert.ReferenceIdeal.gather_S50000x4x64_S800000x1_S800000x4x64_12_0_n_n_0_1_1464

/-- The table row a gather copies into output row `e`: the start index `idx[e, 0]`, read signed and clamped
    into `[0, 49999]`. -/
def srcRow (idx : IVec Cert.KernelIdeal.S800000x1 w) (e : Fin 800000) : Fin 50000 :=
  ⟨min (idx (ix2 e (0 : Fin 1))).toInt.toNat (50000 - 1), by omega⟩

/-- Flat layout: output `(e, c)` reads the table at `(srcRow e, c)`. -/
theorem ker_operandIdx (idx : IVec Cert.KernelIdeal.S800000x1 w) (e : Fin 800000) (c : Fin 256) :
    GatherDims.operandIdx Kg (ix2 e c) idx = ix2 (srcRow idx e) c := by
  funext a
  refine Fin.ext ?_
  match a with
  | ⟨0, _⟩ =>
    show GatherDims.start Kg (ix2 e c) idx (0 : Fin 2) + GatherDims.batchCoord Kg (ix2 e c) (0 : Fin 2)
        + GatherDims.offCoord Kg (ix2 e c) (0 : Fin 2) = (srcRow idx e).val
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ GatherDims.startIndexMap Kg from List.mem_singleton.mpr rfl)]
    have hsi : GatherDims.siIdx Kg (ix2 e c) ⟨List.idxOf (0 : Fin 2) (GatherDims.startIndexMap Kg),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start Kg (ix2 e c) idx (1 : Fin 2) + GatherDims.batchCoord Kg (ix2 e c) (1 : Fin 2)
        + GatherDims.offCoord Kg (ix2 e c) (1 : Fin 2) = c.val
    rw [GatherDims.batchCoord_eq_zero _ _ _ List.not_mem_nil, Nat.add_zero]
    have hst : GatherDims.start Kg (ix2 e c) idx (1 : Fin 2) = 0 := by
      unfold GatherDims.start
      exact dif_neg (fun h => absurd (List.mem_singleton.mp h) (by decide))
    rw [hst, Nat.zero_add]
    unfold GatherDims.offCoord
    rw [dif_pos (show (1 : Fin 2) ∈ GatherDims.sKept Kg from
      (GatherDims.mem_sKept _ _).mpr ⟨fun h => absurd (List.mem_singleton.mp h) (by decide), List.not_mem_nil⟩)]
    rfl

/-- Layout by heads: output `(e, h, q)` reads the table at `(srcRow e, h, q)`. -/
theorem ref_operandIdx (idx : IVec Cert.KernelIdeal.S800000x1 w) (e : Fin 800000) (h : Fin 4) (q : Fin 64) :
    GatherDims.operandIdx Rg (ix3 e h q) idx = ix3 (srcRow idx e) h q := by
  funext a
  refine Fin.ext ?_
  match a with
  | ⟨0, _⟩ =>
    show GatherDims.start Rg (ix3 e h q) idx (0 : Fin 3) + GatherDims.batchCoord Rg (ix3 e h q) (0 : Fin 3)
        + GatherDims.offCoord Rg (ix3 e h q) (0 : Fin 3) = (srcRow idx e).val
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 3) ∈ GatherDims.startIndexMap Rg from List.mem_singleton.mpr rfl)]
    have hsi : GatherDims.siIdx Rg (ix3 e h q) ⟨List.idxOf (0 : Fin 3) (GatherDims.startIndexMap Rg),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start Rg (ix3 e h q) idx (1 : Fin 3) + GatherDims.batchCoord Rg (ix3 e h q) (1 : Fin 3)
        + GatherDims.offCoord Rg (ix3 e h q) (1 : Fin 3) = h.val
    rw [GatherDims.batchCoord_eq_zero _ _ _ List.not_mem_nil, Nat.add_zero]
    have hst : GatherDims.start Rg (ix3 e h q) idx (1 : Fin 3) = 0 := by
      unfold GatherDims.start
      exact dif_neg (fun h => absurd (List.mem_singleton.mp h) (by decide))
    rw [hst, Nat.zero_add]
    unfold GatherDims.offCoord
    rw [dif_pos (show (1 : Fin 3) ∈ GatherDims.sKept Rg from
      (GatherDims.mem_sKept _ _).mpr ⟨fun h => absurd (List.mem_singleton.mp h) (by decide), List.not_mem_nil⟩)]
    rfl
  | ⟨2, _⟩ =>
    show GatherDims.start Rg (ix3 e h q) idx (2 : Fin 3) + GatherDims.batchCoord Rg (ix3 e h q) (2 : Fin 3)
        + GatherDims.offCoord Rg (ix3 e h q) (2 : Fin 3) = q.val
    rw [GatherDims.batchCoord_eq_zero _ _ _ List.not_mem_nil, Nat.add_zero]
    have hst : GatherDims.start Rg (ix3 e h q) idx (2 : Fin 3) = 0 := by
      unfold GatherDims.start
      exact dif_neg (fun h => absurd (List.mem_singleton.mp h) (by decide))
    rw [hst, Nat.zero_add]
    unfold GatherDims.offCoord
    rw [dif_pos (show (2 : Fin 3) ∈ GatherDims.sKept Rg from
      (GatherDims.mem_sKept _ _).mpr ⟨fun h => absurd (List.mem_singleton.mp h) (by decide), List.not_mem_nil⟩)]
    rfl

/-- GATHER THEN RE-LAY = RE-LAY THEN GATHER. At output `(e, h, q)` both sides are the flat table's
    `(srcRow e, 64 h + q)`: the gather changes the row only, the reshape the position in the row only. -/
theorem gather_relay (x : Cert.KernelIdeal.S50000x256.Idx → α) (idx : IVec Cert.KernelIdeal.S800000x1 w)
    (hN : Cert.KernelIdeal.S50000x256.ShapeCasts Cert.ReferenceIdeal.S50000x4x64)
    (hE : Cert.KernelIdeal.S800000x256.ShapeCasts Cert.ReferenceIdeal.S800000x4x64) :
    Host.gather Rg (shapeCast Cert.ReferenceIdeal.S50000x4x64 x hN) idx
      = shapeCast Cert.ReferenceIdeal.S800000x4x64 (Host.gather Kg x idx) hE := by
  funext j
  obtain ⟨e, h, q, rfl⟩ : ∃ (e : Fin 800000) (h : Fin 4) (q : Fin 64), j = ix3 e h q := ⟨j 0, j 1, j 2, eq_ix3 j⟩
  show x (Shape.reshapeEquiv hN (GatherDims.operandIdx Rg (ix3 e h q) idx))
      = x (GatherDims.operandIdx Kg (Shape.reshapeEquiv hE (ix3 e h q)) idx)
  rw [ref_operandIdx, reshape_heads hN, reshape_heads hE, ker_operandIdx]

end Gather

/-! ## Scatter-adding whole rows commutes with re-laying each row -/

section Scatter
variable {w : Nat} [Cert.KernelIdeal.Facts₀] [Cert.ReferenceIdeal.Facts₀]

local notation "Ks" => Cert.KernelIdeal.scatter_S50000x256_S800000x1_S800000x256_1_0_0_1
local notation "Rs" => Cert.ReferenceIdeal.scatter_S50000x4x64_S800000x1_S800000x4x64_12_0_0_1

/-- A table axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- The table row update row `e` is added into: the start index `idx[e, 0]` read signed, NOT clamped (a row
    outside `[0, 49999]` is dropped). -/
def dstRow (idx : IVec Cert.KernelIdeal.S800000x1 w) (e : Fin 800000) : Int := (idx (ix2 e (0 : Fin 1))).toInt

/-! Flat layout: the start is the destination row on the row axis and zero on the column axis; the window
    coordinate is zero on the row axis and the column on the column axis. -/

theorem ker_start0 (idx : IVec Cert.KernelIdeal.S800000x1 w) (e : Fin 800000) (c : Fin 256) :
    ScatterDims.start Ks (ix2 e c) idx (0 : Fin 2) = dstRow idx e := by
  unfold ScatterDims.start
  rw [dif_pos (show (0 : Fin 2) ∈ ScatterDims.scatterDimsToOperandDims Ks from List.mem_singleton.mpr rfl)]
  have hsi : ScatterDims.siIdx Ks (ix2 e c) ⟨List.idxOf (0 : Fin 2) (ScatterDims.scatterDimsToOperandDims Ks),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem ker_start1 (idx : IVec Cert.KernelIdeal.S800000x1 w) (e : Fin 800000) (c : Fin 256) :
    ScatterDims.start Ks (ix2 e c) idx (1 : Fin 2) = 0 := by
  unfold ScatterDims.start
  exact dif_neg (fun h => absurd (List.mem_singleton.mp h) (by decide))

theorem ker_window0 (e : Fin 800000) (c : Fin 256) : ScatterDims.window Ks (ix2 e c) (0 : Fin 2) = 0 := by
  unfold ScatterDims.window
  exact dif_neg (fun h => (scatter_mem_sKept _ _).mp h (List.mem_singleton.mpr rfl))

theorem ker_window1 (e : Fin 800000) (c : Fin 256) : ScatterDims.window Ks (ix2 e c) (1 : Fin 2) = c.val := by
  unfold ScatterDims.window
  rw [dif_pos ((scatter_mem_sKept _ _).mpr (fun h => absurd (List.mem_singleton.mp h) (by decide)))]
  rfl

/-- Flat layout: update `(e, c)` lands at `(dstRow e, c)` when that row is in the table, and is dropped when
    it is not. -/
theorem ker_resultIdx (idx : IVec Cert.KernelIdeal.S800000x1 w) (e : Fin 800000) (c : Fin 256) :
    ScatterDims.resultIdx? Ks (ix2 e c) idx
      = if hv : 0 ≤ dstRow idx e ∧ dstRow idx e < 50000 then
          some (ix2 (⟨(dstRow idx e).toNat, by omega⟩ : Fin 50000) c)
        else none := by
  unfold ScatterDims.resultIdx?
  by_cases hv : 0 ≤ dstRow idx e ∧ dstRow idx e < 50000
  · have H : ∀ a : Fin 2, 0 ≤ ScatterDims.start Ks (ix2 e c) idx a + ScatterDims.window Ks (ix2 e c) a
        ∧ ScatterDims.start Ks (ix2 e c) idx a + ScatterDims.window Ks (ix2 e c) a
          < Cert.KernelIdeal.S50000x256.size a := fun a =>
      match a with
      | ⟨0, _⟩ => by
        show 0 ≤ ScatterDims.start Ks (ix2 e c) idx (0 : Fin 2) + ((ScatterDims.window Ks (ix2 e c) (0 : Fin 2) : Nat) : Int)
          ∧ ScatterDims.start Ks (ix2 e c) idx (0 : Fin 2) + ((ScatterDims.window Ks (ix2 e c) (0 : Fin 2) : Nat) : Int) < (50000 : Nat)
        rw [ker_start0, ker_window0]
        omega
      | ⟨1, _⟩ => by
        show 0 ≤ ScatterDims.start Ks (ix2 e c) idx (1 : Fin 2) + ((ScatterDims.window Ks (ix2 e c) (1 : Fin 2) : Nat) : Int)
          ∧ ScatterDims.start Ks (ix2 e c) idx (1 : Fin 2) + ((ScatterDims.window Ks (ix2 e c) (1 : Fin 2) : Nat) : Int) < (256 : Nat)
        rw [ker_start1, ker_window1]
        omega
    rw [dif_pos H, dif_pos hv]
    refine congrArg some (funext fun a => Fin.ext ?_)
    match a with
    | ⟨0, _⟩ =>
      show (ScatterDims.start Ks (ix2 e c) idx (0 : Fin 2) + ((ScatterDims.window Ks (ix2 e c) (0 : Fin 2) : Nat) : Int)).toNat
        = (dstRow idx e).toNat
      rw [ker_start0, ker_window0]
      simp
    | ⟨1, _⟩ =>
      show (ScatterDims.start Ks (ix2 e c) idx (1 : Fin 2) + ((ScatterDims.window Ks (ix2 e c) (1 : Fin 2) : Nat) : Int)).toNat
        = c.val
      rw [ker_start1, ker_window1]
      simp
  · rw [dif_neg hv]
    refine dif_neg (fun H => hv ?_)
    have h0 := H (0 : Fin 2)
    have h0' : 0 ≤ ScatterDims.start Ks (ix2 e c) idx (0 : Fin 2) + ((ScatterDims.window Ks (ix2 e c) (0 : Fin 2) : Nat) : Int)
          ∧ ScatterDims.start Ks (ix2 e c) idx (0 : Fin 2) + ((ScatterDims.window Ks (ix2 e c) (0 : Fin 2) : Nat) : Int) < (50000 : Nat) := h0
    rw [ker_start0, ker_window0] at h0'
    omega

/-! Layout by heads: the same on the row axis; zero start and the head / the channel as window coordinate on
    the two axes within a row. -/

theorem ref_start0 (idx : IVec Cert.KernelIdeal.S800000x1 w) (e : Fin 800000) (h : Fin 4) (q : Fin 64) :
    ScatterDims.start Rs (ix3 e h q) idx (0 : Fin 3) = dstRow idx e := by
  unfold ScatterDims.start
  rw [dif_pos (show (0 : Fin 3) ∈ ScatterDims.scatterDimsToOperandDims Rs from List.mem_singleton.mpr rfl)]
  have hsi : ScatterDims.siIdx Rs (ix3 e h q) ⟨List.idxOf (0 : Fin 3) (ScatterDims.scatterDimsToOperandDims Rs),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem ref_start1 (idx : IVec Cert.KernelIdeal.S800000x1 w) (e : Fin 800000) (h : Fin 4) (q : Fin 64) :
    ScatterDims.start Rs (ix3 e h q) idx (1 : Fin 3) = 0 := by
  unfold ScatterDims.start
  exact dif_neg (fun h => absurd (List.mem_singleton.mp h) (by decide))

theorem ref_start2 (idx : IVec Cert.KernelIdeal.S800000x1 w) (e : Fin 800000) (h : Fin 4) (q : Fin 64) :
    ScatterDims.start Rs (ix3 e h q) idx (2 : Fin 3) = 0 := by
  unfold ScatterDims.start
  exact dif_neg (fun h => absurd (List.mem_singleton.mp h) (by decide))

theorem ref_window0 (e : Fin 800000) (h : Fin 4) (q : Fin 64) :
    ScatterDims.window Rs (ix3 e h q) (0 : Fin 3) = 0 := by
  unfold ScatterDims.window
  exact dif_neg (fun h => (scatter_mem_sKept _ _).mp h (List.mem_singleton.mpr rfl))

theorem ref_window1 (e : Fin 800000) (h : Fin 4) (q : Fin 64) :
    ScatterDims.window Rs (ix3 e h q) (1 : Fin 3) = h.val := by
  unfold ScatterDims.window
  rw [dif_pos ((scatter_mem_sKept _ _).mpr (fun h => absurd (List.mem_singleton.mp h) (by decide)))]
  rfl

theorem ref_window2 (e : Fin 800000) (h : Fin 4) (q : Fin 64) :
    ScatterDims.window Rs (ix3 e h q) (2 : Fin 3) = q.val := by
  unfold ScatterDims.window
  rw [dif_pos ((scatter_mem_sKept _ _).mpr (fun h => absurd (List.mem_singleton.mp h) (by decide)))]
  rfl

/-- Layout by heads: update `(e, h, q)` lands at `(dstRow e, h, q)` when that row is in the table, and is
    dropped when it is not. -/
theorem ref_resultIdx (idx : IVec Cert.KernelIdeal.S800000x1 w) (e : Fin 800000) (h : Fin 4) (q : Fin 64) :
    ScatterDims.resultIdx? Rs (ix3 e h q) idx
      = if hv : 0 ≤ dstRow idx e ∧ dstRow idx e < 50000 then
          some (ix3 (⟨(dstRow idx e).toNat, by omega⟩ : Fin 50000) h q)
        else none := by
  unfold ScatterDims.resultIdx?
  by_cases hv : 0 ≤ dstRow idx e ∧ dstRow idx e < 50000
  · have H : ∀ a : Fin 3, 0 ≤ ScatterDims.start Rs (ix3 e h q) idx a + ScatterDims.window Rs (ix3 e h q) a
        ∧ ScatterDims.start Rs (ix3 e h q) idx a + ScatterDims.window Rs (ix3 e h q) a
          < Cert.ReferenceIdeal.S50000x4x64.size a := fun a =>
      match a with
      | ⟨0, _⟩ => by
        show 0 ≤ ScatterDims.start Rs (ix3 e h q) idx (0 : Fin 3) + ((ScatterDims.window Rs (ix3 e h q) (0 : Fin 3) : Nat) : Int)
          ∧ ScatterDims.start Rs (ix3 e h q) idx (0 : Fin 3) + ((ScatterDims.window Rs (ix3 e h q) (0 : Fin 3) : Nat) : Int) < (50000 : Nat)
        rw [ref_start0, ref_window0]
        omega
      | ⟨1, _⟩ => by
        show 0 ≤ ScatterDims.start Rs (ix3 e h q) idx (1 : Fin 3) + ((ScatterDims.window Rs (ix3 e h q) (1 : Fin 3) : Nat) : Int)
          ∧ ScatterDims.start Rs (ix3 e h q) idx (1 : Fin 3) + ((ScatterDims.window Rs (ix3 e h q) (1 : Fin 3) : Nat) : Int) < (4 : Nat)
        rw [ref_start1, ref_window1]
        omega
      | ⟨2, _⟩ => by
        show 0 ≤ ScatterDims.start Rs (ix3 e h q) idx (2 : Fin 3) + ((ScatterDims.window Rs (ix3 e h q) (2 : Fin 3) : Nat) : Int)
          ∧ ScatterDims.start Rs (ix3 e h q) idx (2 : Fin 3) + ((ScatterDims.window Rs (ix3 e h q) (2 : Fin 3) : Nat) : Int) < (64 : Nat)
        rw [ref_start2, ref_window2]
        omega
    rw [dif_pos H, dif_pos hv]
    refine congrArg some (funext fun a => Fin.ext ?_)
    match a with
    | ⟨0, _⟩ =>
      show (ScatterDims.start Rs (ix3 e h q) idx (0 : Fin 3) + ((ScatterDims.window Rs (ix3 e h q) (0 : Fin 3) : Nat) : Int)).toNat
        = (dstRow idx e).toNat
      rw [ref_start0, ref_window0]
      simp
    | ⟨1, _⟩ =>
      show (ScatterDims.start Rs (ix3 e h q) idx (1 : Fin 3) + ((ScatterDims.window Rs (ix3 e h q) (1 : Fin 3) : Nat) : Int)).toNat
        = h.val
      rw [ref_start1, ref_window1]
      simp
    | ⟨2, _⟩ =>
      show (ScatterDims.start Rs (ix3 e h q) idx (2 : Fin 3) + ((ScatterDims.window Rs (ix3 e h q) (2 : Fin 3) : Nat) : Int)).toNat
        = q.val
      rw [ref_start2, ref_window2]
      simp
  · rw [dif_neg hv]
    refine dif_neg (fun H => hv ?_)
    have h0 : 0 ≤ ScatterDims.start Rs (ix3 e h q) idx (0 : Fin 3) + ((ScatterDims.window Rs (ix3 e h q) (0 : Fin 3) : Nat) : Int)
          ∧ ScatterDims.start Rs (ix3 e h q) idx (0 : Fin 3) + ((ScatterDims.window Rs (ix3 e h q) (0 : Fin 3) : Nat) : Int) < (50000 : Nat) :=
      H (0 : Fin 3)
    rw [ref_start0, ref_window0] at h0
    omega

/-- WHERE AN UPDATE LANDS COMMUTES WITH THE RESHAPE: the flat update index matched with `j` lands at the flat
    table index matched with where `j` lands, and is dropped exactly when `j` is. -/
theorem resultIdx_relay (idx : IVec Cert.KernelIdeal.S800000x1 w)
    (hN : Cert.KernelIdeal.S50000x256.ShapeCasts Cert.ReferenceIdeal.S50000x4x64)
    (hE : Cert.KernelIdeal.S800000x256.ShapeCasts Cert.ReferenceIdeal.S800000x4x64)
    (j : Cert.ReferenceIdeal.S800000x4x64.Idx) :
    ScatterDims.resultIdx? Ks (Shape.reshapeEquiv hE j) idx
      = (ScatterDims.resultIdx? Rs j idx).map (Shape.reshapeEquiv hN) := by
  obtain ⟨e, h, q, rfl⟩ : ∃ (e : Fin 800000) (h : Fin 4) (q : Fin 64), j = ix3 e h q := ⟨j 0, j 1, j 2, eq_ix3 j⟩
  rw [reshape_heads hE, ker_resultIdx, ref_resultIdx]
  by_cases hv : 0 ≤ dstRow idx e ∧ dstRow idx e < 50000
  · rw [dif_pos hv, dif_pos hv]
    exact congrArg some (reshape_heads hN _ h q).symm
  · rw [dif_neg hv, dif_neg hv]
    rfl

/-- SCATTER-ADD THEN RE-LAY = RE-LAY THEN SCATTER-ADD. At table index `i` both sides are the table's element
    plus the sum of the updates landing there; the reshape of the updates is a bijection between the update
    indices landing at `i` (layout by heads) and those landing at the flat index matched with `i`
    (`resultIdx_relay`), and it carries each update to itself, so the two sums have the same terms. -/
theorem scatterAdd_relay {φ : FTy} (z : FVec Ideal Cert.KernelIdeal.S50000x256 φ)
    (idx : IVec Cert.KernelIdeal.S800000x1 w) (u : FVec Ideal Cert.KernelIdeal.S800000x256 φ)
    (hN : Cert.KernelIdeal.S50000x256.ShapeCasts Cert.ReferenceIdeal.S50000x4x64)
    (hE : Cert.KernelIdeal.S800000x256.ShapeCasts Cert.ReferenceIdeal.S800000x4x64) :
    Host.scatterAdd (F := Ideal) Rs (shapeCast Cert.ReferenceIdeal.S50000x4x64 z hN) idx
        (shapeCast Cert.ReferenceIdeal.S800000x4x64 u hE)
      = shapeCast Cert.ReferenceIdeal.S50000x4x64 (Host.scatterAdd (F := Ideal) Ks z idx u) hN := by
  funext i
  show Ideal.hostScatterAdd Rs (shapeCast Cert.ReferenceIdeal.S50000x4x64 z hN) idx
        (shapeCast Cert.ReferenceIdeal.S800000x4x64 u hE) i
      = Ideal.hostScatterAdd Ks z idx u (Shape.reshapeEquiv hN i)
  unfold Ideal.hostScatterAdd
  refine congrArg (z (Shape.reshapeEquiv hN i) + ·) ?_
  refine Finset.sum_equiv (Shape.reshapeEquiv hE) (fun j => ?_) (fun j _ => rfl)
  rw [Finset.mem_filter, Finset.mem_filter, resultIdx_relay idx hN hE j]
  constructor
  · rintro ⟨_, h⟩
    exact ⟨Finset.mem_univ _, by rw [h]; rfl⟩
  · rintro ⟨_, h⟩
    exact ⟨Finset.mem_univ _, Option.map_injective (Shape.reshapeEquiv hN).injective h⟩

end Scatter

end Cert.Relay

end
-- ==== Proof.AggRelay.lean ====
import proofs.«129437_j77214922047879_1_alg».proof.Proof.Relay
import proofs.«129437_j77214922047879_1_alg».proof.Proof.RefStages
import proofs.«129437_j77214922047879_1_alg».proof.Proof.KernelStages
import proofs.«129437_j77214922047879_1_alg».proof.Proof.Spec

/-!
# The edge stage on re-laid rows is the re-laid quotient of the two scatter-adds

One program runs the edge stage on node rows kept as `[50000, 4, 64]` (4 heads of 64 channels), the other on
the flat rows `[50000, 256]`. The index chains and the edge weights do not see the rows at all: they are the
same terms in both. The weighted sum of rows per node is a gather of whole rows, a product index by index
with each edge's per-head weight laid over its 64 channels, and a scatter-add of whole rows into a zero
table: each of these commutes with re-laying every row, so the sum over the rows by heads is the re-laying of
the sum over the flat rows. The final quotient divides entry `(p, h, q)` by the summed weight of node `p`,
head `h`; on the flat row that is column `64 h + q` divided by the weight of head `(64 h + q) / 64 = h`.
-/

noncomputable section

namespace Cert.AggRelay

open Idealize.ShloMosaic Idealize.ShloMosaic.ValueIdx

/-! ## The index chains, the weights and the summed weights are the same terms -/

section Same
variable {F : FTy → Type} [FloatOps F]

theorem src_eq (e : Cert.KernelIdeal.Stage.Ct F Cert.KernelIdeal.S2x800000 .i32) :
    Cert.ReferenceIdeal.Stage.src (F := F) e = Cert.KernelIdeal.Stage.src (F := F) e := rfl

theorem dst_eq (e : Cert.KernelIdeal.Stage.Ct F Cert.KernelIdeal.S2x800000 .i32) :
    Cert.ReferenceIdeal.Stage.dst (F := F) e = Cert.KernelIdeal.Stage.dst (F := F) e := rfl

theorem wrap_eq (i : Cert.KernelIdeal.Stage.Ct F Cert.KernelIdeal.S800000 .i32) :
    Cert.ReferenceIdeal.Stage.wrap (F := F) i = Cert.KernelIdeal.Stage.wrap (F := F) i := rfl

theorem raw_eq (i : Cert.KernelIdeal.Stage.Ct F Cert.KernelIdeal.S800000 .i32) :
    Cert.ReferenceIdeal.Stage.raw (F := F) i = Cert.KernelIdeal.Stage.raw (F := F) i := rfl

theorem wgt_eq (sl sr : Cert.KernelIdeal.Stage.Ct F Cert.KernelIdeal.S50000x4 .f32)
    (e : Cert.KernelIdeal.Stage.Ct F Cert.KernelIdeal.S2x800000 .i32) :
    Cert.ReferenceIdeal.Stage.wgt (F := F) sl sr e
      = Cert.KernelIdeal.Stage.wgt (F := F) sl sr (Cert.KernelIdeal.Stage.src (F := F) e)
          (Cert.KernelIdeal.Stage.dst (F := F) e) := rfl

theorem den_eq (s : Cert.KernelIdeal.Stage.Ct F Cert.KernelIdeal.S800000x4 .f32)
    (e : Cert.KernelIdeal.Stage.Ct F Cert.KernelIdeal.S2x800000 .i32) :
    Cert.ReferenceIdeal.Stage.den (F := F) s e
      = Cert.KernelIdeal.Stage.den (F := F) s (Cert.KernelIdeal.Stage.src (F := F) e) := rfl

end Same

/-! ## The weighted sum of rows per node -/

section Num

/-- An edge's 4 weights laid over its 64 channels by heads is the re-laying of the same weights laid over
    the flat row: the flat laying is, by its definition, the reshape of the laying by heads, and a reshape
    there and back is the identity. -/
theorem rep_relay (s : Cert.KernelIdeal.Stage.Ct Ideal Cert.KernelIdeal.S800000x4 .f32)
    (hE : Cert.KernelIdeal.S800000x256.ShapeCasts Cert.ReferenceIdeal.S800000x4x64) :
    broadcastInDim Cert.KernelIdeal.S800000x4x64 ![0, 1]
        Cert.KernelIdeal.Facts₀.bcast_S800000x4_S800000x4x64_0_1 s
      = shapeCast Cert.ReferenceIdeal.S800000x4x64 (Cert.KernelIdeal.Stage.rep (F := Ideal) s) hE :=
  (shapeCast_shapeCast _ Cert.KernelIdeal.Facts₀.shapeCasts_S800000x4x64_S800000x256 hE).symm

/-- THE WEIGHTED SUM ON ROWS BY HEADS IS THE RE-LAYING OF THE WEIGHTED SUM ON FLAT ROWS. -/
theorem num_relay (H : Cert.KernelIdeal.Stage.Ct Ideal Cert.KernelIdeal.S50000x256 .f32)
    (s : Cert.KernelIdeal.Stage.Ct Ideal Cert.KernelIdeal.S800000x4 .f32)
    (e : Cert.KernelIdeal.Stage.Ct Ideal Cert.KernelIdeal.S2x800000 .i32)
    (hN : Cert.KernelIdeal.S50000x256.ShapeCasts Cert.ReferenceIdeal.S50000x4x64) :
    Cert.ReferenceIdeal.Stage.num (F := Ideal) (shapeCast Cert.ReferenceIdeal.S50000x4x64 H hN) s e
      = shapeCast Cert.ReferenceIdeal.S50000x4x64
          (Cert.KernelIdeal.Stage.num (F := Ideal) H s (Cert.KernelIdeal.Stage.src (F := Ideal) e)
            (Cert.KernelIdeal.Stage.dst (F := Ideal) e)) hN := by
  have hE : Cert.KernelIdeal.S800000x256.ShapeCasts Cert.ReferenceIdeal.S800000x4x64 :=
    Cert.KernelIdeal.Facts₀.shapeCasts_S800000x4x64_S800000x256.symm
  unfold Cert.ReferenceIdeal.Stage.num Cert.KernelIdeal.Stage.num
  rw [src_eq, dst_eq, wrap_eq, raw_eq, Cert.Relay.gather_relay H _ hN hE, Cert.Relay.rep_edge_eq s,
    rep_relay s hE, Cert.Relay.mulf_relay, Cert.Relay.zero_relay hN]
  exact Cert.Relay.scatterAdd_relay _ _ _ hN hE

end Num

/-! ## The quotient, head by head -/

section Quotient

/-- Dividing entry `(p, h, q)` of the re-laid sums by the summed weight of node `p`, head `h` (laid over the
    64 channels) is the re-laying of dividing flat entry `(p, c)` by the summed weight of head `c / 64`:
    at `c = 64 h + q` that head is `h`. -/
theorem div_relay (NUM : Cert.Spec.SNC.Idx → EReal) (DEN : Cert.Spec.SNH.Idx → EReal)
    (hN : Cert.KernelIdeal.S50000x256.ShapeCasts Cert.ReferenceIdeal.S50000x4x64) :
    Host.divf (F := Ideal) (φ := .f32) (shapeCast Cert.ReferenceIdeal.S50000x4x64 NUM hN)
        (broadcastInDim Cert.ReferenceIdeal.S50000x4x64 ![0, 1, 2]
          Cert.ReferenceIdeal.Facts₀.bcast_S50000x4x1_S50000x4x64_0_1_2
          (broadcastInDim Cert.ReferenceIdeal.S50000x4x1 ![0, 1]
            Cert.ReferenceIdeal.Facts₀.bcast_S50000x4_S50000x4x1_0_1 DEN))
      = shapeCast Cert.ReferenceIdeal.S50000x4x64 (Cert.Spec.agg NUM DEN) hN := by
  funext j
  obtain ⟨p, h, q, rfl⟩ : ∃ (p : Fin 50000) (h : Fin 4) (q : Fin 64), j = ix3 p h q := ⟨j 0, j 1, j 2, eq_ix3 j⟩
  refine (congrArg₂ Ideal.div (Cert.Relay.relay_apply NUM hN p h q) (Cert.Relay.rep_node_ref DEN p h q)).trans ?_
  refine Eq.trans ?_ (Cert.Relay.relay_apply (Cert.Spec.agg NUM DEN) hN p h q).symm
  show Ideal.div (NUM (ix2 p (Cert.Spec.col h q))) (DEN (ix2 p h))
    = Ideal.div (NUM (ix2 p (Cert.Spec.col h q))) (DEN (ix2 p (Cert.Spec.headOf (Cert.Spec.col h q))))
  rw [Cert.Spec.headOf_col]

end Quotient

/-! ## The whole edge stage -/

/-- THE EDGE STAGE ON THE RE-LAID ROWS IS THE RE-LAID QUOTIENT OF THE TWO SCATTER-ADDS ON THE FLAT ROWS. -/
theorem agg_relay (H : Cert.KernelIdeal.Stage.Ct Ideal Cert.KernelIdeal.S50000x256 .f32)
    (sl sr : Cert.KernelIdeal.Stage.Ct Ideal Cert.KernelIdeal.S50000x4 .f32)
    (e : Cert.KernelIdeal.Stage.Ct Ideal Cert.KernelIdeal.S2x800000 .i32)
    (hN : Cert.KernelIdeal.S50000x256.ShapeCasts Cert.ReferenceIdeal.S50000x4x64) :
    Cert.ReferenceIdeal.Stage.agg (F := Ideal) (shapeCast Cert.ReferenceIdeal.S50000x4x64 H hN) sl sr e
      = shapeCast Cert.ReferenceIdeal.S50000x4x64 (Cert.Spec.agg
          (Cert.KernelIdeal.Stage.num (F := Ideal) H
            (Cert.KernelIdeal.Stage.wgt (F := Ideal) sl sr (Cert.KernelIdeal.Stage.src (F := Ideal) e)
              (Cert.KernelIdeal.Stage.dst (F := Ideal) e))
            (Cert.KernelIdeal.Stage.src (F := Ideal) e) (Cert.KernelIdeal.Stage.dst (F := Ideal) e))
          (Cert.KernelIdeal.Stage.den (F := Ideal)
            (Cert.KernelIdeal.Stage.wgt (F := Ideal) sl sr (Cert.KernelIdeal.Stage.src (F := Ideal) e)
              (Cert.KernelIdeal.Stage.dst (F := Ideal) e))
            (Cert.KernelIdeal.Stage.src (F := Ideal) e))) hN := by
  unfold Cert.ReferenceIdeal.Stage.agg
  rw [wgt_eq, den_eq, num_relay H _ e hN]
  exact div_relay _ _ hN

/-! ## The flat reading of the stage's result, and the re-laying, as the stage definitions spell them -/

theorem flat_relay (A : Cert.KernelIdeal.Stage.Ct Ideal Cert.KernelIdeal.S50000x256 .f32)
    (hN : Cert.KernelIdeal.S50000x256.ShapeCasts Cert.ReferenceIdeal.S50000x4x64) :
    Cert.ReferenceIdeal.Stage.flat (F := Ideal) (shapeCast Cert.ReferenceIdeal.S50000x4x64 A hN) = A :=
  shapeCast_shapeCast A hN Cert.ReferenceIdeal.Facts₀.shapeCasts_S50000x4x64_S50000x256

theorem relay_eq (A : Cert.KernelIdeal.Stage.Ct Ideal Cert.KernelIdeal.S50000x256 .f32)
    (hN : Cert.KernelIdeal.S50000x256.ShapeCasts Cert.ReferenceIdeal.S50000x4x64) :
    Cert.ReferenceIdeal.Stage.relay (F := Ideal) A = shapeCast Cert.ReferenceIdeal.S50000x4x64 A hN := rfl

/-! ## The attention halves flattened, and the transposed weights -/

theorem attLf_eq (att : Cert.KernelIdeal.Stage.Ct Ideal Cert.KernelIdeal.S1x4x128 .f32)
    (h : Cert.ReferenceIdeal.S4x64.ShapeCasts Cert.ReferenceIdeal.S256) :
    Cert.KernelIdeal.Stage.attLf (F := Ideal) att
      = shapeCast Cert.ReferenceIdeal.S256 (Cert.ReferenceIdeal.Stage.attL (F := Ideal) att) h := rfl

theorem attRf_eq (att : Cert.KernelIdeal.Stage.Ct Ideal Cert.KernelIdeal.S1x4x128 .f32)
    (h : Cert.ReferenceIdeal.S4x64.ShapeCasts Cert.ReferenceIdeal.S256) :
    Cert.KernelIdeal.Stage.attRf (F := Ideal) att
      = shapeCast Cert.ReferenceIdeal.S256 (Cert.ReferenceIdeal.Stage.attR (F := Ideal) att) h := rfl

theorem wt0_eq (w : Cert.KernelIdeal.Stage.Ct Ideal Cert.KernelIdeal.S256x128 .f32) :
    Cert.KernelIdeal.Stage.wt0 (F := Ideal) w
      = transpose Cert.ReferenceIdeal.S128x256 [1, 0] w
          Cert.ReferenceIdeal.Facts₀.transposes_S256x128_S128x256_1_0 := rfl

theorem wt1_eq (w : Cert.KernelIdeal.Stage.Ct Ideal Cert.KernelIdeal.S256x256 .f32) :
    Cert.KernelIdeal.Stage.wt1 (F := Ideal) w
      = transpose Cert.ReferenceIdeal.S256x256 [1, 0] w
          Cert.ReferenceIdeal.Facts₀.transposes_S256x256_S256x256_1_0 := rfl

end Cert.AggRelay

end
-- ==== Proof.RefReadLin.lean ====
/-
  The reference's dense layers read entry by entry at the ideal values: each is the program-free x · wt + b of the
  specification, the transposed weight kept as one whole array.
-/
import proofs.«129437_j77214922047879_1_alg».proof.Proof.RefStages
import proofs.«129437_j77214922047879_1_alg».proof.Proof.Spec
import proofs.«129437_j77214922047879_1_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Read2

open Cert.ReferenceIdeal Cert.ReferenceIdeal.Facts₀ Cert.ReferenceIdeal.Facts Idealize.ShloMosaic Idealize.ShloMosaic.ValueIdx

/-! ## The dense layers

Entry (p, c) of a dense layer is the sum over the inner column k of x (p, k) times the transposed weight at (k, c),
plus the bias at c: the bias row is laid first as a [1, 256] row and then over the 50000 rows, and both layings
read the bias at the column alone. -/

/-- The bias row laid over the rows reads, at (p, c), the bias at c. -/
theorem biasRows_apply {F : FTy → Type} [FloatOps F] (b : Stage.Ct F S256 .f32) (p : Fin 50000) (c : Fin 256) :
    Stage.biasRows b (ix2 p c) = b (ix1 c) := by
  unfold Stage.biasRows
  refine (broadcastInDim_apply _ bcast_S1x256_S50000x256_0_1 _ (ix2 p c) (ix2 (0 : Fin 1) c) (fun a => ?_)).trans ?_
  · match a with
    | ⟨0, _⟩ => show 0 = if (1 : Nat) = 1 then 0 else p.val; rw [if_pos rfl]
    | ⟨1, _⟩ => show c.val = if (256 : Nat) = 1 then 0 else c.val; rw [if_neg (by decide)]
  · exact broadcastInDim_apply _ bcast_S256_S1x256_1 b (ix2 (0 : Fin 1) c) (ix1 c) (fun a => match a with
      | ⟨0, _⟩ => by show c.val = if (256 : Nat) = 1 then 0 else c.val; rw [if_neg (by decide)])

/-- The first layer's dimension numbers are the plain "rows by inner, inner by columns" ones. -/
theorem dot0_plain : dot_S50000x128_S128x256_S50000x256_1_0_0_1_n_n = DotDims.plain 50000 128 256 := rfl

/-- The second layer's likewise. -/
theorem dot1_plain : dot_S50000x256_S256x256_S50000x256_1_0_0_1_n_n = DotDims.plain 50000 256 256 := rfl

/-- The first dense layer is x · wt + b entry by entry, wt the transposed weight kept whole. -/
theorem lin0_eq (x : Stage.Ct Ideal S50000x128 .f32) (w : Stage.Ct Ideal S256x128 .f32) (b : Stage.Ct Ideal S256 .f32) :
    Stage.lin0 (F := Ideal) x w b
      = Cert.Spec.lin (K := 128) x (transpose S128x256 [1, 0] w transposes_S256x128_S128x256_1_0) b := by
  funext i
  obtain ⟨p, c, rfl⟩ : ∃ (p : Fin 50000) (c : Fin 256), i = ix2 p c := ⟨i 0, i 1, eq_ix2 i⟩
  unfold Stage.lin0 Cert.Spec.lin
  rw [dot0_plain]
  exact (addf_apply _ _ (ix2 p c)).trans
    (congrArg₂ (· + ·) (Cert.Bridge.dotGeneral_plain_apply 50000 128 256 none .single x _ p c) (biasRows_apply b p c))

/-- The second dense layer likewise, with 256 inner columns. -/
theorem lin1_eq (x : Stage.Ct Ideal S50000x256 .f32) (w : Stage.Ct Ideal S256x256 .f32) (b : Stage.Ct Ideal S256 .f32) :
    Stage.lin1 (F := Ideal) x w b
      = Cert.Spec.lin (K := 256) x (transpose S256x256 [1, 0] w transposes_S256x256_S256x256_1_0) b := by
  funext i
  obtain ⟨p, c, rfl⟩ : ∃ (p : Fin 50000) (c : Fin 256), i = ix2 p c := ⟨i 0, i 1, eq_ix2 i⟩
  unfold Stage.lin1 Cert.Spec.lin
  rw [dot1_plain]
  exact (addf_apply _ _ (ix2 p c)).trans
    (congrArg₂ (· + ·) (Cert.Bridge.dotGeneral_plain_apply 50000 256 256 none .single x _ p c) (biasRows_apply b p c))

end Cert.ReferenceIdeal.Read2

end
-- ==== Proof.RefRead.lean ====
/-
  The reference's remaining stages read entry by entry at the ideal values: the attention scores, the layer
  normalisation and the mean over the heads are each the program-free function of the specification. A row of 256
  columns is 4 heads of 64 channels: column 64 h + q is channel q of head h, in the flat and in the re-laid array alike.
-/
import proofs.«129437_j77214922047879_1_alg».proof.Proof.RefStages
import proofs.«129437_j77214922047879_1_alg».proof.Proof.Spec
import proofs.«129437_j77214922047879_1_alg».proof.Proof.RefReadLin
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Read2

open Cert.ReferenceIdeal Cert.ReferenceIdeal.Facts₀ Cert.ReferenceIdeal.Facts Idealize.ShloMosaic Idealize.ShloMosaic.ValueIdx

/-! ## The 4 × 64 layout of a row

A [50000, 256] array re-laid as [50000, 4, 64] holds, at (p, h, q), the entry (p, 64 h + q): both positions are
256 p + 64 h + q in row-major order. Likewise a [4, 64] array flattened to [256] holds at 64 h + q its entry (h, q). -/

/-- The re-laid array at (p, h, q) is the flat one at (p, 64 h + q). -/
theorem cast3_apply {α : Type} (a : S50000x256.Idx → α) (hc : S50000x256.ShapeCasts S50000x4x64)
    (p : Fin 50000) (h : Fin 4) (q : Fin 64) :
    shapeCast S50000x4x64 a hc (ix3 p h q) = a (ix2 p (Cert.Spec.col h q)) :=
  shapeCast_apply a hc (ix3 p h q) (ix2 p (Cert.Spec.col h q)) (by
    rw [Shape.rowMajor_val_two, Shape.rowMajor_val_three]
    show p.val * 256 + (64 * h.val + q.val) = (p.val * 4 + h.val) * 64 + q.val
    omega)

/-- The flattened attention half at 64 h + q is the [4, 64] one at (h, q). -/
theorem castAtt_apply {α : Type} (att : S4x64.Idx → α) (hc : S4x64.ShapeCasts S256) (h : Fin 4) (q : Fin 64) :
    shapeCast S256 att hc (ix1 (Cert.Spec.col h q)) = att (ix2 h q) :=
  shapeCast_apply att hc (ix1 (Cert.Spec.col h q)) (ix2 h q) (by
    rw [Shape.rowMajor_val_two, Shape.rowMajor_val_one]
    show h.val * 64 + q.val = 64 * h.val + q.val
    omega)

/-- The relay of a flat array, read at (p, h, q). -/
theorem relay_apply {F : FTy → Type} [FloatOps F] (a : Stage.Ct F S50000x256 .f32) (p : Fin 50000) (h : Fin 4) (q : Fin 64) :
    Stage.relay a (ix3 p h q) = a (ix2 p (Cert.Spec.col h q)) :=
  cast3_apply a shapeCasts_S50000x256_S50000x4x64 p h q

/-! ## The mean over the heads

The reduction over the head axis of the [50000, 4, 64] array is, at (p, q), zero plus the sum over the 4 heads of the
entries (p, h, q), which are the flat entries (p, 64 h + q); the quotient by the word 4.0 is the specification's. -/

theorem headMean_eq (a : Stage.Ct Ideal S50000x256 .f32) (hN : S50000x256.ShapeCasts S50000x4x64) :
    Stage.headMean (F := Ideal) (shapeCast S50000x4x64 a hN) = Cert.Spec.headR a := by
  funext i
  obtain ⟨p, q, rfl⟩ : ∃ (p : Fin 50000) (q : Fin 64), i = ix2 p q := ⟨i 0, i 1, eq_ix2 i⟩
  unfold Stage.headMean Cert.Spec.headR
  show Ideal.div (Ideal.hostReduceAdd reducesTo_S50000x4x64_S50000x64_d1 (shapeCast S50000x4x64 a hN)
      (Ideal.ofBits .f32 0x00000000#32) (ix2 p q)) Cert.Spec.fourW = _
  rw [Ideal.hostReduceAdd_single reducesTo_S50000x4x64_S50000x64_d1 (by decide), Ideal.ofBits_zero_f32, zero_add]
  refine congrArg (fun s => Ideal.div s Cert.Spec.fourW) (Finset.sum_congr rfl fun h _ => ?_)
  refine Eq.trans (congrArg (shapeCast S50000x4x64 a hN) (?_ : _ = ix3 p h q)) (cast3_apply a hN p h q)
  exact funext fun ax => Fin.ext (by match ax with | ⟨0, _⟩ => rfl | ⟨1, _⟩ => rfl | ⟨2, _⟩ => rfl)

/-! ## The attention scores

Leaky ReLU of a whole array is the specification's leaky ReLU of each entry: the comparison with the zero word, the
entry itself where it is positive, the slope word times the entry elsewhere. The attention half laid over the nodes
reads (h, q) at every node. So the score at (p, h) is zero plus the sum over the 64 channels q of
leakyReLU (a (p, 64 h + q) · att (h, q)). -/

theorem lrelu3_apply (y : Stage.Ct Ideal S50000x4x64 .f32) (i : S50000x4x64.Idx) :
    Stage.lrelu3 (F := Ideal) y i = Cert.Spec.lrelu (y i) := rfl

theorem lrelu2_apply (y : Stage.Ct Ideal S50000x256 .f32) (i : S50000x256.Idx) :
    Stage.lrelu2 (F := Ideal) y i = Cert.Spec.lrelu (y i) := rfl

/-- An attention half laid over the nodes reads, at (p, h, q), its entry (h, q). -/
theorem attRows_apply {F : FTy → Type} [FloatOps F] (att : Stage.Ct F S4x64 .f32) (p : Fin 50000) (h : Fin 4) (q : Fin 64) :
    Stage.attRows att (ix3 p h q) = att (ix2 h q) := by
  unfold Stage.attRows
  refine (broadcastInDim_apply _ bcast_S1x4x64_S50000x4x64_0_1_2 _ (ix3 p h q) (ix3 (0 : Fin 1) h q) (fun a => ?_)).trans ?_
  · match a with
    | ⟨0, _⟩ => show 0 = if (1 : Nat) = 1 then 0 else p.val; rw [if_pos rfl]
    | ⟨1, _⟩ => show h.val = if (4 : Nat) = 1 then 0 else h.val; rw [if_neg (by decide)]
    | ⟨2, _⟩ => show q.val = if (64 : Nat) = 1 then 0 else q.val; rw [if_neg (by decide)]
  · exact broadcastInDim_apply _ bcast_S4x64_S1x4x64_1_2 att (ix3 (0 : Fin 1) h q) (ix2 h q) (fun a => match a with
      | ⟨0, _⟩ => by show h.val = if (4 : Nat) = 1 then 0 else h.val; rw [if_neg (by decide)]
      | ⟨1, _⟩ => by show q.val = if (64 : Nat) = 1 then 0 else q.val; rw [if_neg (by decide)])

theorem score_eq (a : Stage.Ct Ideal S50000x256 .f32) (att : Stage.Ct Ideal S4x64 .f32) (h : S4x64.ShapeCasts S256) :
    Stage.score (F := Ideal) (Stage.relay a) att = Cert.Spec.score a (shapeCast S256 att h) := by
  funext i
  obtain ⟨p, hd, rfl⟩ : ∃ (p : Fin 50000) (hd : Fin 4), i = ix2 p hd := ⟨i 0, i 1, eq_ix2 i⟩
  unfold Stage.score Cert.Spec.score
  show Ideal.hostReduceAdd reducesTo_S50000x4x64_S50000x4_d2
      (Stage.lrelu3 (mulf (Stage.relay a) (Stage.attRows att))) (Ideal.ofBits .f32 0x00000000#32) (ix2 p hd) = _
  rw [Ideal.hostReduceAdd_single reducesTo_S50000x4x64_S50000x4_d2 (by decide), Ideal.ofBits_zero_f32, zero_add]
  refine Finset.sum_congr rfl fun q _ => ?_
  refine Eq.trans (congrArg (Stage.lrelu3 (mulf (Stage.relay a) (Stage.attRows att))) (?_ : _ = ix3 p hd q)) ?_
  · exact funext fun ax => Fin.ext (by match ax with | ⟨0, _⟩ => rfl | ⟨1, _⟩ => rfl | ⟨2, _⟩ => rfl)
  · refine (lrelu3_apply _ _).trans (congrArg Cert.Spec.lrelu ?_)
    exact (mulf_apply _ _ _).trans
      (congrArg₂ (· * ·) (relay_apply a p hd q) ((attRows_apply att p hd q).trans (castAtt_apply att h hd q).symm))

/-! ## The layer normalisation

The mean of row p is the sum of the row's 256 entries (zero plus the sum, the reduction's initial word being zero)
divided by the word 256.0, kept as a column; laid back over the columns it is read at the row alone. The deviation
is the entry minus that mean, the variance the mean of the squared deviations, and the result is
leakyReLU ((deviation / sqrt (variance + ε)) · g + b), in the specification's own order of operations. -/

/-- A per-row column laid over the 256 columns reads, at (p, c), the column's entry of row p. -/
theorem colRows_apply {F : FTy → Type} [FloatOps F] (m : Stage.Ct F S50000x1 .f32) (p : Fin 50000) (c : Fin 256) :
    Stage.colRows m (ix2 p c) = m (ix2 p (0 : Fin 1)) := by
  unfold Stage.colRows
  exact broadcastInDim_apply _ bcast_S50000x1_S50000x256_0_1 m (ix2 p c) (ix2 p (0 : Fin 1)) (fun a => match a with
    | ⟨0, _⟩ => by show p.val = if (50000 : Nat) = 1 then 0 else p.val; rw [if_neg (by decide)]
    | ⟨1, _⟩ => by show 0 = if (1 : Nat) = 1 then 0 else c.val; rw [if_pos rfl])

/-- The mean column at row p is the specification's mean of row p. -/
theorem rowMean_apply (a : Stage.Ct Ideal S50000x256 .f32) (p : Fin 50000) :
    Stage.rowMean (F := Ideal) a (ix2 p (0 : Fin 1)) = Cert.Spec.rowMean a p := by
  unfold Stage.rowMean Cert.Spec.rowMean
  show Ideal.div (broadcastInDim S50000x1 ![0] bcast_S50000_S50000x1_0
      (Ideal.hostReduceAdd reducesTo_S50000x256_S50000_d1 a (Ideal.ofBits .f32 0x00000000#32)) (ix2 p (0 : Fin 1)))
    Cert.Spec.c256W = _
  refine congrArg (fun s => Ideal.div s Cert.Spec.c256W) ?_
  refine (broadcastInDim_apply _ bcast_S50000_S50000x1_0 _ (ix2 p (0 : Fin 1)) (ix1 p) (fun ax => match ax with
    | ⟨0, _⟩ => by show p.val = if (50000 : Nat) = 1 then 0 else p.val; rw [if_neg (by decide)])).trans ?_
  rw [Ideal.hostReduceAdd_single reducesTo_S50000x256_S50000_d1 (by decide), Ideal.ofBits_zero_f32, zero_add]
  refine Finset.sum_congr rfl fun c _ => ?_
  exact congrArg a (funext fun ax => Fin.ext (by match ax with | ⟨0, _⟩ => rfl | ⟨1, _⟩ => rfl))

/-- The deviation at (p, c): the entry minus the mean of its row. -/
theorem dev_apply (a : Stage.Ct Ideal S50000x256 .f32) (p : Fin 50000) (c : Fin 256) :
    Stage.dev (F := Ideal) a (ix2 p c) = a (ix2 p c) - Cert.Spec.rowMean a p := by
  unfold Stage.dev
  exact (subf_apply _ _ _).trans (congrArg (fun m => a (ix2 p c) - m) ((colRows_apply _ p c).trans (rowMean_apply a p)))

/-- The mean of the squared deviations of row p is the specification's variance of row p. -/
theorem rowVar_apply (a : Stage.Ct Ideal S50000x256 .f32) (p : Fin 50000) :
    Stage.rowMean (F := Ideal) (mulf (Stage.dev a) (Stage.dev a)) (ix2 p (0 : Fin 1)) = Cert.Spec.rowVar a p := by
  refine (rowMean_apply _ p).trans ?_
  show Ideal.div (∑ c : Fin 256, mulf (Stage.dev a) (Stage.dev a) (ix2 p c)) Cert.Spec.c256W
    = Ideal.div (∑ c : Fin 256, (a (ix2 p c) - Cert.Spec.rowMean a p) * (a (ix2 p c) - Cert.Spec.rowMean a p)) Cert.Spec.c256W
  refine congrArg (fun s => Ideal.div s Cert.Spec.c256W) (Finset.sum_congr rfl fun c _ => ?_)
  exact (mulf_apply _ _ _).trans (congrArg₂ (· * ·) (dev_apply a p c) (dev_apply a p c))

theorem lnorm_eq (a : Stage.Ct Ideal S50000x256 .f32) (g b : Stage.Ct Ideal S256 .f32) :
    Stage.lnorm (F := Ideal) a g b = Cert.Spec.lnR a g b := by
  funext i
  obtain ⟨p, c, rfl⟩ : ∃ (p : Fin 50000) (c : Fin 256), i = ix2 p c := ⟨i 0, i 1, eq_ix2 i⟩
  unfold Stage.lnorm
  show _ = Cert.Spec.lrelu (Ideal.div (a (ix2 p c) - Cert.Spec.rowMean a p)
      (Ideal.sqrt (Cert.Spec.rowVar a p + Cert.Spec.epsW)) * g (ix1 c) + b (ix1 c))
  refine (lrelu2_apply _ _).trans (congrArg Cert.Spec.lrelu ?_)
  refine (addf_apply _ _ _).trans (congrArg₂ (· + ·) ?_ (biasRows_apply b p c))
  refine (mulf_apply _ _ _).trans (congrArg₂ (· * ·) ?_ (biasRows_apply g p c))
  show Ideal.div (Stage.dev a (ix2 p c))
      (Stage.colRows (Host.sqrt (addf (Stage.rowMean (mulf (Stage.dev a) (Stage.dev a)))
        (broadcastInDim S50000x1 ![] bcast_S_S50000x1 (constant S_ .f32 0x3727C5AC#32)))) (ix2 p c)) = _
  refine congrArg₂ Ideal.div (dev_apply a p c) ((colRows_apply _ p c).trans ?_)
  show Ideal.sqrt (Stage.rowMean (mulf (Stage.dev a) (Stage.dev a)) (ix2 p (0 : Fin 1)) + Cert.Spec.epsW) = _
  exact congrArg (fun v => Ideal.sqrt (v + Cert.Spec.epsW)) (rowVar_apply a p)

end Cert.ReferenceIdeal.Read2

end
-- ==== Proof.Bridge.lean ====
/-
  The two programs' results are one function of the ten arguments.  The reference keeps node rows as 4 heads of 64
  channels where the kernel program keeps them flat; gathering, weighting and summing rows commute with that re-laying
  (AggRelay), each reference stage read index by index is the program-free function the kernel's region computes (the
  RefRead modules), and the two places where the spellings differ are the laws of Spec.lean: the deviation times
  rsqrt (variance + ε) is the deviation divided by sqrt (variance + ε) because variance + ε is positive, and the mean of the
  four heads is their sum times a quarter.
-/
import proofs.«129437_j77214922047879_1_alg».proof.Proof.KernelStages
import proofs.«129437_j77214922047879_1_alg».proof.Proof.RefStages
import proofs.«129437_j77214922047879_1_alg».proof.Proof.AggRelay
import proofs.«129437_j77214922047879_1_alg».proof.Proof.RefRead

noncomputable section

namespace Cert.Bridge2

open Idealize.ShloMosaic

/-- Re-laying a flat row as 4 heads of 64 channels is a re-laying. -/
theorem hN : Cert.KernelIdeal.S50000x256.ShapeCasts Cert.ReferenceIdeal.S50000x4x64 :=
  Cert.ReferenceIdeal.Facts₀.shapeCasts_S50000x256_S50000x4x64
/-- Flattening a [4, 64] attention half to 256 entries is a re-laying. -/
theorem hA : Cert.ReferenceIdeal.S4x64.ShapeCasts Cert.ReferenceIdeal.S256 :=
  Cert.KernelIdeal.Facts₀.shapeCasts_S4x64_S256

/-- ONE LAYER: the reference's dense rows re-laid, its two scores and its edge stage are the re-laid aggregate of the
    kernel program's layer over the same dense rows. -/
theorem layer_eq {Kd : Nat} (x : (⟨2, ![50000, Kd]⟩ : Shape).Idx → EReal) (wt : (⟨2, ![Kd, 256]⟩ : Shape).Idx → EReal)
    (b : Cert.KernelIdeal.Stage.Ct Ideal Cert.KernelIdeal.S256 .f32)
    (att : Cert.KernelIdeal.Stage.Ct Ideal Cert.KernelIdeal.S1x4x128 .f32)
    (e : Cert.KernelIdeal.Stage.Ct Ideal Cert.KernelIdeal.S2x800000 .i32) :
    Cert.ReferenceIdeal.Stage.agg (F := Ideal) (Cert.ReferenceIdeal.Stage.relay (F := Ideal) (Cert.Spec.lin x wt b))
        (Cert.ReferenceIdeal.Stage.score (F := Ideal) (Cert.ReferenceIdeal.Stage.relay (F := Ideal) (Cert.Spec.lin x wt b)) (Cert.ReferenceIdeal.Stage.attL (F := Ideal) att))
        (Cert.ReferenceIdeal.Stage.score (F := Ideal) (Cert.ReferenceIdeal.Stage.relay (F := Ideal) (Cert.Spec.lin x wt b)) (Cert.ReferenceIdeal.Stage.attR (F := Ideal) att)) e
      = shapeCast Cert.ReferenceIdeal.S50000x4x64
          (Cert.KernelIdeal.Stage.layer x wt b (Cert.KernelIdeal.Stage.attLf (F := Ideal) att) (Cert.KernelIdeal.Stage.attRf (F := Ideal) att)
            (Cert.KernelIdeal.Stage.src e) (Cert.KernelIdeal.Stage.dst e)) hN := by
  rw [Cert.ReferenceIdeal.Read2.score_eq _ _ hA, Cert.ReferenceIdeal.Read2.score_eq _ _ hA,
    ← Cert.AggRelay.attLf_eq att hA, ← Cert.AggRelay.attRf_eq att hA, Cert.AggRelay.relay_eq _ hN,
    Cert.AggRelay.agg_relay _ _ _ _ hN]
  rfl

/-- THE RESULTS AGREE. -/
theorem result_eq (x : Cert.KernelIdeal.Stage.Ct Ideal Cert.KernelIdeal.S50000x128 .f32) (e : Cert.KernelIdeal.Stage.Ct Ideal Cert.KernelIdeal.S2x800000 .i32)
    (w0 : Cert.KernelIdeal.Stage.Ct Ideal Cert.KernelIdeal.S256x128 .f32) (b0 : Cert.KernelIdeal.Stage.Ct Ideal Cert.KernelIdeal.S256 .f32)
    (w1 : Cert.KernelIdeal.Stage.Ct Ideal Cert.KernelIdeal.S256x256 .f32) (b1 : Cert.KernelIdeal.Stage.Ct Ideal Cert.KernelIdeal.S256 .f32)
    (att0 att1 : Cert.KernelIdeal.Stage.Ct Ideal Cert.KernelIdeal.S1x4x128 .f32) (g b : Cert.KernelIdeal.Stage.Ct Ideal Cert.KernelIdeal.S256 .f32) :
    Cert.ReferenceIdeal.Stage.result (F := Ideal) x e w0 b0 w1 b1 att0 att1 g b
      = Cert.KernelIdeal.Stage.result x e w0 b0 w1 b1 att0 att1 g b := by
  unfold Cert.ReferenceIdeal.Stage.result Cert.KernelIdeal.Stage.result
  dsimp only
  rw [Cert.ReferenceIdeal.Read2.lin0_eq, ← Cert.AggRelay.wt0_eq w0, layer_eq, Cert.AggRelay.flat_relay _ hN,
    Cert.ReferenceIdeal.Read2.lnorm_eq, ← Cert.Spec.lnK_eq_lnR,
    Cert.ReferenceIdeal.Read2.lin1_eq, ← Cert.AggRelay.wt1_eq w1, layer_eq,
    Cert.ReferenceIdeal.Read2.headMean_eq _ hN, ← Cert.Spec.headK_eq_headR]

end Cert.Bridge2

end
-- ==== Proof.lean ====
/-
  The certificate of a two-layer graph-attention network: a Pallas program of four kernels (dense layer with attention
  scores, twice; layer normalisation with leaky ReLU; the mean over the heads) around two edge stages of gathers and
  segment sums, against its jnp reference.

  Both programs compute, per layer, h = x · Wᵀ + b, the per-node per-head scores s_l, s_r = ∑ leakyReLU (h · att), the edge
  weights exp ((s_l[src] + s_r[dst]) / 128), the weighted rows h[dst] summed per source node and divided head by head by
  the summed weights; between the layers a layer normalisation and a leaky ReLU; at the end the mean of the four heads.
  They differ in the layout of a node row (flat 256 columns against 4 heads of 64 channels — gathering, weighting and
  summing rows commute with that re-laying), in the normalisation (the deviation TIMES rsqrt (variance + ε) against the
  deviation DIVIDED BY sqrt (variance + ε): equal on every extended real because variance + ε is positive, a mean of squares
  being non-negative) and in the last mean (the four bands added from the left times 0.25 against their sum divided
  by 4).  None of this uses the precondition: a node no edge points from has 0 / 0 in both programs alike, and every
  law used holds on all of the extended reals.

    * the frames of the two kernel programs: the generated frame certificates;
    * the frame of the reference: its run (read back stretch by stretch, RefRun) with the result dropped;
    * `preserves`: the idealization rewrote nothing;
    * `algebraic`: the kernel program's run with its result named (KernelRun), the result walked back to the arguments
      (Chain: each region's array by Region0 … Region3, each host stretch by KernelHost), the reference's run, and the two
      composites equal (Bridge).
-/
import proofs.«129437_j77214922047879_1_alg».proof.Defs
import proofs.«129437_j77214922047879_1_alg».proof.Proof.Gen.Kernel
import proofs.«129437_j77214922047879_1_alg».proof.Proof.Gen.Kernel.Skeleton
import proofs.«129437_j77214922047879_1_alg».proof.Proof.Gen.Kernel.Launch
import proofs.«129437_j77214922047879_1_alg».proof.Proof.Gen.Kernel.Points
import proofs.«129437_j77214922047879_1_alg».proof.Proof.Gen.Kernel.Frame
import proofs.«129437_j77214922047879_1_alg».proof.Proof.Gen.KernelIdeal
import proofs.«129437_j77214922047879_1_alg».proof.Proof.Gen.KernelIdeal.Skeleton
import proofs.«129437_j77214922047879_1_alg».proof.Proof.Gen.KernelIdeal.Launch
import proofs.«129437_j77214922047879_1_alg».proof.Proof.Gen.KernelIdeal.Points
import proofs.«129437_j77214922047879_1_alg».proof.Proof.Gen.KernelIdeal.Frame
import proofs.«129437_j77214922047879_1_alg».proof.Proof.Gen.ReferenceIdeal
import proofs.«129437_j77214922047879_1_alg».proof.Proof.Gen.Pre_finite_inputs
import proofs.«129437_j77214922047879_1_alg».proof.Proof.KernelRun
import proofs.«129437_j77214922047879_1_alg».proof.Proof.Chain
import proofs.«129437_j77214922047879_1_alg».proof.Proof.RefRun
import proofs.«129437_j77214922047879_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the same result array: the composite of the
    kernel program's stages at the arguments, which the reference's composite equals. -/
theorem algebraic : Cert.algebraic_KernelIdeal_ReferenceIdeal := by
  intro m ρ m' ρ' _ hagree
  refine ⟨fun c => Cert.KernelIdeal.Stage.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9⟩ := hagree c
    rw [h0, h1, h2, h3, h4, h5, h6, h7, h8, h9]
    exact Cert.Bridge2.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
